-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v31_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v31_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S320000x128 : Shape := ⟨2, ![320000, 128]⟩
abbrev S320000 : Shape := ⟨1, ![320000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x128 : S_.BroadcastsInDim S320000x128 (![] : Fin 0 → Fin S320000x128.rank)
  reducesTo_S320000x128_S_d0_1 : S320000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_arg20 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg16 : FVec F S128 .f32) (main_arg17 : FVec F S128 .f32) (main_arg18 : FVec F S128 .f32) (main_arg19 : FVec F S128 .f32) (main_arg20 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S128x128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S10000x128 .f32) (main_arg1 : FVec F S320000x128 .f32) (main_arg2 : FVec F S10000x128 .f32) (main_arg3 : IVec S320000 32) (main_arg4 : IVec S320000 32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000x128 .f32 := Host.absf main_arg1
  let main_cst_0 : FVec F S_ .f32 := constant S_ .f32 0x7F800000#32
  let main_v5 : FVec F S320000x128 .f32 := broadcastInDim S320000x128 ![] bcast_S_S320000x128 main_cst_0
  let main_v6 : IVec S320000x128 1 := cmpf .olt main_v4 main_v5
  let main_c_1 : IVec S_ 1 := constantI S_ 1 1#1
  let main_v7 : IVec S_ 1 := (fun x v => Host.reduce IntOp.andi x v reducesTo_S320000x128_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S10000x128 : Shape := ⟨2, ![10000, 128]⟩
abbrev S320000x128 : Shape := ⟨2, ![320000, 128]⟩
abbrev S320000 : Shape := ⟨1, ![320000]⟩
abbrev S128x128 : Shape := ⟨2, ![128, 128]⟩
abbrev S128 : Shape := ⟨1, ![128]⟩
abbrev S1x128 : Shape := ⟨2, ![1, 128]⟩
abbrev S2000x128 : Shape := ⟨2, ![2000, 128]⟩
abbrev S_ : Shape := ⟨0, ![]⟩
abbrev S320000x1 : Shape := ⟨2, ![320000, 1]⟩
abbrev S3200x128 : Shape := ⟨2, ![3200, 128]⟩
abbrev S3200 : Shape := ⟨1, ![3200]⟩
abbrev S3200x1 : Shape := ⟨2, ![3200, 1]⟩
abbrev S2000 : Shape := ⟨1, ![2000]⟩
abbrev S2000x1 : Shape := ⟨2, ![2000, 1]⟩

abbrev nBuf : Space → Nat
  | .hbm => 77
  | .vmem => 50
  | .smem => 0
  | _ => 0

abbrev bufTy : (tb : Table) → Fin (tcTables nBuf tb) → BufTy
  | .hbm, ⟨0, _⟩ => ⟨S10000x128, .f32⟩
  | .hbm, ⟨1, _⟩ => ⟨S320000x128, .f32⟩
  | .hbm, ⟨2, _⟩ => ⟨S10000x128, .f32⟩
  | .hbm, ⟨3, _⟩ => ⟨S320000, .i32⟩
  | .hbm, ⟨4, _⟩ => ⟨S320000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S10000x128, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S_, .i32⟩
  | .hbm, ⟨31, _⟩ => ⟨S320000, .i32⟩
  | .hbm, ⟨32, _⟩ => ⟨S320000, .i1⟩
  | .hbm, ⟨33, _⟩ => ⟨S_, .i32⟩
  | .hbm, ⟨34, _⟩ => ⟨S320000, .i32⟩
  | .hbm, ⟨35, _⟩ => ⟨S320000, .i32⟩
  | .hbm, ⟨36, _⟩ => ⟨S320000, .i32⟩
  | .hbm, ⟨37, _⟩ => ⟨S320000x1, .i32⟩
  | .hbm, ⟨38, _⟩ => ⟨S320000x128, .f32⟩
  | .hbm, ⟨39, _⟩ => ⟨S_, .i32⟩
  | .hbm, ⟨40, _⟩ => ⟨S320000, .i32⟩
  | .hbm, ⟨41, _⟩ => ⟨S320000, .i1⟩
  | .hbm, ⟨42, _⟩ => ⟨S_, .i32⟩
  | .hbm, ⟨43, _⟩ => ⟨S320000, .i32⟩
  | .hbm, ⟨44, _⟩ => ⟨S320000, .i32⟩
  | .hbm, ⟨45, _⟩ => ⟨S320000, .i32⟩
  | .hbm, ⟨46, _⟩ => ⟨S320000x1, .i32⟩
  | .hbm, ⟨47, _⟩ => ⟨S320000x128, .f32⟩
  | .hbm, ⟨48, _⟩ => ⟨S320000x128, .f32⟩
  | .hbm, ⟨49, _⟩ => ⟨S_, .i32⟩
  | .hbm, ⟨50, _⟩ => ⟨S320000, .i32⟩
  | .hbm, ⟨51, _⟩ => ⟨S320000, .i1⟩
  | .hbm, ⟨52, _⟩ => ⟨S_, .i32⟩
  | .hbm, ⟨53, _⟩ => ⟨S320000, .i32⟩
  | .hbm, ⟨54, _⟩ => ⟨S320000, .i32⟩
  | .hbm, ⟨55, _⟩ => ⟨S320000, .i32⟩
  | .hbm, ⟨56, _⟩ => ⟨S320000x1, .i32⟩
  | .hbm, ⟨57, _⟩ => ⟨S320000x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S320000x128, .bf16⟩
  | .hbm, ⟨62, _⟩ => ⟨S320000x128, .bf16⟩
  | .hbm, ⟨63, _⟩ => ⟨S320000x128, .f32⟩
  | .hbm, ⟨64, _⟩ => ⟨S320000x128, .f32⟩
  | .hbm, ⟨65, _⟩ => ⟨S_, .f32⟩
  | .hbm, ⟨66, _⟩ => ⟨S10000x128, .f32⟩
  | .hbm, ⟨67, _⟩ => ⟨S320000x1, .i32⟩
  | .hbm, ⟨68, _⟩ => ⟨S10000x128, .f32⟩
  | .hbm, ⟨69, _⟩ => ⟨S320000x128, .f32⟩
  | .hbm, ⟨70, _⟩ => ⟨S_, .f32⟩
  | .hbm, ⟨71, _⟩ => ⟨S10000x128, .f32⟩
  | .hbm, ⟨72, _⟩ => ⟨S320000x1, .i32⟩
  | .hbm, ⟨73, _⟩ => ⟨S10000x128, .f32⟩
  | .hbm, ⟨74, _⟩ => ⟨S1x128, .f32⟩
  | .hbm, ⟨75, _⟩ => ⟨S1x128, .f32⟩
  | .hbm, ⟨76, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S3200x128, .f32⟩
  | .local _ .vmem, ⟨23, _⟩ => ⟨S3200x128, .f32⟩
  | .local _ .vmem, ⟨24, _⟩ => ⟨S3200x128, .f32⟩
  | .local _ .vmem, ⟨25, _⟩ => ⟨S3200x128, .f32⟩
  | .local _ .vmem, ⟨26, _⟩ => ⟨S3200x128, .f32⟩
  | .local _ .vmem, ⟨27, _⟩ => ⟨S3200x128, .f32⟩
  | .local _ .vmem, ⟨28, _⟩ => ⟨S128x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S3200x128, .bf16⟩
  | .local _ .vmem, ⟨33, _⟩ => ⟨S3200x128, .bf16⟩
  | .local _ .vmem, ⟨34, _⟩ => ⟨S3200x128, .bf16⟩
  | .local _ .vmem, ⟨35, _⟩ => ⟨S3200x128, .bf16⟩
  | .local _ .vmem, ⟨36, _⟩ => ⟨S3200x128, .f32⟩
  | .local _ .vmem, ⟨37, _⟩ => ⟨S3200x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S1x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5_0 : Ref sig .tc := ⟨.hbm, 26, rfl⟩
abbrev main_v5_1 : Ref sig .tc := ⟨.hbm, 27, rfl⟩
abbrev main_v5_2 : Ref sig .tc := ⟨.hbm, 28, rfl⟩
abbrev main_v5_3 : Ref sig .tc := ⟨.hbm, 29, rfl⟩
abbrev main_c : Ref sig .tc := ⟨.hbm, 30, rfl⟩
abbrev main_v6 : Ref sig .tc := ⟨.hbm, 31, rfl⟩
abbrev main_v7 : Ref sig .tc := ⟨.hbm, 32, rfl⟩
abbrev main_c_0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_1 : Ref sig .tc := ⟨.hbm, 39, rfl⟩
abbrev main_v13 : Ref sig .tc := ⟨.hbm, 40, rfl⟩
abbrev main_v14 : Ref sig .tc := ⟨.hbm, 41, rfl⟩
abbrev main_c_2 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_3 : Ref sig .tc := ⟨.hbm, 49, rfl⟩
abbrev main_v21 : Ref sig .tc := ⟨.hbm, 50, rfl⟩
abbrev main_v22 : Ref sig .tc := ⟨.hbm, 51, rfl⟩
abbrev main_c_4 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31_0 : Ref sig .tc := ⟨.hbm, 61, rfl⟩
abbrev main_v31_1 : Ref sig .tc := ⟨.hbm, 62, rfl⟩
abbrev main_v31_2 : Ref sig .tc := ⟨.hbm, 63, rfl⟩
abbrev main_v32 : Ref sig .tc := ⟨.hbm, 64, rfl⟩
abbrev main_cst : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_5 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg4_0 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc1_stg9_0 : Ref sig .tc := ⟨.vmem, 36, rfl⟩
abbrev cc1_stg9_1 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg1_1 : Ref sig .tc := ⟨.vmem, 41, rfl⟩
abbrev cc2_stg2_0 : Ref sig .tc := ⟨.vmem, 42, rfl⟩
abbrev cc2_stg2_1 : Ref sig .tc := ⟨.vmem, 43, rfl⟩
abbrev cc2_stg3_0 : Ref sig .tc := ⟨.vmem, 44, rfl⟩
abbrev cc2_stg3_1 : Ref sig .tc := ⟨.vmem, 45, rfl⟩
abbrev cc2_stg4_0 : Ref sig .tc := ⟨.vmem, 46, rfl⟩
abbrev cc2_stg5_0 : Ref sig .tc := ⟨.vmem, 47, rfl⟩
abbrev cc2_stg6_0 : Ref sig .tc := ⟨.vmem, 48, rfl⟩
abbrev cc2_stg6_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem4_0 : DmaSem sig := 29
abbrev cc1_sem5_0 : DmaSem sig := 30
abbrev cc1_sem6_0 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem2_1 : DmaSem sig := 43
abbrev cc2_sem3_0 : DmaSem sig := 44
abbrev cc2_sem3_1 : DmaSem sig := 45
abbrev cc2_sem4_0 : DmaSem sig := 46
abbrev cc2_sem5_0 : DmaSem sig := 47
abbrev cc2_sem6_0 : DmaSem sig := 48
abbrev cc2_sem6_1 : DmaSem sig := 49

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2000x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S3200x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S3200x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S3200x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S320000 : S_.BroadcastsInDim S320000 (![] : Fin 0 → Fin S320000.rank)
  bcast_S320000_S320000x1_0 : S320000.BroadcastsInDim S320000x1 (![0] : Fin 1 → Fin S320000x1.rank)
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  broadcasts_S1x128_S3200x128 : S1x128.Broadcasts S3200x128
  packedbf16_S3200x128_S3200x128_0_0 : (Rect.unit (s := S3200x128) ![0, 0] S3200x128.size inb_S3200x128_S3200x128_0_0).PackedRows (EltTy.packing .bf16)
  reduces_S3200x128_S3200 : S3200x128.Reduces [1] S3200
  shapeCasts_S3200_S3200x1 : S3200.ShapeCasts S3200x1
  broadcasts_S3200x1_S3200x128 : S3200x1.Broadcasts S3200x128
  bcast_S_S10000x128 : S_.BroadcastsInDim S10000x128 (![] : Fin 0 → Fin S10000x128.rank)
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  dot_S2000x128_S128x128_S2000x128_1_0_0_1_n_n_wf : DotDims.WF S2000x128 S128x128 S2000x128 [1] [0] [0] [1] [] []
  gather_S10000x128_S320000x1_S320000x128_1_0_n_n_0_1_1128_wf : GatherDims.WF S10000x128 S320000x1 S320000x128 [1] [0] [] [0] [] 1 ![1, 128]
  dot_S3200x128_S128x128_S3200x128_1_0_0_1_n_n_wf : DotDims.WF S3200x128 S128x128 S3200x128 [1] [0] [0] [1] [] []
  scatter_S10000x128_S320000x1_S320000x128_1_0_0_1_wf : ScatterDims.WF S10000x128 S320000x1 S320000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S10000x128.size a
  hwx0_1 : ∀ i : grid0.Coords, EltTy.bits .f32 = 32 ∨ (Rect.block (s := S10000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x128.size a ≤ S10000x128.size a
  hwx0_12 : ∀ i : grid0.Coords, EltTy.bits .f32 = 32 ∨ (Rect.block (s := S10000x128) S2000x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x128.size a ≤ S10000x128.size a
  hwx0_13 : ∀ i : grid0.Coords, EltTy.bits .f32 = 32 ∨ (Rect.block (s := S10000x128) S2000x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x128.size a ≤ S10000x128.size a
  hwx0_14 : ∀ i : grid0.Coords, EltTy.bits .f32 = 32 ∨ (Rect.block (s := S10000x128) S2000x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x128.size a ≤ S10000x128.size a
  hwx0_15 : ∀ i : grid0.Coords, EltTy.bits .f32 = 32 ∨ (Rect.block (s := S10000x128) S2000x128.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x128.size a ≤ S320000x128.size a
  hwx1_0 : ∀ i : grid1.Coords, EltTy.bits .f32 = 32 ∨ (Rect.block (s := S320000x128) S3200x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x128.size a ≤ S320000x128.size a
  hwx1_1 : ∀ i : grid1.Coords, EltTy.bits .f32 = 32 ∨ (Rect.block (s := S320000x128) S3200x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x128.size a ≤ S320000x128.size a
  hwx1_2 : ∀ i : grid1.Coords, EltTy.bits .f32 = 32 ∨ (Rect.block (s := S320000x128) S3200x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S3200x128.size a ≤ S320000x128.size a
  hwx1_7 : ∀ i : grid1.Coords, EltTy.bits .bf16 = 32 ∨ (Rect.block (s := S320000x128) S3200x128.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S3200x128.size a ≤ S320000x128.size a
  hwx1_8 : ∀ i : grid1.Coords, EltTy.bits .bf16 = 32 ∨ (Rect.block (s := S320000x128) S3200x128.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S3200x128.size a ≤ S320000x128.size a
  hwx1_9 : ∀ i : grid1.Coords, EltTy.bits .f32 = 32 ∨ (Rect.block (s := S320000x128) S3200x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S10000x128.size a
  hwx2_0 : ∀ i : grid2.Coords, EltTy.bits .f32 = 32 ∨ (Rect.block (s := S10000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S10000x128.size a
  hwx2_1 : ∀ i : grid2.Coords, EltTy.bits .f32 = 32 ∨ (Rect.block (s := S10000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S10000x128.size a
  hwx2_2 : ∀ i : grid2.Coords, EltTy.bits .f32 = 32 ∨ (Rect.block (s := S10000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S10000x128.size a
  hwx2_3 : ∀ i : grid2.Coords, EltTy.bits .f32 = 32 ∨ (Rect.block (s := S10000x128) S2000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S10000x128.size a
  hwx2_6 : ∀ i : grid2.Coords, EltTy.bits .f32 = 32 ∨ (Rect.block (s := S10000x128) S2000x128.size (cc2_transform_6 i) (hinb2_6 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg15) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5_0) S2000x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v5_1) S2000x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v5_2) S2000x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v5_3) S2000x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v20) S3200x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S3200x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S3200x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31_0) S3200x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v31_1) S3200x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v31_2) S3200x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5_3) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v39) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S10000x128 : Shape := ⟨2, ![10000, 128]⟩
abbrev S320000x128 : Shape := ⟨2, ![320000, 128]⟩
abbrev S320000 : Shape := ⟨1, ![320000]⟩
abbrev S128x128 : Shape := ⟨2, ![128, 128]⟩
abbrev S128 : Shape := ⟨1, ![128]⟩
abbrev S1x128 : Shape := ⟨2, ![1, 128]⟩
abbrev S_ : Shape := ⟨0, ![]⟩
abbrev S320000x1 : Shape := ⟨2, ![320000, 1]⟩
abbrev S10000 : Shape := ⟨1, ![10000]⟩
abbrev S10000x1 : Shape := ⟨2, ![10000, 1]⟩

abbrev nBuf : Space → Nat
  | .hbm => 175
  | .vmem => 0
  | .smem => 0
  | _ => 0

abbrev hbmTy0_0 (i : Nat) : BufTy := match i % 128 with
  | 0 => ⟨S10000x128, .f32⟩
  | 1 => ⟨S320000x128, .f32⟩
  | 2 => ⟨S10000x128, .f32⟩
  | 3 => ⟨S320000, .i32⟩
  | 4 => ⟨S320000, .i32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128, .f32⟩
  | 18 => ⟨S128, .f32⟩
  | 19 => ⟨S128, .f32⟩
  | 20 => ⟨S128, .f32⟩
  | 21 => ⟨S10000x128, .f32⟩
  | 22 => ⟨S1x128, .f32⟩
  | 23 => ⟨S10000x128, .f32⟩
  | 24 => ⟨S10000x128, .f32⟩
  | 25 => ⟨S10000x128, .f32⟩
  | 26 => ⟨S10000x128, .f32⟩
  | 27 => ⟨S1x128, .f32⟩
  | 28 => ⟨S10000x128, .f32⟩
  | 29 => ⟨S10000x128, .f32⟩
  | 30 => ⟨S10000x128, .f32⟩
  | 31 => ⟨S1x128, .f32⟩
  | 32 => ⟨S10000x128, .f32⟩
  | 33 => ⟨S10000x128, .f32⟩
  | 34 => ⟨S_, .i32⟩
  | 35 => ⟨S320000, .i32⟩
  | 36 => ⟨S320000, .i1⟩
  | 37 => ⟨S_, .i32⟩
  | 38 => ⟨S320000, .i32⟩
  | 39 => ⟨S320000, .i32⟩
  | 40 => ⟨S320000, .i32⟩
  | 41 => ⟨S320000x1, .i32⟩
  | 42 => ⟨S320000x128, .f32⟩
  | 43 => ⟨S_, .i32⟩
  | 44 => ⟨S320000, .i32⟩
  | 45 => ⟨S320000, .i1⟩
  | 46 => ⟨S_, .i32⟩
  | 47 => ⟨S320000, .i32⟩
  | 48 => ⟨S320000, .i32⟩
  | 49 => ⟨S320000, .i32⟩
  | 50 => ⟨S320000x1, .i32⟩
  | 51 => ⟨S320000x128, .f32⟩
  | 52 => ⟨S320000x128, .f32⟩
  | 53 => ⟨S320000x128, .f32⟩
  | 54 => ⟨S320000x128, .f32⟩
  | 55 => ⟨S1x128, .f32⟩
  | 56 => ⟨S320000x128, .f32⟩
  | 57 => ⟨S320000x128, .f32⟩
  | 58 => ⟨S320000x128, .f32⟩
  | 59 => ⟨S320000x128, .f32⟩
  | 60 => ⟨S_, .f32⟩
  | 61 => ⟨S320000x128, .f32⟩
  | 62 => ⟨S320000x128, .f32⟩
  | 63 => ⟨S_, .f32⟩
  | 64 => ⟨S320000x128, .f32⟩
  | 65 => ⟨S320000x128, .f32⟩
  | 66 => ⟨S10000x128, .f32⟩
  | 67 => ⟨S1x128, .f32⟩
  | 68 => ⟨S10000x128, .f32⟩
  | 69 => ⟨S10000x128, .f32⟩
  | 70 => ⟨S_, .i32⟩
  | 71 => ⟨S320000, .i32⟩
  | 72 => ⟨S320000, .i1⟩
  | 73 => ⟨S_, .i32⟩
  | 74 => ⟨S320000, .i32⟩
  | 75 => ⟨S320000, .i32⟩
  | 76 => ⟨S320000, .i32⟩
  | 77 => ⟨S320000x1, .i32⟩
  | 78 => ⟨S320000x128, .f32⟩
  | 79 => ⟨S320000x128, .f32⟩
  | 80 => ⟨S_, .f32⟩
  | 81 => ⟨S10000x128, .f32⟩
  | 82 => ⟨S320000x1, .i32⟩
  | 83 => ⟨S10000x128, .f32⟩
  | 84 => ⟨S_, .f32⟩
  | 85 => ⟨S10000x128, .f32⟩
  | 86 => ⟨S320000x1, .i32⟩
  | 87 => ⟨S10000x128, .f32⟩
  | 88 => ⟨S_, .f32⟩
  | 89 => ⟨S10000x128, .f32⟩
  | 90 => ⟨S10000x128, .f32⟩
  | 91 => ⟨S10000x128, .f32⟩
  | 92 => ⟨S10000x128, .f32⟩
  | 93 => ⟨S1x128, .f32⟩
  | 94 => ⟨S10000x128, .f32⟩
  | 95 => ⟨S10000x128, .f32⟩
  | 96 => ⟨S10000x128, .f32⟩
  | 97 => ⟨S_, .f32⟩
  | 98 => ⟨S10000, .f32⟩
  | 99 => ⟨S10000x1, .f32⟩
  | 100 => ⟨S_, .f32⟩
  | 101 => ⟨S10000x1, .f32⟩
  | 102 => ⟨S10000x1, .f32⟩
  | 103 => ⟨S10000x128, .f32⟩
  | 104 => ⟨S10000x128, .f32⟩
  | 105 => ⟨S10000x128, .f32⟩
  | 106 => ⟨S_, .f32⟩
  | 107 => ⟨S10000, .f32⟩
  | 108 => ⟨S10000x1, .f32⟩
  | 109 => ⟨S_, .f32⟩
  | 110 => ⟨S10000x1, .f32⟩
  | 111 => ⟨S10000x1, .f32⟩
  | 112 => ⟨S10000x128, .f32⟩
  | 113 => ⟨S10000x128, .f32⟩
  | 114 => ⟨S_, .f32⟩
  | 115 => ⟨S10000x1, .f32⟩
  | 116 => ⟨S10000x1, .f32⟩
  | 117 => ⟨S10000x1, .f32⟩
  | 118 => ⟨S10000x128, .f32⟩
  | 119 => ⟨S10000x128, .f32⟩
  | 120 => ⟨S1x128, .f32⟩
  | 121 => ⟨S10000x128, .f32⟩
  | 122 => ⟨S10000x128, .f32⟩
  | 123 => ⟨S1x128, .f32⟩
  | 124 => ⟨S10000x128, .f32⟩
  | 125 => ⟨S10000x128, .f32⟩
  | 126 => ⟨S10000x128, .f32⟩
  | 127 => ⟨S10000x128, .f32⟩
  | _ => ⟨S10000x128, .f32⟩

abbrev hbmTy0_1 (i : Nat) : BufTy := match i % 128 with
  | 0 => ⟨S_, .f32⟩
  | 1 => ⟨S10000x128, .f32⟩
  | 2 => ⟨S10000x128, .f32⟩
  | 3 => ⟨S_, .f32⟩
  | 4 => ⟨S10000x128, .f32⟩
  | 5 => ⟨S10000x128, .f32⟩
  | 6 => ⟨S10000x128, .f32⟩
  | 7 => ⟨S_, .f32⟩
  | 8 => ⟨S320000, .f32⟩
  | 9 => ⟨S320000x1, .f32⟩
  | 10 => ⟨S_, .f32⟩
  | 11 => ⟨S320000x1, .f32⟩
  | 12 => ⟨S320000x1, .f32⟩
  | 13 => ⟨S320000x128, .f32⟩
  | 14 => ⟨S320000x128, .f32⟩
  | 15 => ⟨S320000x128, .f32⟩
  | 16 => ⟨S_, .f32⟩
  | 17 => ⟨S320000, .f32⟩
  | 18 => ⟨S320000x1, .f32⟩
  | 19 => ⟨S_, .f32⟩
  | 20 => ⟨S320000x1, .f32⟩
  | 21 => ⟨S320000x1, .f32⟩
  | 22 => ⟨S320000x128, .f32⟩
  | 23 => ⟨S320000x128, .f32⟩
  | 24 => ⟨S_, .f32⟩
  | 25 => ⟨S320000x1, .f32⟩
  | 26 => ⟨S320000x1, .f32⟩
  | 27 => ⟨S320000x1, .f32⟩
  | 28 => ⟨S320000x128, .f32⟩
  | 29 => ⟨S320000x128, .f32⟩
  | 30 => ⟨S1x128, .f32⟩
  | 31 => ⟨S320000x128, .f32⟩
  | 32 => ⟨S320000x128, .f32⟩
  | 33 => ⟨S1x128, .f32⟩
  | 34 => ⟨S320000x128, .f32⟩
  | 35 => ⟨S320000x128, .f32⟩
  | 36 => ⟨S320000x128, .f32⟩
  | 37 => ⟨S320000x128, .f32⟩
  | 38 => ⟨S_, .f32⟩
  | 39 => ⟨S320000x128, .f32⟩
  | 40 => ⟨S320000x128, .f32⟩
  | 41 => ⟨S_, .f32⟩
  | 42 => ⟨S320000x128, .f32⟩
  | 43 => ⟨S320000x128, .f32⟩
  | 44 => ⟨S320000x128, .f32⟩
  | 45 => ⟨S10000x128, .f32⟩
  | 46 => ⟨S320000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_0 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_1 : Ref sig .tc := ⟨.hbm, 43, rfl⟩
abbrev main_v20 : Ref sig .tc := ⟨.hbm, 44, rfl⟩
abbrev main_v21 : Ref sig .tc := ⟨.hbm, 45, rfl⟩
abbrev main_c_2 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst : Ref sig .tc := ⟨.hbm, 60, rfl⟩
abbrev main_v35 : Ref sig .tc := ⟨.hbm, 61, rfl⟩
abbrev main_v36 : Ref sig .tc := ⟨.hbm, 62, rfl⟩
abbrev main_cst_3 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_4 : Ref sig .tc := ⟨.hbm, 70, rfl⟩
abbrev main_v43 : Ref sig .tc := ⟨.hbm, 71, rfl⟩
abbrev main_v44 : Ref sig .tc := ⟨.hbm, 72, rfl⟩
abbrev main_c_5 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_6 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_7 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_8 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_9 : Ref sig .tc := ⟨.hbm, 97, rfl⟩
abbrev main_v65 : Ref sig .tc := ⟨.hbm, 98, rfl⟩
abbrev main_v66 : Ref sig .tc := ⟨.hbm, 99, rfl⟩
abbrev main_cst_10 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_11 : Ref sig .tc := ⟨.hbm, 106, rfl⟩
abbrev main_v72 : Ref sig .tc := ⟨.hbm, 107, rfl⟩
abbrev main_v73 : Ref sig .tc := ⟨.hbm, 108, rfl⟩
abbrev main_cst_12 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_13 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_call0_v0 : Ref sig .tc := ⟨.hbm, 126, rfl⟩
abbrev main_call0_v1 : Ref sig .tc := ⟨.hbm, 127, rfl⟩
abbrev main_call0_cst : Ref sig .tc := ⟨.hbm, 128, rfl⟩
abbrev main_call0_v2 : Ref sig .tc := ⟨.hbm, 129, rfl⟩
abbrev main_call0_v3 : Ref sig .tc := ⟨.hbm, 130, rfl⟩
abbrev main_call0_cst_0 : Ref sig .tc := ⟨.hbm, 131, rfl⟩
abbrev main_call0_v4 : Ref sig .tc := ⟨.hbm, 132, rfl⟩
abbrev main_call0_v5 : Ref sig .tc := ⟨.hbm, 133, rfl⟩
abbrev main_v89 : Ref sig .tc := ⟨.hbm, 134, rfl⟩
abbrev main_cst_14 : Ref sig .tc := ⟨.hbm, 135, rfl⟩
abbrev main_v90 : Ref sig .tc := ⟨.hbm, 136, rfl⟩
abbrev main_v91 : Ref sig .tc := ⟨.hbm, 137, rfl⟩
abbrev main_cst_15 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_16 : Ref sig .tc := ⟨.hbm, 144, rfl⟩
abbrev main_v97 : Ref sig .tc := ⟨.hbm, 145, rfl⟩
abbrev main_v98 : Ref sig .tc := ⟨.hbm, 146, rfl⟩
abbrev main_cst_17 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_cst_18 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_call1_v0 : Ref sig .tc := ⟨.hbm, 164, rfl⟩
abbrev main_call1_v1 : Ref sig .tc := ⟨.hbm, 165, rfl⟩
abbrev main_call1_cst : Ref sig .tc := ⟨.hbm, 166, rfl⟩
abbrev main_call1_v2 : Ref sig .tc := ⟨.hbm, 167, rfl⟩
abbrev main_call1_v3 : Ref sig .tc := ⟨.hbm, 168, rfl⟩
abbrev main_call1_cst_0 : Ref sig .tc := ⟨.hbm, 169, rfl⟩
abbrev main_call1_v4 : Ref sig .tc := ⟨.hbm, 170, rfl⟩
abbrev main_call1_v5 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S320000 : S_.BroadcastsInDim S320000 (![] : Fin 0 → Fin S320000.rank)
  bcast_S320000_S320000x1_0 : S320000.BroadcastsInDim S320000x1 (![0] : Fin 1 → Fin S320000x1.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S_S10000x128 : S_.BroadcastsInDim S10000x128 (![] : Fin 0 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  reducesTo_S320000x128_S320000_d1 : S320000x128.ReducesTo [1] S320000
  bcast_S_S320000x1 : S_.BroadcastsInDim S320000x1 (![] : Fin 0 → Fin S320000x1.rank)
  bcast_S320000x1_S320000x128_0_1 : S320000x1.BroadcastsInDim S320000x128 (![0, 1] : Fin 2 → Fin S320000x128.rank)
  dot_S10000x128_S128x128_S10000x128_1_0_0_1_n_n_wf : DotDims.WF S10000x128 S128x128 S10000x128 [1] [0] [0] [1] [] []
  gather_S10000x128_S320000x1_S320000x128_1_0_n_n_0_1_1128_wf : GatherDims.WF S10000x128 S320000x1 S320000x128 [1] [0] [] [0] [] 1 ![1, 128]
  dot_S320000x128_S128x128_S320000x128_1_0_0_1_n_n_wf : DotDims.WF S320000x128 S128x128 S320000x128 [1] [0] [0] [1] [] []
  scatter_S10000x128_S320000x1_S320000x128_1_0_0_1_wf : ScatterDims.WF S10000x128 S320000x1 S320000x128 [1] [0] [0] 1

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf

class Facts : Prop extends Facts₀ where

variable [Facts]
-- ==== Proof.Spec.lean ====
/-
  The mathematics both programs compute, row by row, on the extended reals.

  A node or edge array has 128 columns; every stage of the computation at row `r`, column `q` depends only on row `r`
  of its row-indexed operands, on whole 128×128 weight matrices and on 1×128 bias rows:
    • a linear map of a row: the sum over `k` of `x r k · W k q`, plus a bias entry;
    • the edge pre-activation `m = gate + ef·W + b`, its logistic and the gated message;
    • layer normalisation of a row (mean and variance as quotients by 128, reciprocal square root of variance plus
      epsilon, scale and shift), followed by `z · logistic z` and a residual.
  The three literals (128, the layer-norm epsilon, the denominator's epsilon) are kept as the binary words both programs print.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- An array of `n` rows and 128 columns of extended reals. -/
abbrev Mat (n : Nat) : Type := (⟨2, ![n, 128]⟩ : Shape).Idx → EReal

/-- The word of 128.0. -/
def c128 : EReal := Ideal.ofBits .f32 0x43000000#32
/-- The word of the layer-norm epsilon (1e-5 rounded to f32). -/
def cEps : EReal := Ideal.ofBits .f32 0x3727C5AC#32
/-- The word of the denominator's epsilon (1e-6 rounded to f32). -/
def cTiny : EReal := Ideal.ofBits .f32 0x358637BD#32

/-- An array from its value at each (row, column). -/
def ofAt {n : Nat} (f : Fin n → Fin 128 → EReal) : Mat n := fun i => f (i 0) (i 1)

theorem ofAt_ix2 {n : Nat} (f : Fin n → Fin 128 → EReal) (r : Fin n) (q : Fin 128) : ofAt f (ix2 r q) = f r q := rfl

/-- A vector of 128 entries as a one-row array. -/
def rowOf (b : (⟨1, ![128]⟩ : Shape).Idx → EReal) : Mat 1 := fun i => b (ix1 (i 1))

/-- Row `r` of `x` against column `q` of `W`. -/
def dotAt {n : Nat} (x : Mat n) (W : Mat 128) (r : Fin n) (q : Fin 128) : EReal :=
  ∑ k : Fin 128, x (ix2 r k) * W (ix2 k q)

/-- A linear map of row `r` with its bias entry. -/
def linAt {n : Nat} (x : Mat n) (W : Mat 128) (b : Mat 1) (r : Fin n) (q : Fin 128) : EReal :=
  dotAt x W r q + b (ix2 0 q)

/-- The source gate: two linear maps (of the node row and of the time row) added in the programs' order. -/
def srcGateAt {n : Nat} (x t : Mat n) (Wx : Mat 128) (bx : Mat 1) (Wt : Mat 128) (bt : Mat 1) (r : Fin n) (q : Fin 128) : EReal :=
  ((dotAt x Wx r q + bx (ix2 0 q)) + dotAt t Wt r q) + bt (ix2 0 q)

/-- The edge pre-activation. -/
def preAt {n : Nat} (gate ef : Mat n) (W : Mat 128) (b : Mat 1) (r : Fin n) (q : Fin 128) : EReal :=
  (gate (ix2 r q) + dotAt ef W r q) + b (ix2 0 q)

/-- The mean of a row, as the quotient of its sum by the word of 128. -/
def mean (x : Fin 128 → EReal) : EReal := Ideal.div (∑ k : Fin 128, x k) c128

/-- The variance of a row: the mean of the squared deviations. -/
def var (x : Fin 128 → EReal) : EReal := Ideal.div (∑ k : Fin 128, (x k - mean x) * (x k - mean x)) c128

/-- Layer normalisation of a row, scaled by `g` and shifted by `b`. -/
def lnAt (x : Fin 128 → EReal) (g b : Mat 1) (q : Fin 128) : EReal :=
  ((x q - mean x) * Ideal.rsqrt (var x + cEps)) * g (ix2 0 q) + b (ix2 0 q)

/-- `z · logistic z`. -/
def siluAt (z : EReal) : EReal := z * Ideal.logistic z

/-- The edge output: the edge feature plus the activated, normalised pre-activation. -/
def edgeOutAt {n : Nat} (gate ef : Mat n) (W : Mat 128) (b g be : Mat 1) (r : Fin n) (q : Fin 128) : EReal :=
  ef (ix2 r q) + siluAt (lnAt (fun k => preAt gate ef W b r k) g be q)

/-- The node update before normalisation: the projected node row plus the gated mean of its incoming messages. -/
def nodePreAt {n : Nat} (xsu ssh ss : Mat n) (r : Fin n) (q : Fin 128) : EReal :=
  xsu (ix2 r q) + Ideal.div (ssh (ix2 r q)) (ss (ix2 r q) + cTiny)

/-- The node output: the node feature plus the activated, normalised update. -/
def nodeOutAt {n : Nat} (node xsu ssh ss : Mat n) (g be : Mat 1) (r : Fin n) (q : Fin 128) : EReal :=
  node (ix2 r q) + siluAt (lnAt (fun k => nodePreAt xsu ssh ss r k) g be q)

/-! ## Each stage at row `r` reads only row `r` of its row-indexed operands

So a block of rows computes, row by row, what the whole array computes: the statements below replace the
row-indexed operands by others that agree on the row. -/

theorem dotAt_rows {n n' : Nat} {x : Mat n} {x' : Mat n'} (W : Mat 128) {r : Fin n} {r' : Fin n'}
    (hx : ∀ k : Fin 128, x (ix2 r k) = x' (ix2 r' k)) (q : Fin 128) : dotAt x W r q = dotAt x' W r' q := by
  unfold dotAt
  exact Finset.sum_congr rfl fun k _ => by rw [hx k]

theorem linAt_rows {n n' : Nat} {x : Mat n} {x' : Mat n'} (W : Mat 128) (b : Mat 1) {r : Fin n} {r' : Fin n'}
    (hx : ∀ k : Fin 128, x (ix2 r k) = x' (ix2 r' k)) (q : Fin 128) : linAt x W b r q = linAt x' W b r' q := by
  unfold linAt
  rw [dotAt_rows W hx q]

theorem srcGateAt_rows {n n' : Nat} {x t : Mat n} {x' t' : Mat n'} (Wx : Mat 128) (bx : Mat 1) (Wt : Mat 128) (bt : Mat 1)
    {r : Fin n} {r' : Fin n'} (hx : ∀ k : Fin 128, x (ix2 r k) = x' (ix2 r' k)) (ht : ∀ k : Fin 128, t (ix2 r k) = t' (ix2 r' k))
    (q : Fin 128) : srcGateAt x t Wx bx Wt bt r q = srcGateAt x' t' Wx bx Wt bt r' q := by
  unfold srcGateAt
  rw [dotAt_rows Wx hx q, dotAt_rows Wt ht q]

theorem preAt_rows {n n' : Nat} {gate ef : Mat n} {gate' ef' : Mat n'} (W : Mat 128) (b : Mat 1) {r : Fin n} {r' : Fin n'}
    (hg : ∀ k : Fin 128, gate (ix2 r k) = gate' (ix2 r' k)) (he : ∀ k : Fin 128, ef (ix2 r k) = ef' (ix2 r' k))
    (q : Fin 128) : preAt gate ef W b r q = preAt gate' ef' W b r' q := by
  unfold preAt
  rw [dotAt_rows W he q, hg q]

theorem edgeOutAt_rows {n n' : Nat} {gate ef : Mat n} {gate' ef' : Mat n'} (W : Mat 128) (b g be : Mat 1) {r : Fin n} {r' : Fin n'}
    (hg : ∀ k : Fin 128, gate (ix2 r k) = gate' (ix2 r' k)) (he : ∀ k : Fin 128, ef (ix2 r k) = ef' (ix2 r' k))
    (q : Fin 128) : edgeOutAt gate ef W b g be r q = edgeOutAt gate' ef' W b g be r' q := by
  unfold edgeOutAt
  rw [he q, show (fun k => preAt gate ef W b r k) = fun k => preAt gate' ef' W b r' k from funext fun k => preAt_rows W b hg he k]

theorem nodePreAt_rows {n n' : Nat} {xsu ssh ss : Mat n} {xsu' ssh' ss' : Mat n'} {r : Fin n} {r' : Fin n'}
    (h1 : ∀ k : Fin 128, xsu (ix2 r k) = xsu' (ix2 r' k)) (h2 : ∀ k : Fin 128, ssh (ix2 r k) = ssh' (ix2 r' k))
    (h3 : ∀ k : Fin 128, ss (ix2 r k) = ss' (ix2 r' k)) (q : Fin 128) : nodePreAt xsu ssh ss r q = nodePreAt xsu' ssh' ss' r' q := by
  unfold nodePreAt
  rw [h1 q, h2 q, h3 q]

theorem nodeOutAt_rows {n n' : Nat} {node xsu ssh ss : Mat n} {node' xsu' ssh' ss' : Mat n'} (g be : Mat 1) {r : Fin n} {r' : Fin n'}
    (h0 : ∀ k : Fin 128, node (ix2 r k) = node' (ix2 r' k)) (h1 : ∀ k : Fin 128, xsu (ix2 r k) = xsu' (ix2 r' k))
    (h2 : ∀ k : Fin 128, ssh (ix2 r k) = ssh' (ix2 r' k)) (h3 : ∀ k : Fin 128, ss (ix2 r k) = ss' (ix2 r' k))
    (q : Fin 128) : nodeOutAt node xsu ssh ss g be r q = nodeOutAt node' xsu' ssh' ss' g be r' q := by
  unfold nodeOutAt
  rw [h0 q, show (fun k => nodePreAt xsu ssh ss r k) = fun k => nodePreAt xsu' ssh' ss' r' k from
    funext fun k => nodePreAt_rows h1 h2 h3 k]

end Cert.Spec

end
-- ==== Proof.Glue.lean ====
/-
  The host side of the kernel program, read as values.

  Between the three regions the program only reshapes bias vectors into rows, gathers table rows at index arrays,
  adds, widens stored values and scatter-adds. Each buffer a region reads, and each result the program returns, is
  stated here as those operations applied to the launch memory `m` and to the earlier regions' output arrays: the
  fold of the program's segments walked back one boundary at a time. No operation is opened; gathers and
  scatter-adds stay the functions they are.
-/
import proofs.«130515_j52106543235177_2_alg».proof.Proof.Gen.KernelIdeal.Frame
import Idealize.ShloMosaic.Lib.StableHlo.Run

set_option maxRecDepth 16384
set_option maxHeartbeats 4000000

noncomputable section

namespace Cert.KernelIdeal.Glue

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The gather index the program builds from an index array: a negative entry is wrapped once by the table's 10000
    rows, and the result is made a column. -/
def wrapIdx (x : (⟨S320000, .i32⟩ : BufTy).Contents (Elt F)) : (⟨S320000x1, .i32⟩ : BufTy).Contents (Elt F) :=
  broadcastInDim S320000x1 ![0] bcast_S320000_S320000x1_0
    (select (cmpi .slt x (broadcastInDim S320000 ![] bcast_S_S320000 (constantI S_ 32 0#32)))
      (addi x (broadcastInDim S320000 ![] bcast_S_S320000 (constantI S_ 32 10000#32))) x)

/-- The scatter index: the index array made a column, unwrapped. -/
def colIdx (x : (⟨S320000, .i32⟩ : BufTy).Contents (Elt F)) : (⟨S320000x1, .i32⟩ : BufTy).Contents (Elt F) :=
  broadcastInDim S320000x1 ![0] bcast_S320000_S320000x1_0 x

/-- A table's rows gathered at a wrapped index column. -/
def rowsAt (tbl : (⟨S10000x128, .f32⟩ : BufTy).Contents (Elt F)) (ix : (⟨S320000x1, .i32⟩ : BufTy).Contents (Elt F)) : (⟨S320000x128, .f32⟩ : BufTy).Contents (Elt F) :=
  Host.gather gather_S10000x128_S320000x1_S320000x128_1_0_n_n_0_1_1128 tbl ix

/-- Edge rows (stored narrow, widened) summed into their destination rows, from zero. -/
def sumInto (ix : (⟨S320000x1, .i32⟩ : BufTy).Contents (Elt F)) (u : (⟨S320000x128, .bf16⟩ : BufTy).Contents (Elt F)) : (⟨S10000x128, .f32⟩ : BufTy).Contents (Elt F) :=
  Host.scatterAdd scatter_S10000x128_S320000x1_S320000x128_1_0_0_1
    (broadcastInDim S10000x128 ![] bcast_S_S10000x128 (constant S_ .f32 0x00000000#32)) ix (extf .f32 u bitsLt_bf16_f32)

/-- A bias vector as the one-row array a region's window stages. -/
def asRow (b : (⟨S128, .f32⟩ : BufTy).Contents (Elt F)) : (⟨S1x128, .f32⟩ : BufTy).Contents (Elt F) := shapeCast S1x128 b shapeCasts_S128_S1x128

/-! ## Before the first region -/

theorem W1_arg0 (c : Dev nD) : (W1 m ρ c (Proc.devRef .tc main_arg0) : (⟨S10000x128, .f32⟩ : BufTy).Contents (Elt F)) = m ((c : Thread nD τ).loc main_arg0) := by
  dsimp only [W1]
  after_results

theorem W1_arg1 (c : Dev nD) : (W1 m ρ c (Proc.devRef .tc main_arg1) : (⟨S320000x128, .f32⟩ : BufTy).Contents (Elt F)) = m ((c : Thread nD τ).loc main_arg1) := by
  dsimp only [W1]
  after_results

theorem W1_arg2 (c : Dev nD) : (W1 m ρ c (Proc.devRef .tc main_arg2) : (⟨S10000x128, .f32⟩ : BufTy).Contents (Elt F)) = m ((c : Thread nD τ).loc main_arg2) := by
  dsimp only [W1]
  after_results

theorem W1_arg3 (c : Dev nD) : (W1 m ρ c (Proc.devRef .tc main_arg3) : (⟨S320000, .i32⟩ : BufTy).Contents (Elt F)) = m ((c : Thread nD τ).loc main_arg3) := by
  dsimp only [W1]
  after_results

theorem W1_arg4 (c : Dev nD) : (W1 m ρ c (Proc.devRef .tc main_arg4) : (⟨S320000, .i32⟩ : BufTy).Contents (Elt F)) = m ((c : Thread nD τ).loc main_arg4) := by
  dsimp only [W1]
  after_results

theorem W1_arg5 (c : Dev nD) : (W1 m ρ c (Proc.devRef .tc main_arg5) : (⟨S128x128, .f32⟩ : BufTy).Contents (Elt F)) = m ((c : Thread nD τ).loc main_arg5) := by
  dsimp only [W1]
  after_results

theorem W1_arg7 (c : Dev nD) : (W1 m ρ c (Proc.devRef .tc main_arg7) : (⟨S128x128, .f32⟩ : BufTy).Contents (Elt F)) = m ((c : Thread nD τ).loc main_arg7) := by
  dsimp only [W1]
  after_results

theorem W1_arg9 (c : Dev nD) : (W1 m ρ c (Proc.devRef .tc main_arg9) : (⟨S128x128, .f32⟩ : BufTy).Contents (Elt F)) = m ((c : Thread nD τ).loc main_arg9) := by
  dsimp only [W1]
  after_results

theorem W1_arg11 (c : Dev nD) : (W1 m ρ c (Proc.devRef .tc main_arg11) : (⟨S128x128, .f32⟩ : BufTy).Contents (Elt F)) = m ((c : Thread nD τ).loc main_arg11) := by
  dsimp only [W1]
  after_results

theorem W1_arg12 (c : Dev nD) : (W1 m ρ c (Proc.devRef .tc main_arg12) : (⟨S128, .f32⟩ : BufTy).Contents (Elt F)) = m ((c : Thread nD τ).loc main_arg12) := by
  dsimp only [W1]
  after_results

theorem W1_arg13 (c : Dev nD) : (W1 m ρ c (Proc.devRef .tc main_arg13) : (⟨S128x128, .f32⟩ : BufTy).Contents (Elt F)) = m ((c : Thread nD τ).loc main_arg13) := by
  dsimp only [W1]
  after_results

theorem W1_arg15 (c : Dev nD) : (W1 m ρ c (Proc.devRef .tc main_arg15) : (⟨S128x128, .f32⟩ : BufTy).Contents (Elt F)) = m ((c : Thread nD τ).loc main_arg15) := by
  dsimp only [W1]
  after_results

theorem W1_arg17 (c : Dev nD) : (W1 m ρ c (Proc.devRef .tc main_arg17) : (⟨S128, .f32⟩ : BufTy).Contents (Elt F)) = m ((c : Thread nD τ).loc main_arg17) := by
  dsimp only [W1]
  after_results

theorem W1_arg18 (c : Dev nD) : (W1 m ρ c (Proc.devRef .tc main_arg18) : (⟨S128, .f32⟩ : BufTy).Contents (Elt F)) = m ((c : Thread nD τ).loc main_arg18) := by
  dsimp only [W1]
  after_results

theorem W1_arg19 (c : Dev nD) : (W1 m ρ c (Proc.devRef .tc main_arg19) : (⟨S128, .f32⟩ : BufTy).Contents (Elt F)) = m ((c : Thread nD τ).loc main_arg19) := by
  dsimp only [W1]
  after_results

theorem W1_arg20 (c : Dev nD) : (W1 m ρ c (Proc.devRef .tc main_arg20) : (⟨S128, .f32⟩ : BufTy).Contents (Elt F)) = m ((c : Thread nD τ).loc main_arg20) := by
  dsimp only [W1]
  after_results

theorem W1_v0 (c : Dev nD) : (W1 m ρ c (Proc.devRef .tc main_v0) : (⟨S1x128, .f32⟩ : BufTy).Contents (Elt F)) = asRow (m ((c : Thread nD τ).loc main_arg8)) := by
  dsimp only [W1]
  after_results
  rfl

theorem W1_v1 (c : Dev nD) : (W1 m ρ c (Proc.devRef .tc main_v1) : (⟨S1x128, .f32⟩ : BufTy).Contents (Elt F)) = asRow (m ((c : Thread nD τ).loc main_arg10)) := by
  dsimp only [W1]
  after_results
  rfl

theorem W1_v2 (c : Dev nD) : (W1 m ρ c (Proc.devRef .tc main_v2) : (⟨S1x128, .f32⟩ : BufTy).Contents (Elt F)) = asRow (m ((c : Thread nD τ).loc main_arg6)) := by
  dsimp only [W1]
  after_results
  rfl

theorem W1_v3 (c : Dev nD) : (W1 m ρ c (Proc.devRef .tc main_v3) : (⟨S1x128, .f32⟩ : BufTy).Contents (Elt F)) = asRow (m ((c : Thread nD τ).loc main_arg16)) := by
  dsimp only [W1]
  after_results
  rfl

theorem W1_v4 (c : Dev nD) : (W1 m ρ c (Proc.devRef .tc main_v4) : (⟨S1x128, .f32⟩ : BufTy).Contents (Elt F)) = asRow (m ((c : Thread nD τ).loc main_arg14)) := by
  dsimp only [W1]
  after_results
  rfl

/-! ## After the first region -/

theorem W2_arg0 (c : Dev nD) : (W2 m ρ c (Proc.devRef .tc main_arg0) : (⟨S10000x128, .f32⟩ : BufTy).Contents (Elt F)) = m ((c : Thread nD τ).loc main_arg0) :=
  ((W2_arr m ρ c 0).trans (((dat0 (V1 m ρ) c).arrAt_in 0 rfl _).trans (A_eq0 (V1 m ρ) c 0))).trans (W1_arg0 m ρ c)

theorem W2_arg1 (c : Dev nD) : (W2 m ρ c (Proc.devRef .tc main_arg1) : (⟨S320000x128, .f32⟩ : BufTy).Contents (Elt F)) = m ((c : Thread nD τ).loc main_arg1) :=
  (W2_of_ne m ρ c main_arg1 (by decide)).trans (W1_arg1 m ρ c)

theorem W2_arg3 (c : Dev nD) : (W2 m ρ c (Proc.devRef .tc main_arg3) : (⟨S320000, .i32⟩ : BufTy).Contents (Elt F)) = m ((c : Thread nD τ).loc main_arg3) :=
  (W2_of_ne m ρ c main_arg3 (by decide)).trans (W1_arg3 m ρ c)

theorem W2_arg4 (c : Dev nD) : (W2 m ρ c (Proc.devRef .tc main_arg4) : (⟨S320000, .i32⟩ : BufTy).Contents (Elt F)) = m ((c : Thread nD τ).loc main_arg4) :=
  (W2_of_ne m ρ c main_arg4 (by decide)).trans (W1_arg4 m ρ c)

theorem W2_arg11 (c : Dev nD) : (W2 m ρ c (Proc.devRef .tc main_arg11) : (⟨S128x128, .f32⟩ : BufTy).Contents (Elt F)) = m ((c : Thread nD τ).loc main_arg11) :=
  (W2_of_ne m ρ c main_arg11 (by decide)).trans (W1_arg11 m ρ c)

theorem W2_arg12 (c : Dev nD) : (W2 m ρ c (Proc.devRef .tc main_arg12) : (⟨S128, .f32⟩ : BufTy).Contents (Elt F)) = m ((c : Thread nD τ).loc main_arg12) :=
  (W2_of_ne m ρ c main_arg12 (by decide)).trans (W1_arg12 m ρ c)

theorem W2_arg17 (c : Dev nD) : (W2 m ρ c (Proc.devRef .tc main_arg17) : (⟨S128, .f32⟩ : BufTy).Contents (Elt F)) = m ((c : Thread nD τ).loc main_arg17) :=
  (W2_of_ne m ρ c main_arg17 (by decide)).trans (W1_arg17 m ρ c)

theorem W2_arg18 (c : Dev nD) : (W2 m ρ c (Proc.devRef .tc main_arg18) : (⟨S128, .f32⟩ : BufTy).Contents (Elt F)) = m ((c : Thread nD τ).loc main_arg18) :=
  (W2_of_ne m ρ c main_arg18 (by decide)).trans (W1_arg18 m ρ c)

theorem W2_arg19 (c : Dev nD) : (W2 m ρ c (Proc.devRef .tc main_arg19) : (⟨S128, .f32⟩ : BufTy).Contents (Elt F)) = m ((c : Thread nD τ).loc main_arg19) :=
  (W2_of_ne m ρ c main_arg19 (by decide)).trans (W1_arg19 m ρ c)

theorem W2_arg20 (c : Dev nD) : (W2 m ρ c (Proc.devRef .tc main_arg20) : (⟨S128, .f32⟩ : BufTy).Contents (Elt F)) = m ((c : Thread nD τ).loc main_arg20) :=
  (W2_of_ne m ρ c main_arg20 (by decide)).trans (W1_arg20 m ρ c)

theorem W2_v5_0 (c : Dev nD) : W2 m ρ c (Proc.devRef .tc main_v5_0) = (dat0 (V1 m ρ) c).arrAt 12 cfg0.N := W2_arr m ρ c 12

theorem W2_v5_1 (c : Dev nD) : W2 m ρ c (Proc.devRef .tc main_v5_1) = (dat0 (V1 m ρ) c).arrAt 13 cfg0.N := W2_arr m ρ c 13

theorem W2_v5_2 (c : Dev nD) : W2 m ρ c (Proc.devRef .tc main_v5_2) = (dat0 (V1 m ρ) c).arrAt 14 cfg0.N := W2_arr m ρ c 14

theorem W2_v5_3 (c : Dev nD) : W2 m ρ c (Proc.devRef .tc main_v5_3) = (dat0 (V1 m ρ) c).arrAt 15 cfg0.N := W2_arr m ρ c 15

/-! ## Before the second region -/

theorem V3_v20 (c : Dev nD) : (V3 m ρ c main_v20 : (⟨S320000x128, .f32⟩ : BufTy).Contents (Elt F))
    = addf (rowsAt (W2 m ρ c (Proc.devRef .tc main_v5_0)) (wrapIdx (m ((c : Thread nD τ).loc main_arg3)))) (rowsAt (W2 m ρ c (Proc.devRef .tc main_v5_1)) (wrapIdx (m ((c : Thread nD τ).loc main_arg4)))) := by
  rw [← W2_arg3 m ρ c, ← W2_arg4 m ρ c]
  dsimp only [V3, W3]
  after_results
  rfl

theorem V3_v27 (c : Dev nD) : (V3 m ρ c main_v27 : (⟨S320000x128, .f32⟩ : BufTy).Contents (Elt F))
    = rowsAt (W2 m ρ c (Proc.devRef .tc main_v5_2)) (wrapIdx (m ((c : Thread nD τ).loc main_arg3))) := by
  rw [← W2_arg3 m ρ c]
  dsimp only [V3, W3]
  after_results
  rfl

theorem V3_v28 (c : Dev nD) : (V3 m ρ c main_v28 : (⟨S1x128, .f32⟩ : BufTy).Contents (Elt F)) = asRow (m ((c : Thread nD τ).loc main_arg12)) := by
  rw [← W2_arg12 m ρ c]
  dsimp only [V3, W3]
  after_results
  rfl

theorem V3_v29 (c : Dev nD) : (V3 m ρ c main_v29 : (⟨S1x128, .f32⟩ : BufTy).Contents (Elt F)) = asRow (m ((c : Thread nD τ).loc main_arg17)) := by
  rw [← W2_arg17 m ρ c]
  dsimp only [V3, W3]
  after_results
  rfl

theorem V3_v30 (c : Dev nD) : (V3 m ρ c main_v30 : (⟨S1x128, .f32⟩ : BufTy).Contents (Elt F)) = asRow (m ((c : Thread nD τ).loc main_arg18)) := by
  rw [← W2_arg18 m ρ c]
  dsimp only [V3, W3]
  after_results
  rfl

theorem V3_arg1 (c : Dev nD) : (V3 m ρ c main_arg1 : (⟨S320000x128, .f32⟩ : BufTy).Contents (Elt F)) = m ((c : Thread nD τ).loc main_arg1) := by
  rw [← W2_arg1 m ρ c]
  dsimp only [V3, W3]
  after_results

theorem V3_arg11 (c : Dev nD) : (V3 m ρ c main_arg11 : (⟨S128x128, .f32⟩ : BufTy).Contents (Elt F)) = m ((c : Thread nD τ).loc main_arg11) := by
  rw [← W2_arg11 m ρ c]
  dsimp only [V3, W3]
  after_results

theorem W3_arg0 (c : Dev nD) : (W3 m ρ c (Proc.devRef .tc main_arg0) : (⟨S10000x128, .f32⟩ : BufTy).Contents (Elt F)) = m ((c : Thread nD τ).loc main_arg0) := by
  rw [← W2_arg0 m ρ c]
  dsimp only [W3]
  after_results

theorem W3_arg4 (c : Dev nD) : (W3 m ρ c (Proc.devRef .tc main_arg4) : (⟨S320000, .i32⟩ : BufTy).Contents (Elt F)) = m ((c : Thread nD τ).loc main_arg4) := by
  rw [← W2_arg4 m ρ c]
  dsimp only [W3]
  after_results

theorem W3_arg19 (c : Dev nD) : (W3 m ρ c (Proc.devRef .tc main_arg19) : (⟨S128, .f32⟩ : BufTy).Contents (Elt F)) = m ((c : Thread nD τ).loc main_arg19) := by
  rw [← W2_arg19 m ρ c]
  dsimp only [W3]
  after_results

theorem W3_arg20 (c : Dev nD) : (W3 m ρ c (Proc.devRef .tc main_arg20) : (⟨S128, .f32⟩ : BufTy).Contents (Elt F)) = m ((c : Thread nD τ).loc main_arg20) := by
  rw [← W2_arg20 m ρ c]
  dsimp only [W3]
  after_results

theorem W3_v5_3 (c : Dev nD) : (W3 m ρ c (Proc.devRef .tc main_v5_3) : (⟨S10000x128, .f32⟩ : BufTy).Contents (Elt F)) = W2 m ρ c (Proc.devRef .tc main_v5_3) := by
  dsimp only [W3]
  after_results

/-! ## After the second region -/

theorem W4_v31_0 (c : Dev nD) : W4 m ρ c (Proc.devRef .tc main_v31_0) = (dat1 (V3 m ρ) c).arrAt 7 cfg1.N := W4_arr m ρ c 7

theorem W4_v31_1 (c : Dev nD) : W4 m ρ c (Proc.devRef .tc main_v31_1) = (dat1 (V3 m ρ) c).arrAt 8 cfg1.N := W4_arr m ρ c 8

theorem W4_v31_2 (c : Dev nD) : W4 m ρ c (Proc.devRef .tc main_v31_2) = (dat1 (V3 m ρ) c).arrAt 9 cfg1.N := W4_arr m ρ c 9

theorem W4_arg0 (c : Dev nD) : (W4 m ρ c (Proc.devRef .tc main_arg0) : (⟨S10000x128, .f32⟩ : BufTy).Contents (Elt F)) = m ((c : Thread nD τ).loc main_arg0) :=
  (W4_of_ne m ρ c main_arg0 (by decide)).trans (W3_arg0 m ρ c)

theorem W4_arg4 (c : Dev nD) : (W4 m ρ c (Proc.devRef .tc main_arg4) : (⟨S320000, .i32⟩ : BufTy).Contents (Elt F)) = m ((c : Thread nD τ).loc main_arg4) :=
  (W4_of_ne m ρ c main_arg4 (by decide)).trans (W3_arg4 m ρ c)

theorem W4_arg19 (c : Dev nD) : (W4 m ρ c (Proc.devRef .tc main_arg19) : (⟨S128, .f32⟩ : BufTy).Contents (Elt F)) = m ((c : Thread nD τ).loc main_arg19) :=
  (W4_of_ne m ρ c main_arg19 (by decide)).trans (W3_arg19 m ρ c)

theorem W4_arg20 (c : Dev nD) : (W4 m ρ c (Proc.devRef .tc main_arg20) : (⟨S128, .f32⟩ : BufTy).Contents (Elt F)) = m ((c : Thread nD τ).loc main_arg20) :=
  (W4_of_ne m ρ c main_arg20 (by decide)).trans (W3_arg20 m ρ c)

theorem W4_v5_3 (c : Dev nD) : (W4 m ρ c (Proc.devRef .tc main_v5_3) : (⟨S10000x128, .f32⟩ : BufTy).Contents (Elt F)) = W2 m ρ c (Proc.devRef .tc main_v5_3) :=
  (W4_of_ne m ρ c main_v5_3 (by decide)).trans (W3_v5_3 m ρ c)

/-! ## Before the third region -/

theorem V5_arg0 (c : Dev nD) : (V5 m ρ c main_arg0 : (⟨S10000x128, .f32⟩ : BufTy).Contents (Elt F)) = m ((c : Thread nD τ).loc main_arg0) := by
  rw [← W4_arg0 m ρ c]
  dsimp only [V5, W5]
  after_results

theorem V5_v5_3 (c : Dev nD) : (V5 m ρ c main_v5_3 : (⟨S10000x128, .f32⟩ : BufTy).Contents (Elt F)) = W2 m ρ c (Proc.devRef .tc main_v5_3) := by
  rw [← W4_v5_3 m ρ c]
  dsimp only [V5, W5]
  after_results

theorem V5_v35 (c : Dev nD) : (V5 m ρ c main_v35 : (⟨S10000x128, .f32⟩ : BufTy).Contents (Elt F)) = sumInto (colIdx (m ((c : Thread nD τ).loc main_arg4))) (W4 m ρ c (Proc.devRef .tc main_v31_1)) := by
  rw [← W4_arg4 m ρ c]
  dsimp only [V5, W5]
  after_results
  rfl

theorem V5_v39 (c : Dev nD) : (V5 m ρ c main_v39 : (⟨S10000x128, .f32⟩ : BufTy).Contents (Elt F)) = sumInto (colIdx (m ((c : Thread nD τ).loc main_arg4))) (W4 m ρ c (Proc.devRef .tc main_v31_0)) := by
  rw [← W4_arg4 m ρ c]
  dsimp only [V5, W5]
  after_results
  rfl

theorem V5_v40 (c : Dev nD) : (V5 m ρ c main_v40 : (⟨S1x128, .f32⟩ : BufTy).Contents (Elt F)) = asRow (m ((c : Thread nD τ).loc main_arg19)) := by
  rw [← W4_arg19 m ρ c]
  dsimp only [V5, W5]
  after_results
  rfl

theorem V5_v41 (c : Dev nD) : (V5 m ρ c main_v41 : (⟨S1x128, .f32⟩ : BufTy).Contents (Elt F)) = asRow (m ((c : Thread nD τ).loc main_arg20)) := by
  rw [← W4_arg20 m ρ c]
  dsimp only [V5, W5]
  after_results
  rfl

theorem W5_v31_2 (c : Dev nD) : (W5 m ρ c (Proc.devRef .tc main_v31_2) : (⟨S320000x128, .f32⟩ : BufTy).Contents (Elt F)) = W4 m ρ c (Proc.devRef .tc main_v31_2) := by
  dsimp only [W5]
  after_results

/-! ## The two results -/

theorem W6_v42 (c : Dev nD) : W6 m ρ c (Proc.devRef .tc main_v42) = (dat2 (V5 m ρ) c).arrAt 6 cfg2.N := W6_arr m ρ c 6

theorem W6_v31_2 (c : Dev nD) : (W6 m ρ c (Proc.devRef .tc main_v31_2) : (⟨S320000x128, .f32⟩ : BufTy).Contents (Elt F)) = (dat1 (V3 m ρ) c).arrAt 9 cfg1.N :=
  ((W6_of_ne m ρ c main_v31_2 (by decide)).trans (W5_v31_2 m ρ c)).trans (W4_v31_2 m ρ c)

end Cert.KernelIdeal.Glue

end
-- ==== Proof.Region0.lean ====
/-
  Region 0, the node projections: each of the four output arrays, index by index, is a row-wise linear map of the
  node rows (and, for the source gate, of the time rows) as stated in the specification.

  The body reads one block of 2000 rows of the node and time arrays, five whole 128×128 weight matrices and five
  1×128 bias rows, and writes one block of 2000 rows of each output.  At the extended reals a product of a block
  against a matrix into a zero accumulator is, at (p, q), the sum over k of block (p, k) times matrix (k, q); a bias
  row broadcast over the rows is, at (p, q), its entry at (0, q).  Row p of the block at grid point t is row
  2000·t + p of the array, so the blocks written back are the blocks of one whole-array function, and the five
  blocks cover the 10000 rows.
-/
import proofs.«130515_j52106543235177_2_alg».proof.Proof.Spec
import proofs.«130515_j52106543235177_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Idealize.ShloMosaic Idealize.ShloMosaic.TcCoe Idealize.SL.Sem Idealize.ShloMosaic.ValueIdx
open Cert.KernelIdeal Cert.KernelIdeal.Gen

/-! ## A block against a matrix, and a bias row over the rows, at an index -/

/-- The left operand's row coordinate is the output's. -/
theorem lhs_row (i : S2000x128.Idx) (r : dot_S2000x128_S128x128_S2000x128_1_0_0_1_n_n.contr.Idx) :
    (dot_S2000x128_S128x128_S2000x128_1_0_0_1_n_n.lhsIdx i r 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column coordinate is the contraction index. -/
theorem lhs_col (i : S2000x128.Idx) (r : dot_S2000x128_S128x128_S2000x128_1_0_0_1_n_n.contr.Idx) :
    (dot_S2000x128_S128x128_S2000x128_1_0_0_1_n_n.lhsIdx i r 1).val = (r ⟨0, by decide⟩).val :=
  dot_S2000x128_S128x128_S2000x128_1_0_0_1_n_n.lhsIdx_val_of_single rfl i r

/-- The right operand's row coordinate is the contraction index. -/
theorem rhs_row (i : S2000x128.Idx) (r : dot_S2000x128_S128x128_S2000x128_1_0_0_1_n_n.contr.Idx) :
    (dot_S2000x128_S128x128_S2000x128_1_0_0_1_n_n.rhsIdx i r 0).val = (r ⟨0, by decide⟩).val :=
  dot_S2000x128_S128x128_S2000x128_1_0_0_1_n_n.rhsIdx_val_of_single rfl i r

/-- The right operand's column coordinate is the output's. -/
theorem rhs_col (i : S2000x128.Idx) (r : dot_S2000x128_S128x128_S2000x128_1_0_0_1_n_n.contr.Idx) :
    (dot_S2000x128_S128x128_S2000x128_1_0_0_1_n_n.rhsIdx i r 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The product of a 2000×128 block and a 128×128 matrix into a zero accumulator, at (p, q): the sum over k. -/
theorem matmul_at (a : FVec Ideal S2000x128 .bf16) (b : FVec Ideal S128x128 .bf16) (p : Fin 2000) (q : Fin 128) :
    matmul dot_S2000x128_S128x128_S2000x128_1_0_0_1_n_n none a b (constant S2000x128 .f32 0x00000000#32) (ix2 p q)
      = ∑ k : Fin 128, a (ix2 p k) * b (ix2 k q) := by
  refine (Ideal.matmul_constant_zero_apply dot_S2000x128_S128x128_S2000x128_1_0_0_1_n_n none a b (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun ax => Fin.ext (by
      match ax with
      | ⟨0, _⟩ => exact lhs_row _ _
      | ⟨1, _⟩ => exact (lhs_col _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun ax => Fin.ext (by
      match ax with
      | ⟨0, _⟩ => exact (rhs_row _ _).trans hk
      | ⟨1, _⟩ => exact rhs_col _ _)
  rw [el, er]

/-- A 1×128 bias row, cast to its own shape and broadcast over 2000 rows, at (p, q): its entry at (0, q). -/
theorem bias_at (b : Vec Ideal S1x128 .f32) (p : Fin 2000) (q : Fin 128) :
    broadcastTo S2000x128 (shapeCast S1x128 b shapeCasts_S1x128_S1x128) broadcasts_S1x128_S2000x128 (ix2 p q)
      = b (ix2 (0 : Fin 1) q) := by
  rw [shapeCast_self]
  exact broadcastTo_1b_ab_apply b broadcasts_S1x128_S2000x128 p q

/-! ## The payloads at an index -/

/-- The destination gate's payload at (p, q). -/
theorem pay7_at (x : Vec Ideal S2000x128 .f32) (W : Vec Ideal S128x128 .f32) (b : Vec Ideal S1x128 .f32)
    (p : Fin 2000) (q : Fin 128) :
    k0_pay7 (F := Ideal) x W b (ix2 p q) = (∑ k : Fin 128, x (ix2 p k) * W (ix2 k q)) + b (ix2 (0 : Fin 1) q) := by
  unfold k0_pay7 k0_pay3
  refine (addf_apply _ _ _).trans ?_
  refine congrArg₂ (· + ·) ((matmul_at _ _ p q).trans ?_) (bias_at b p q)
  rfl

/-- The destination update's payload at (p, q). -/
theorem pay1_at (x : Vec Ideal S2000x128 .f32) (W : Vec Ideal S128x128 .f32) (b : Vec Ideal S1x128 .f32)
    (p : Fin 2000) (q : Fin 128) :
    k0_pay1 (F := Ideal) (k0_pay3 x) (k0_pay4 W) b (ix2 p q)
      = (∑ k : Fin 128, x (ix2 p k) * W (ix2 k q)) + b (ix2 (0 : Fin 1) q) := by
  unfold k0_pay1 k0_pay3 k0_pay4
  refine (addf_apply _ _ _).trans ?_
  refine congrArg₂ (· + ·) ((matmul_at _ _ p q).trans ?_) (bias_at b p q)
  rfl

/-- The source update's payload at (p, q). -/
theorem pay2_at (x : Vec Ideal S2000x128 .f32) (W : Vec Ideal S128x128 .f32) (b : Vec Ideal S1x128 .f32)
    (p : Fin 2000) (q : Fin 128) :
    k0_pay2 (F := Ideal) (k0_pay3 x) (k0_pay5 W) b (ix2 p q)
      = (∑ k : Fin 128, x (ix2 p k) * W (ix2 k q)) + b (ix2 (0 : Fin 1) q) := by
  unfold k0_pay2 k0_pay3 k0_pay5
  refine (addf_apply _ _ _).trans ?_
  refine congrArg₂ (· + ·) ((matmul_at _ _ p q).trans ?_) (bias_at b p q)
  rfl

/-- The source gate's payload at (p, q): the node row's linear map, then the time row's product, then its bias. -/
theorem pay6_at (x t : Vec Ideal S2000x128 .f32) (Wx Wt : Vec Ideal S128x128 .f32) (bx bt : Vec Ideal S1x128 .f32)
    (p : Fin 2000) (q : Fin 128) :
    k0_pay6 (F := Ideal) x t Wx Wt bx bt (ix2 p q)
      = (((∑ k : Fin 128, x (ix2 p k) * Wx (ix2 k q)) + bx (ix2 (0 : Fin 1) q))
          + ∑ k : Fin 128, t (ix2 p k) * Wt (ix2 k q)) + bt (ix2 (0 : Fin 1) q) := by
  unfold k0_pay6 k0_pay3
  refine (addf_apply _ _ _).trans ?_
  refine congrArg₂ (· + ·) ?_ (bias_at bt p q)
  refine (addf_apply _ _ _).trans ?_
  refine congrArg₂ (· + ·) ?_ ((matmul_at _ _ p q).trans rfl)
  refine (addf_apply _ _ _).trans ?_
  exact congrArg₂ (· + ·) ((matmul_at _ _ p q).trans rfl) (bias_at bx p q)

/-! ## From blocks to arrays -/

variable (V : (c : Dev nD) → (b : Ref sig .tc) → Buf (Elt Ideal) ((c : Thread nD τ).loc b))

/-- The body's loads and stores are at zero offsets. -/
theorem zero_offsets : (![0, 0] : Fin 2 → Nat) = fun _ => 0 := funext fun a => by fin_cases a <;> rfl

/-- The index maps over the five grid points: the block of a row-indexed window (node, time, the four
    outputs) at point t is block (t, 0). -/
theorem row_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_12.index t (0 : Fin 2) = t.val ∧ win0_12.index t (1 : Fin 2) = 0)
    ∧ (win0_13.index t (0 : Fin 2) = t.val ∧ win0_13.index t (1 : Fin 2) = 0)
    ∧ (win0_14.index t (0 : Fin 2) = t.val ∧ win0_14.index t (1 : Fin 2) = 0)
    ∧ (win0_15.index t (0 : Fin 2) = t.val ∧ win0_15.index t (1 : Fin 2) = 0) :=
  (by decide +kernel : ∀ t : Fin grid0.N, _)

/-- A weight matrix's or bias row's one block is block (0, 0) at every point. -/
theorem whole_index : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

/-- There are five grid points. -/
theorem point_lt (t : Fin cfg0.N) : t.val < 5 := by have h : cfg0.N = 5 := N_0; have := t.isLt; omega

/-- Row p of the block at point t is row 2000·t + p of the array. -/
def rowOf (t : Fin cfg0.N) (p : Fin 2000) : Fin 10000 := ⟨2000 * t.val + p.val, by have := point_lt t; have := p.isLt; omega⟩

theorem rowOf_val (t : Fin cfg0.N) (p : Fin 2000) : (rowOf t p).val = 2000 * t.val + p.val := rfl

/-- The node block at point t, at (p, k), is the node array at (2000·t + p, k). -/
theorem node_block (c : Dev nD) (t : Fin cfg0.N) (p : Fin 2000) (k : Fin 128) :
    (iblk0 (F := Ideal) V c 0 t : Vec Ideal S2000x128 .f32) (ix2 p k) = (V c main_arg0 : S10000x128.Idx → EReal) (ix2 (rowOf t p) k) := by
  obtain ⟨h0, h1, h12, h13, h14, h15⟩ := row_index t
  show (V c main_arg0 : S10000x128.Idx → EReal) (((cfg0.win 0).blk t).view.emb (ix2 p k)) = _
  refine congrArg _ (funext fun a => Fin.ext ?_)
  match a with
  | ⟨0, _⟩ => show win0_0.index t (0 : Fin 2) * 2000 + 1 * p.val = 2000 * t.val + p.val; omega
  | ⟨1, _⟩ => show win0_0.index t (1 : Fin 2) * 128 + 1 * k.val = k.val; omega

/-- The time block at point t, at (p, k), is the time array at (2000·t + p, k). -/
theorem time_block (c : Dev nD) (t : Fin cfg0.N) (p : Fin 2000) (k : Fin 128) :
    (iblk0 (F := Ideal) V c 1 t : Vec Ideal S2000x128 .f32) (ix2 p k) = (V c main_arg2 : S10000x128.Idx → EReal) (ix2 (rowOf t p) k) := by
  obtain ⟨h0, h1, h12, h13, h14, h15⟩ := row_index t
  show (V c main_arg2 : S10000x128.Idx → EReal) (((cfg0.win 1).blk t).view.emb (ix2 p k)) = _
  refine congrArg _ (funext fun a => Fin.ext ?_)
  match a with
  | ⟨0, _⟩ => show win0_1.index t (0 : Fin 2) * 2000 + 1 * p.val = 2000 * t.val + p.val; omega
  | ⟨1, _⟩ => show win0_1.index t (1 : Fin 2) * 128 + 1 * k.val = k.val; omega

/-- The srcGate weight window's one block is the whole matrix. -/
theorem srcGate_weight (c : Dev nD) (t : Fin cfg0.N) (y : S128x128.Idx) :
    (iblk0 (F := Ideal) V c 2 t : Vec Ideal S128x128 .f32) y = (V c main_arg7 : S128x128.Idx → EReal) y := by
  obtain ⟨h2, h3, h4, h5, h6, h7, h8, h9, h10, h11⟩ := whole_index t
  show (V c main_arg7 : S128x128.Idx → EReal) (((cfg0.win 2).blk t).view.emb y) = _
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The dstGate weight window's one block is the whole matrix. -/
theorem dstGate_weight (c : Dev nD) (t : Fin cfg0.N) (y : S128x128.Idx) :
    (iblk0 (F := Ideal) V c 4 t : Vec Ideal S128x128 .f32) y = (V c main_arg9 : S128x128.Idx → EReal) y := by
  obtain ⟨h2, h3, h4, h5, h6, h7, h8, h9, h10, h11⟩ := whole_index t
  show (V c main_arg9 : S128x128.Idx → EReal) (((cfg0.win 4).blk t).view.emb y) = _
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The time weight window's one block is the whole matrix. -/
theorem time_weight (c : Dev nD) (t : Fin cfg0.N) (y : S128x128.Idx) :
    (iblk0 (F := Ideal) V c 6 t : Vec Ideal S128x128 .f32) y = (V c main_arg5 : S128x128.Idx → EReal) y := by
  obtain ⟨h2, h3, h4, h5, h6, h7, h8, h9, h10, h11⟩ := whole_index t
  show (V c main_arg5 : S128x128.Idx → EReal) (((cfg0.win 6).blk t).view.emb y) = _
  refine congrArg _ (funext fun a => Fin.ext ?_)
  match a with
  | ⟨0, _⟩ => show win0_6.index t (0 : Fin 2) * 128 + 1 * (y 0).val = (y 0).val; omega
  | ⟨1, _⟩ => show win0_6.index t (1 : Fin 2) * 128 + 1 * (y 1).val = (y 1).val; omega

/-- The dstUpdate weight window's one block is the whole matrix. -/
theorem dstUpdate_weight (c : Dev nD) (t : Fin cfg0.N) (y : S128x128.Idx) :
    (iblk0 (F := Ideal) V c 8 t : Vec Ideal S128x128 .f32) y = (V c main_arg15 : S128x128.Idx → EReal) y := by
  obtain ⟨h2, h3, h4, h5, h6, h7, h8, h9, h10, h11⟩ := whole_index t
  show (V c main_arg15 : S128x128.Idx → EReal) (((cfg0.win 8).blk t).view.emb y) = _
  refine congrArg _ (funext fun a => Fin.ext ?_)
  match a with
  | ⟨0, _⟩ => show win0_8.index t (0 : Fin 2) * 128 + 1 * (y 0).val = (y 0).val; omega
  | ⟨1, _⟩ => show win0_8.index t (1 : Fin 2) * 128 + 1 * (y 1).val = (y 1).val; omega

/-- The srcUpdate weight window's one block is the whole matrix. -/
theorem srcUpdate_weight (c : Dev nD) (t : Fin cfg0.N) (y : S128x128.Idx) :
    (iblk0 (F := Ideal) V c 10 t : Vec Ideal S128x128 .f32) y = (V c main_arg13 : S128x128.Idx → EReal) y := by
  obtain ⟨h2, h3, h4, h5, h6, h7, h8, h9, h10, h11⟩ := whole_index t
  show (V c main_arg13 : S128x128.Idx → EReal) (((cfg0.win 10).blk t).view.emb y) = _
  refine congrArg _ (funext fun a => Fin.ext ?_)
  match a with
  | ⟨0, _⟩ => show win0_10.index t (0 : Fin 2) * 128 + 1 * (y 0).val = (y 0).val; omega
  | ⟨1, _⟩ => show win0_10.index t (1 : Fin 2) * 128 + 1 * (y 1).val = (y 1).val; omega

/-- The srcGate bias window's one block is the whole row. -/
theorem srcGate_bias (c : Dev nD) (t : Fin cfg0.N) (y : S1x128.Idx) :
    (iblk0 (F := Ideal) V c 3 t : Vec Ideal S1x128 .f32) y = (V c main_v0 : S1x128.Idx → EReal) y := by
  obtain ⟨h2, h3, h4, h5, h6, h7, h8, h9, h10, h11⟩ := whole_index t
  show (V c main_v0 : S1x128.Idx → EReal) (((cfg0.win 3).blk t).view.emb y) = _
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The dstGate bias window's one block is the whole row. -/
theorem dstGate_bias (c : Dev nD) (t : Fin cfg0.N) (y : S1x128.Idx) :
    (iblk0 (F := Ideal) V c 5 t : Vec Ideal S1x128 .f32) y = (V c main_v1 : S1x128.Idx → EReal) y := by
  obtain ⟨h2, h3, h4, h5, h6, h7, h8, h9, h10, h11⟩ := whole_index t
  show (V c main_v1 : S1x128.Idx → EReal) (((cfg0.win 5).blk t).view.emb y) = _
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- The time bias window's one block is the whole row. -/
theorem time_bias (c : Dev nD) (t : Fin cfg0.N) (y : S1x128.Idx) :
    (iblk0 (F := Ideal) V c 7 t : Vec Ideal S1x128 .f32) y = (V c main_v2 : S1x128.Idx → EReal) y := by
  obtain ⟨h2, h3, h4, h5, h6, h7, h8, h9, h10, h11⟩ := whole_index t
  show (V c main_v2 : S1x128.Idx → EReal) (((cfg0.win 7).blk t).view.emb y) = _
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- The dstUpdate bias window's one block is the whole row. -/
theorem dstUpdate_bias (c : Dev nD) (t : Fin cfg0.N) (y : S1x128.Idx) :
    (iblk0 (F := Ideal) V c 9 t : Vec Ideal S1x128 .f32) y = (V c main_v3 : S1x128.Idx → EReal) y := by
  obtain ⟨h2, h3, h4, h5, h6, h7, h8, h9, h10, h11⟩ := whole_index t
  show (V c main_v3 : S1x128.Idx → EReal) (((cfg0.win 9).blk t).view.emb y) = _
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- The srcUpdate bias window's one block is the whole row. -/
theorem srcUpdate_bias (c : Dev nD) (t : Fin cfg0.N) (y : S1x128.Idx) :
    (iblk0 (F := Ideal) V c 11 t : Vec Ideal S1x128 .f32) y = (V c main_v4 : S1x128.Idx → EReal) y := by
  obtain ⟨h2, h3, h4, h5, h6, h7, h8, h9, h10, h11⟩ := whole_index t
  show (V c main_v4 : S1x128.Idx → EReal) (((cfg0.win 11).blk t).view.emb y) = _
  refine congrArg _ (funext fun a => Fin.ext ?_)
  match a with
  | ⟨0, _⟩ => show win0_11.index t (0 : Fin 2) * 1 + 1 * (y 0).val = (y 0).val; omega
  | ⟨1, _⟩ => show win0_11.index t (1 : Fin 2) * 128 + 1 * (y 1).val = (y 1).val; omega

/-! ## Output window 12 -/

/-- Entry (p, q) of output window 12's block at point t is entry (2000·t + p, q) of its array. -/
theorem out12_emb (t : Fin cfg0.N) (p : Fin 2000) (q : Fin 128) :
    ((cfg0.win 12).blk t).view.emb (ix2 p q) = (ix2 (rowOf t p) q : S10000x128.Idx) := by
  obtain ⟨h0, h1, h12, h13, h14, h15⟩ := row_index t
  refine funext fun a => Fin.ext ?_
  match a with
  | ⟨0, _⟩ => show win0_12.index t (0 : Fin 2) * 2000 + 1 * p.val = 2000 * t.val + p.val; omega
  | ⟨1, _⟩ => show win0_12.index t (1 : Fin 2) * 128 + 1 * q.val = q.val; omega

/-- What point t writes back to output 12 is block t of the specification's array. -/
theorem flushed12_eq (c : Dev nD) (t : Fin cfg0.N) :
    (dat0 (F := Ideal) V c).flushed 12 t = ((cfg0.win 12).blk t).view.read (Elt Ideal) (Spec.ofAt (Spec.srcGateAt (V c main_arg0) (V c main_arg2) (V c main_arg7) (V c main_v0) (V c main_arg5) (V c main_v2))) := by
  show (cfg0.win 12).cut (grid0.coords t) ((dat0 (F := Ideal) V c).after 12 t) = _
  rw [after0_12]
  unfold out0_12
  rw [View.canon_unit_zero zero_offsets]
  simp only [View.ld_unit_zero (S := S2000x128) zero_offsets, View.ld_unit_zero (S := S128x128) zero_offsets,
    View.ld_unit_zero (S := S1x128) zero_offsets]
  funext j
  obtain ⟨p, q, rfl⟩ : ∃ (p : Fin 2000) (q : Fin 128), j = ix2 p q := ⟨j 0, j 1, eq_ix2 j⟩
  show k0_pay6 (F := Ideal) (iblk0 V c 0 t) (iblk0 V c 1 t) (iblk0 V c 2 t) (iblk0 V c 6 t) (iblk0 V c 3 t) (iblk0 V c 7 t) (ix2 p q)
    = Spec.ofAt (Spec.srcGateAt (V c main_arg0) (V c main_arg2) (V c main_arg7) (V c main_v0) (V c main_arg5) (V c main_v2)) (((cfg0.win 12).blk t).view.emb (ix2 p q))
  refine (pay6_at (iblk0 V c 0 t) (iblk0 V c 1 t) (iblk0 V c 2 t) (iblk0 V c 6 t) (iblk0 V c 3 t) (iblk0 V c 7 t) p q).trans ?_
  refine Eq.trans ?_ (congrArg (Spec.ofAt (Spec.srcGateAt (V c main_arg0) (V c main_arg2) (V c main_arg7) (V c main_v0) (V c main_arg5) (V c main_v2))) (out12_emb t p q)).symm
  rw [Spec.ofAt_ix2]
  exact congrArg₂ (· + ·)
    (congrArg₂ (· + ·)
      (congrArg₂ (· + ·)
        (Finset.sum_congr rfl fun k _ => congrArg₂ (· * ·) (node_block V c t p k) (srcGate_weight V c t (ix2 k q)))
        (srcGate_bias V c t (ix2 (0 : Fin 1) q)))
      (Finset.sum_congr rfl fun k _ => congrArg₂ (· * ·) (time_block V c t p k) (time_weight V c t (ix2 k q))))
    (time_bias V c t (ix2 (0 : Fin 1) q))

/-- An index of output 12's array is in point t's block iff each coordinate is in the block's range. -/
theorem mem_blk12 (t : Fin cfg0.N) (i : S10000x128.Idx) :
    i ∈ ((cfg0.win 12).blk t).view.set ↔ ∀ a : Fin 2, win0_12.index t a * S2000x128.size a ≤ (i a).val ∧ (i a).val < win0_12.index t a * S2000x128.size a + S2000x128.size a := by
  show i ∈ ((View.whole main_v5_0).slice (win0_12.rect t)).set ↔ _
  rw [View.set_slice_whole, Rect.mem_set_unit]
  exact Iff.rfl

/-- Row r is in the block of point r / 2000. -/
theorem cover12 (i : S10000x128.Idx) :
    ∃ t : Fin cfg0.N, (cfg0.win 12).flush t = true ∧ i ∈ ((cfg0.win 12).blk t).view.set := by
  have hi0 : (i 0).val < 10000 := (i 0).isLt
  have hi1 : (i 1).val < 128 := (i 1).isLt
  have hN : cfg0.N = 5 := N_0
  have ht : (i 0).val / 2000 < cfg0.N := by rw [hN]; omega
  have hv : (⟨(i 0).val / 2000, ht⟩ : Fin cfg0.N).val = (i 0).val / 2000 := rfl
  obtain ⟨h0, h1, h12, h13, h14, h15⟩ := row_index ⟨(i 0).val / 2000, ht⟩
  refine ⟨⟨(i 0).val / 2000, ht⟩, flush0_12 _, ?_⟩
  rw [mem_blk12]
  intro a
  match a with
  | ⟨0, _⟩ =>
    show win0_12.index ⟨(i 0).val / 2000, ht⟩ (0 : Fin 2) * 2000 ≤ (i 0).val
      ∧ (i 0).val < win0_12.index ⟨(i 0).val / 2000, ht⟩ (0 : Fin 2) * 2000 + 2000
    omega
  | ⟨1, _⟩ =>
    show win0_12.index ⟨(i 0).val / 2000, ht⟩ (1 : Fin 2) * 128 ≤ (i 1).val
      ∧ (i 1).val < win0_12.index ⟨(i 0).val / 2000, ht⟩ (1 : Fin 2) * 128 + 128
    omega

/-- Output 12's array after the region is the specification's. -/
theorem final12 (c : Dev nD) : (Gen.dat0 (F := Ideal) V c).arrAt 12 cfg0.N = Spec.ofAt (Spec.srcGateAt (V c main_arg0) (V c main_arg2) (V c main_arg7) (V c main_v0) (V c main_arg5) (V c main_v2)) :=
  (dat0 (F := Ideal) V c).arrAt_eq_of_cover 12 (Spec.ofAt (Spec.srcGateAt (V c main_arg0) (V c main_arg2) (V c main_arg7) (V c main_v0) (V c main_arg5) (V c main_v2))) (fun t _ => flushed12_eq V c t) cover12

/-! ## Output window 13 -/

/-- Entry (p, q) of output window 13's block at point t is entry (2000·t + p, q) of its array. -/
theorem out13_emb (t : Fin cfg0.N) (p : Fin 2000) (q : Fin 128) :
    ((cfg0.win 13).blk t).view.emb (ix2 p q) = (ix2 (rowOf t p) q : S10000x128.Idx) := by
  obtain ⟨h0, h1, h12, h13, h14, h15⟩ := row_index t
  refine funext fun a => Fin.ext ?_
  match a with
  | ⟨0, _⟩ => show win0_13.index t (0 : Fin 2) * 2000 + 1 * p.val = 2000 * t.val + p.val; omega
  | ⟨1, _⟩ => show win0_13.index t (1 : Fin 2) * 128 + 1 * q.val = q.val; omega

/-- What point t writes back to output 13 is block t of the specification's array. -/
theorem flushed13_eq (c : Dev nD) (t : Fin cfg0.N) :
    (dat0 (F := Ideal) V c).flushed 13 t = ((cfg0.win 13).blk t).view.read (Elt Ideal) (Spec.ofAt (Spec.linAt (V c main_arg0) (V c main_arg9) (V c main_v1))) := by
  show (cfg0.win 13).cut (grid0.coords t) ((dat0 (F := Ideal) V c).after 13 t) = _
  rw [after0_13]
  unfold out0_13
  rw [View.canon_unit_zero zero_offsets]
  simp only [View.ld_unit_zero (S := S2000x128) zero_offsets, View.ld_unit_zero (S := S128x128) zero_offsets,
    View.ld_unit_zero (S := S1x128) zero_offsets]
  funext j
  obtain ⟨p, q, rfl⟩ : ∃ (p : Fin 2000) (q : Fin 128), j = ix2 p q := ⟨j 0, j 1, eq_ix2 j⟩
  show k0_pay7 (F := Ideal) (iblk0 V c 0 t) (iblk0 V c 4 t) (iblk0 V c 5 t) (ix2 p q)
    = Spec.ofAt (Spec.linAt (V c main_arg0) (V c main_arg9) (V c main_v1)) (((cfg0.win 13).blk t).view.emb (ix2 p q))
  refine (pay7_at (iblk0 V c 0 t) (iblk0 V c 4 t) (iblk0 V c 5 t) p q).trans ?_
  refine Eq.trans ?_ (congrArg (Spec.ofAt (Spec.linAt (V c main_arg0) (V c main_arg9) (V c main_v1))) (out13_emb t p q)).symm
  rw [Spec.ofAt_ix2]
  exact congrArg₂ (· + ·)
    (Finset.sum_congr rfl fun k _ => congrArg₂ (· * ·) (node_block V c t p k) (dstGate_weight V c t (ix2 k q)))
    (dstGate_bias V c t (ix2 (0 : Fin 1) q))

/-- An index of output 13's array is in point t's block iff each coordinate is in the block's range. -/
theorem mem_blk13 (t : Fin cfg0.N) (i : S10000x128.Idx) :
    i ∈ ((cfg0.win 13).blk t).view.set ↔ ∀ a : Fin 2, win0_13.index t a * S2000x128.size a ≤ (i a).val ∧ (i a).val < win0_13.index t a * S2000x128.size a + S2000x128.size a := by
  show i ∈ ((View.whole main_v5_1).slice (win0_13.rect t)).set ↔ _
  rw [View.set_slice_whole, Rect.mem_set_unit]
  exact Iff.rfl

/-- Row r is in the block of point r / 2000. -/
theorem cover13 (i : S10000x128.Idx) :
    ∃ t : Fin cfg0.N, (cfg0.win 13).flush t = true ∧ i ∈ ((cfg0.win 13).blk t).view.set := by
  have hi0 : (i 0).val < 10000 := (i 0).isLt
  have hi1 : (i 1).val < 128 := (i 1).isLt
  have hN : cfg0.N = 5 := N_0
  have ht : (i 0).val / 2000 < cfg0.N := by rw [hN]; omega
  have hv : (⟨(i 0).val / 2000, ht⟩ : Fin cfg0.N).val = (i 0).val / 2000 := rfl
  obtain ⟨h0, h1, h12, h13, h14, h15⟩ := row_index ⟨(i 0).val / 2000, ht⟩
  refine ⟨⟨(i 0).val / 2000, ht⟩, flush0_13 _, ?_⟩
  rw [mem_blk13]
  intro a
  match a with
  | ⟨0, _⟩ =>
    show win0_13.index ⟨(i 0).val / 2000, ht⟩ (0 : Fin 2) * 2000 ≤ (i 0).val
      ∧ (i 0).val < win0_13.index ⟨(i 0).val / 2000, ht⟩ (0 : Fin 2) * 2000 + 2000
    omega
  | ⟨1, _⟩ =>
    show win0_13.index ⟨(i 0).val / 2000, ht⟩ (1 : Fin 2) * 128 ≤ (i 1).val
      ∧ (i 1).val < win0_13.index ⟨(i 0).val / 2000, ht⟩ (1 : Fin 2) * 128 + 128
    omega

/-- Output 13's array after the region is the specification's. -/
theorem final13 (c : Dev nD) : (Gen.dat0 (F := Ideal) V c).arrAt 13 cfg0.N = Spec.ofAt (Spec.linAt (V c main_arg0) (V c main_arg9) (V c main_v1)) :=
  (dat0 (F := Ideal) V c).arrAt_eq_of_cover 13 (Spec.ofAt (Spec.linAt (V c main_arg0) (V c main_arg9) (V c main_v1))) (fun t _ => flushed13_eq V c t) cover13

/-! ## Output window 14 -/

/-- Entry (p, q) of output window 14's block at point t is entry (2000·t + p, q) of its array. -/
theorem out14_emb (t : Fin cfg0.N) (p : Fin 2000) (q : Fin 128) :
    ((cfg0.win 14).blk t).view.emb (ix2 p q) = (ix2 (rowOf t p) q : S10000x128.Idx) := by
  obtain ⟨h0, h1, h12, h13, h14, h15⟩ := row_index t
  refine funext fun a => Fin.ext ?_
  match a with
  | ⟨0, _⟩ => show win0_14.index t (0 : Fin 2) * 2000 + 1 * p.val = 2000 * t.val + p.val; omega
  | ⟨1, _⟩ => show win0_14.index t (1 : Fin 2) * 128 + 1 * q.val = q.val; omega

/-- What point t writes back to output 14 is block t of the specification's array. -/
theorem flushed14_eq (c : Dev nD) (t : Fin cfg0.N) :
    (dat0 (F := Ideal) V c).flushed 14 t = ((cfg0.win 14).blk t).view.read (Elt Ideal) (Spec.ofAt (Spec.linAt (V c main_arg0) (V c main_arg15) (V c main_v3))) := by
  show (cfg0.win 14).cut (grid0.coords t) ((dat0 (F := Ideal) V c).after 14 t) = _
  rw [after0_14]
  unfold out0_14
  rw [View.canon_unit_zero zero_offsets]
  simp only [View.ld_unit_zero (S := S2000x128) zero_offsets, View.ld_unit_zero (S := S128x128) zero_offsets,
    View.ld_unit_zero (S := S1x128) zero_offsets]
  funext j
  obtain ⟨p, q, rfl⟩ : ∃ (p : Fin 2000) (q : Fin 128), j = ix2 p q := ⟨j 0, j 1, eq_ix2 j⟩
  show k0_pay1 (F := Ideal) (k0_pay3 (iblk0 V c 0 t)) (k0_pay4 (iblk0 V c 8 t)) (iblk0 V c 9 t) (ix2 p q)
    = Spec.ofAt (Spec.linAt (V c main_arg0) (V c main_arg15) (V c main_v3)) (((cfg0.win 14).blk t).view.emb (ix2 p q))
  refine (pay1_at (iblk0 V c 0 t) (iblk0 V c 8 t) (iblk0 V c 9 t) p q).trans ?_
  refine Eq.trans ?_ (congrArg (Spec.ofAt (Spec.linAt (V c main_arg0) (V c main_arg15) (V c main_v3))) (out14_emb t p q)).symm
  rw [Spec.ofAt_ix2]
  exact congrArg₂ (· + ·)
    (Finset.sum_congr rfl fun k _ => congrArg₂ (· * ·) (node_block V c t p k) (dstUpdate_weight V c t (ix2 k q)))
    (dstUpdate_bias V c t (ix2 (0 : Fin 1) q))

/-- An index of output 14's array is in point t's block iff each coordinate is in the block's range. -/
theorem mem_blk14 (t : Fin cfg0.N) (i : S10000x128.Idx) :
    i ∈ ((cfg0.win 14).blk t).view.set ↔ ∀ a : Fin 2, win0_14.index t a * S2000x128.size a ≤ (i a).val ∧ (i a).val < win0_14.index t a * S2000x128.size a + S2000x128.size a := by
  show i ∈ ((View.whole main_v5_2).slice (win0_14.rect t)).set ↔ _
  rw [View.set_slice_whole, Rect.mem_set_unit]
  exact Iff.rfl

/-- Row r is in the block of point r / 2000. -/
theorem cover14 (i : S10000x128.Idx) :
    ∃ t : Fin cfg0.N, (cfg0.win 14).flush t = true ∧ i ∈ ((cfg0.win 14).blk t).view.set := by
  have hi0 : (i 0).val < 10000 := (i 0).isLt
  have hi1 : (i 1).val < 128 := (i 1).isLt
  have hN : cfg0.N = 5 := N_0
  have ht : (i 0).val / 2000 < cfg0.N := by rw [hN]; omega
  have hv : (⟨(i 0).val / 2000, ht⟩ : Fin cfg0.N).val = (i 0).val / 2000 := rfl
  obtain ⟨h0, h1, h12, h13, h14, h15⟩ := row_index ⟨(i 0).val / 2000, ht⟩
  refine ⟨⟨(i 0).val / 2000, ht⟩, flush0_14 _, ?_⟩
  rw [mem_blk14]
  intro a
  match a with
  | ⟨0, _⟩ =>
    show win0_14.index ⟨(i 0).val / 2000, ht⟩ (0 : Fin 2) * 2000 ≤ (i 0).val
      ∧ (i 0).val < win0_14.index ⟨(i 0).val / 2000, ht⟩ (0 : Fin 2) * 2000 + 2000
    omega
  | ⟨1, _⟩ =>
    show win0_14.index ⟨(i 0).val / 2000, ht⟩ (1 : Fin 2) * 128 ≤ (i 1).val
      ∧ (i 1).val < win0_14.index ⟨(i 0).val / 2000, ht⟩ (1 : Fin 2) * 128 + 128
    omega

/-- Output 14's array after the region is the specification's. -/
theorem final14 (c : Dev nD) : (Gen.dat0 (F := Ideal) V c).arrAt 14 cfg0.N = Spec.ofAt (Spec.linAt (V c main_arg0) (V c main_arg15) (V c main_v3)) :=
  (dat0 (F := Ideal) V c).arrAt_eq_of_cover 14 (Spec.ofAt (Spec.linAt (V c main_arg0) (V c main_arg15) (V c main_v3))) (fun t _ => flushed14_eq V c t) cover14

/-! ## Output window 15 -/

/-- Entry (p, q) of output window 15's block at point t is entry (2000·t + p, q) of its array. -/
theorem out15_emb (t : Fin cfg0.N) (p : Fin 2000) (q : Fin 128) :
    ((cfg0.win 15).blk t).view.emb (ix2 p q) = (ix2 (rowOf t p) q : S10000x128.Idx) := by
  obtain ⟨h0, h1, h12, h13, h14, h15⟩ := row_index t
  refine funext fun a => Fin.ext ?_
  match a with
  | ⟨0, _⟩ => show win0_15.index t (0 : Fin 2) * 2000 + 1 * p.val = 2000 * t.val + p.val; omega
  | ⟨1, _⟩ => show win0_15.index t (1 : Fin 2) * 128 + 1 * q.val = q.val; omega

/-- What point t writes back to output 15 is block t of the specification's array. -/
theorem flushed15_eq (c : Dev nD) (t : Fin cfg0.N) :
    (dat0 (F := Ideal) V c).flushed 15 t = ((cfg0.win 15).blk t).view.read (Elt Ideal) (Spec.ofAt (Spec.linAt (V c main_arg0) (V c main_arg13) (V c main_v4))) := by
  show (cfg0.win 15).cut (grid0.coords t) ((dat0 (F := Ideal) V c).after 15 t) = _
  rw [after0_15]
  unfold out0_15
  rw [View.canon_unit_zero zero_offsets]
  simp only [View.ld_unit_zero (S := S2000x128) zero_offsets, View.ld_unit_zero (S := S128x128) zero_offsets,
    View.ld_unit_zero (S := S1x128) zero_offsets]
  funext j
  obtain ⟨p, q, rfl⟩ : ∃ (p : Fin 2000) (q : Fin 128), j = ix2 p q := ⟨j 0, j 1, eq_ix2 j⟩
  show k0_pay2 (F := Ideal) (k0_pay3 (iblk0 V c 0 t)) (k0_pay5 (iblk0 V c 10 t)) (iblk0 V c 11 t) (ix2 p q)
    = Spec.ofAt (Spec.linAt (V c main_arg0) (V c main_arg13) (V c main_v4)) (((cfg0.win 15).blk t).view.emb (ix2 p q))
  refine (pay2_at (iblk0 V c 0 t) (iblk0 V c 10 t) (iblk0 V c 11 t) p q).trans ?_
  refine Eq.trans ?_ (congrArg (Spec.ofAt (Spec.linAt (V c main_arg0) (V c main_arg13) (V c main_v4))) (out15_emb t p q)).symm
  rw [Spec.ofAt_ix2]
  exact congrArg₂ (· + ·)
    (Finset.sum_congr rfl fun k _ => congrArg₂ (· * ·) (node_block V c t p k) (srcUpdate_weight V c t (ix2 k q)))
    (srcUpdate_bias V c t (ix2 (0 : Fin 1) q))

/-- An index of output 15's array is in point t's block iff each coordinate is in the block's range. -/
theorem mem_blk15 (t : Fin cfg0.N) (i : S10000x128.Idx) :
    i ∈ ((cfg0.win 15).blk t).view.set ↔ ∀ a : Fin 2, win0_15.index t a * S2000x128.size a ≤ (i a).val ∧ (i a).val < win0_15.index t a * S2000x128.size a + S2000x128.size a := by
  show i ∈ ((View.whole main_v5_3).slice (win0_15.rect t)).set ↔ _
  rw [View.set_slice_whole, Rect.mem_set_unit]
  exact Iff.rfl

/-- Row r is in the block of point r / 2000. -/
theorem cover15 (i : S10000x128.Idx) :
    ∃ t : Fin cfg0.N, (cfg0.win 15).flush t = true ∧ i ∈ ((cfg0.win 15).blk t).view.set := by
  have hi0 : (i 0).val < 10000 := (i 0).isLt
  have hi1 : (i 1).val < 128 := (i 1).isLt
  have hN : cfg0.N = 5 := N_0
  have ht : (i 0).val / 2000 < cfg0.N := by rw [hN]; omega
  have hv : (⟨(i 0).val / 2000, ht⟩ : Fin cfg0.N).val = (i 0).val / 2000 := rfl
  obtain ⟨h0, h1, h12, h13, h14, h15⟩ := row_index ⟨(i 0).val / 2000, ht⟩
  refine ⟨⟨(i 0).val / 2000, ht⟩, flush0_15 _, ?_⟩
  rw [mem_blk15]
  intro a
  match a with
  | ⟨0, _⟩ =>
    show win0_15.index ⟨(i 0).val / 2000, ht⟩ (0 : Fin 2) * 2000 ≤ (i 0).val
      ∧ (i 0).val < win0_15.index ⟨(i 0).val / 2000, ht⟩ (0 : Fin 2) * 2000 + 2000
    omega
  | ⟨1, _⟩ =>
    show win0_15.index ⟨(i 0).val / 2000, ht⟩ (1 : Fin 2) * 128 ≤ (i 1).val
      ∧ (i 1).val < win0_15.index ⟨(i 0).val / 2000, ht⟩ (1 : Fin 2) * 128 + 128
    omega

/-- Output 15's array after the region is the specification's. -/
theorem final15 (c : Dev nD) : (Gen.dat0 (F := Ideal) V c).arrAt 15 cfg0.N = Spec.ofAt (Spec.linAt (V c main_arg0) (V c main_arg13) (V c main_v4)) :=
  (dat0 (F := Ideal) V c).arrAt_eq_of_cover 15 (Spec.ofAt (Spec.linAt (V c main_arg0) (V c main_arg13) (V c main_v4))) (fun t _ => flushed15_eq V c t) cover15

end Cert.KernelIdeal.Region0

end
-- ==== Proof.LibRows.lean ====
/-
  Rows of a two-axis array read at an index, at the extended reals: the sum of a row as a lane reduction computes
  it, a vector of row values made a column, and a column spread over the columns of a row.
-/
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LibRows

open Idealize.ShloMosaic Idealize.ShloMosaic.ValueIdx

variable {α : Type}

/-- A vector of `a` values cast to a column `[a, 1]` reads, at `(i, u)`, the value at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` array into `[a]`, at the extended reals, is at `p` the sum of row `p`. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (p : Fin a) :
    multiReduction .add [(1 : Fin 2)] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  apply Fin.ext
  match ax with
  | ⟨0, _⟩ => rfl
  | ⟨1, _⟩ => rfl

end Cert.LibRows

end
-- ==== Proof.Region1.lean ====
/-
  The edge region, read row by row.

  The region walks the 320000 edge rows in 100 blocks of 3200 rows. On each block it forms the pre-activation
  m = gate + ef·W + b, stores its logistic and the gated message bh·logistic(m), and stores the edge output
  ef + z·logistic(z), where z is the layer normalisation of the row m (mean and variance as quotients by 128, reciprocal
  square root of the variance plus epsilon, scale, shift). Here each of the three output arrays, after the last block
  has been written back, is identified index by index with the corresponding row-wise function of the specification.
-/
import proofs.«130515_j52106543235177_2_alg».proof.Proof.Spec
import proofs.«130515_j52106543235177_2_alg».proof.Proof.Gen.KernelIdeal.Frame
import proofs.«130515_j52106543235177_2_alg».proof.Proof.LibRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Idealize.ShloMosaic Idealize.ShloMosaic.TcCoe Idealize.SL.Sem Idealize.ShloMosaic.ValueIdx
open Cert.KernelIdeal Cert.KernelIdeal.Gen
open Idealize.ShloMosaic.Pipeline (Dat)

/-! ## The block's arithmetic at one (row, column) -/

/-- The contraction of a 3200×128 block with a 128×128 matrix along the block's columns and the matrix's rows. -/
abbrev rowsByCols : DotDims S3200x128 S128x128 S3200x128 := dot_S3200x128_S128x128_S3200x128_1_0_0_1_n_n

theorem lhs_row (i : S3200x128.Idx) (k : rowsByCols.contr.Idx) : (rowsByCols.lhsIdx i k 0).val = (i 0).val := by
  unfold DotDims.lhsIdx
  rw [dif_neg (show ¬(0 : Fin S3200x128.rank) ∈ rowsByCols.lhsBatch by decide),
    dif_pos (show (0 : Fin S3200x128.rank) ∈ rowsByCols.lhsNonContracting by decide)]
  rfl
theorem lhs_col (i : S3200x128.Idx) (k : rowsByCols.contr.Idx) :
    (rowsByCols.lhsIdx i k 1).val = (k ⟨0, by decide⟩).val :=
  rowsByCols.lhsIdx_val_of_single rfl i k
theorem rhs_row (i : S3200x128.Idx) (k : rowsByCols.contr.Idx) :
    (rowsByCols.rhsIdx i k 0).val = (k ⟨0, by decide⟩).val :=
  rowsByCols.rhsIdx_val_of_single rfl i k
theorem rhs_col (i : S3200x128.Idx) (k : rowsByCols.contr.Idx) : (rowsByCols.rhsIdx i k 1).val = (i 1).val := by
  unfold DotDims.rhsIdx
  rw [dif_neg (show ¬(1 : Fin S128x128.rank) ∈ rowsByCols.rhsBatch by decide),
    dif_pos (show (1 : Fin S128x128.rank) ∈ rowsByCols.rhsNonContracting by decide)]
  rfl

/-- The row-by-column product of a 3200×128 block with a 128×128 matrix, accumulated from zero, at (p, q): the sum
    over k of the block's (p, k) entry times the matrix's (k, q) entry. -/
theorem matmul_at (l : FVec Ideal S3200x128 .bf16) (r : FVec Ideal S128x128 .bf16) (p : Fin 3200) (q : Fin 128) :
    matmul rowsByCols none l r (constant (F := Ideal) S3200x128 .f32 0x00000000#32) (ix2 p q)
      = ∑ k : Fin 128, l (ix2 p k) * r (ix2 k q) := by
  simp only [matmul]
  rw [Ideal.matmul_constant_zero_apply, ← Equiv.sum_comp (contrEquiv1 rowsByCols 128 rfl rfl).symm]
  refine Finset.sum_congr rfl fun k _ => ?_
  have hk := contrEquiv1_symm_val rowsByCols 128 rfl rfl k
  have el : rowsByCols.lhsIdx (ix2 p q) ((contrEquiv1 rowsByCols 128 rfl rfl).symm k) = ix2 p k :=
    funext fun a => Fin.ext (by
      match a with
      | ⟨0, _⟩ => exact lhs_row _ _
      | ⟨1, _⟩ => exact (lhs_col _ _).trans hk)
  have er : rowsByCols.rhsIdx (ix2 p q) ((contrEquiv1 rowsByCols 128 rfl rfl).symm k) = ix2 k q :=
    funext fun a => Fin.ext (by
      match a with
      | ⟨0, _⟩ => exact (rhs_row _ _).trans hk
      | ⟨1, _⟩ => exact rhs_col _ _)
  rw [el, er]

/-- The block's pre-activation at (p, q): the gate entry plus the row of `ef` against the column of `W`, plus the bias
    entry. -/
theorem pre_at (ef : Vec Ideal S3200x128 .f32) (W : Vec Ideal S128x128 .f32) (gate : Vec Ideal S3200x128 .f32)
    (b : Vec Ideal S1x128 .f32) (p : Fin 3200) (q : Fin 128) :
    k1_pay2 ef W gate b (ix2 p q)
      = (gate (ix2 p q) + ∑ k : Fin 128, ef (ix2 p k) * W (ix2 k q)) + b (ix2 (0 : Fin 1) q) := by
  unfold k1_pay2
  simp only [shapeCast_self]
  show (gate (ix2 p q) + matmul (F := Ideal) rowsByCols none (truncf .bf16 ef bitsLt_bf16_f32) (truncf .bf16 W bitsLt_bf16_f32)
        (constant (F := Ideal) S3200x128 .f32 0x00000000#32) (ix2 p q))
      + broadcastTo S3200x128 b broadcasts_S1x128_S3200x128 (ix2 p q) = _
  rw [matmul_at, broadcastTo_1b_ab_apply]
  rfl

/-! ## The stored values at one (row, column) -/

/-- Window 7 stores the logistic of the pre-activation. -/
theorem logistic_at (ef : Vec Ideal S3200x128 .f32) (W : Vec Ideal S128x128 .f32) (gate : Vec Ideal S3200x128 .f32)
    (b : Vec Ideal S1x128 .f32) (p : Fin 3200) (q : Fin 128) :
    k1_pay4 ef W gate b (ix2 p q) = Ideal.logistic (k1_pay2 ef W gate b (ix2 p q)) := by
  unfold k1_pay4 k1_pay3
  rfl

/-- Window 8 stores the gated message: the block of `bh` times that logistic. -/
theorem message_at (ef : Vec Ideal S3200x128 .f32) (W : Vec Ideal S128x128 .f32) (gate : Vec Ideal S3200x128 .f32)
    (b : Vec Ideal S1x128 .f32) (bh : Vec Ideal S3200x128 .f32) (p : Fin 3200) (q : Fin 128) :
    k1_pay5 ef W gate b bh (ix2 p q) = bh (ix2 p q) * Ideal.logistic (k1_pay2 ef W gate b (ix2 p q)) := by
  unfold k1_pay5 k1_pay3
  simp only [shapeCast_self]
  rfl

/-! ## From blocks to arrays -/

variable (V : (c : Dev nD) → (b : Ref sig .tc) → Buf (Elt Ideal) ((c : Thread nD τ).loc b))

/-- Whole-buffer accesses start at offset zero on both axes. -/
theorem offsets_zero : (![0, 0] : Fin 2 → Nat) = fun _ => 0 := funext fun a => by fin_cases a <;> rfl

/-- The block indices over the grid: at point `t` every row-blocked window is at block (t, 0), and the weight, bias, gain
    and shift windows are at their one block (0, 0). -/
theorem block_index : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0)
    ∧ (win1_8.index t (0 : Fin 2) = t.val ∧ win1_8.index t (1 : Fin 2) = 0)
    ∧ (win1_9.index t (0 : Fin 2) = t.val ∧ win1_9.index t (1 : Fin 2) = 0) :=
  (by decide +kernel : ∀ t : Fin grid1.N, _)

/-- The gate window's block at point `t`, at (p, q), is the gate array at row 3200·t + p. -/
theorem gate_block (c : Dev nD) (t : Fin cfg1.N) (p : Fin 3200) (q : Fin 128) (r : Fin 320000)
    (hr : r.val = t.val * 3200 + p.val) :
    (Gen.iblk1 (F := Ideal) V c 0 t : S3200x128.Idx → EReal) (ix2 p q)
      = (V c main_v20 : S320000x128.Idx → EReal) (ix2 r q) := by
  unfold Gen.iblk1
  rw [View.read_apply]
  show (V c main_v20 : S320000x128.Idx → EReal) _ = _
  congr 1
  funext a
  apply Fin.ext
  obtain ⟨⟨h0, h1⟩, -⟩ := block_index t
  match a with
  | ⟨0, _⟩ => show win1_0.index t (0 : Fin 2) * 3200 + 1 * p.val = r.val; rw [h0, hr]; omega
  | ⟨1, _⟩ => show win1_0.index t (1 : Fin 2) * 128 + 1 * q.val = q.val; rw [h1]; omega

/-- The edge-feature window's block at point `t`, at (p, q), is the edge-feature array at row 3200·t + p. -/
theorem ef_block (c : Dev nD) (t : Fin cfg1.N) (p : Fin 3200) (q : Fin 128) (r : Fin 320000)
    (hr : r.val = t.val * 3200 + p.val) :
    (Gen.iblk1 (F := Ideal) V c 1 t : S3200x128.Idx → EReal) (ix2 p q)
      = (V c main_arg1 : S320000x128.Idx → EReal) (ix2 r q) := by
  unfold Gen.iblk1
  rw [View.read_apply]
  show (V c main_arg1 : S320000x128.Idx → EReal) _ = _
  congr 1
  funext a
  apply Fin.ext
  obtain ⟨-, ⟨h0, h1⟩, -⟩ := block_index t
  match a with
  | ⟨0, _⟩ => show win1_1.index t (0 : Fin 2) * 3200 + 1 * p.val = r.val; rw [h0, hr]; omega
  | ⟨1, _⟩ => show win1_1.index t (1 : Fin 2) * 128 + 1 * q.val = q.val; rw [h1]; omega

/-- The `bh` window's block at point `t`, at (p, q), is the gathered array at row 3200·t + p. -/
theorem bh_block (c : Dev nD) (t : Fin cfg1.N) (p : Fin 3200) (q : Fin 128) (r : Fin 320000)
    (hr : r.val = t.val * 3200 + p.val) :
    (Gen.iblk1 (F := Ideal) V c 2 t : S3200x128.Idx → EReal) (ix2 p q)
      = (V c main_v27 : S320000x128.Idx → EReal) (ix2 r q) := by
  unfold Gen.iblk1
  rw [View.read_apply]
  show (V c main_v27 : S320000x128.Idx → EReal) _ = _
  congr 1
  funext a
  apply Fin.ext
  obtain ⟨-, -, ⟨h0, h1⟩, -⟩ := block_index t
  match a with
  | ⟨0, _⟩ => show win1_2.index t (0 : Fin 2) * 3200 + 1 * p.val = r.val; rw [h0, hr]; omega
  | ⟨1, _⟩ => show win1_2.index t (1 : Fin 2) * 128 + 1 * q.val = q.val; rw [h1]; omega

/-- The weight window's one block is the weight matrix. -/
theorem weight_block (c : Dev nD) (t : Fin cfg1.N) (k q : Fin 128) :
    (Gen.iblk1 (F := Ideal) V c 3 t : S128x128.Idx → EReal) (ix2 k q)
      = (V c main_arg11 : S128x128.Idx → EReal) (ix2 k q) := by
  unfold Gen.iblk1
  rw [View.read_apply]
  show (V c main_arg11 : S128x128.Idx → EReal) _ = _
  congr 1
  funext a
  apply Fin.ext
  obtain ⟨-, -, -, ⟨h0, h1⟩, -⟩ := block_index t
  match a with
  | ⟨0, _⟩ => show win1_3.index t (0 : Fin 2) * 128 + 1 * k.val = k.val; rw [h0]; omega
  | ⟨1, _⟩ => show win1_3.index t (1 : Fin 2) * 128 + 1 * q.val = q.val; rw [h1]; omega

/-- The bias window's one block is the bias row. -/
theorem bias_block (c : Dev nD) (t : Fin cfg1.N) (u : Fin 1) (q : Fin 128) :
    (Gen.iblk1 (F := Ideal) V c 4 t : S1x128.Idx → EReal) (ix2 u q)
      = (V c main_v28 : S1x128.Idx → EReal) (ix2 u q) := by
  unfold Gen.iblk1
  rw [View.read_apply]
  show (V c main_v28 : S1x128.Idx → EReal) _ = _
  congr 1
  funext a
  apply Fin.ext
  obtain ⟨-, -, -, -, ⟨h0, h1⟩, -⟩ := block_index t
  match a with
  | ⟨0, _⟩ => show win1_4.index t (0 : Fin 2) * 1 + 1 * u.val = u.val; rw [h0]; omega
  | ⟨1, _⟩ => show win1_4.index t (1 : Fin 2) * 128 + 1 * q.val = q.val; rw [h1]; omega

/-- The gain window's one block is the layer normalisation's gain row. -/
theorem gain_block (c : Dev nD) (t : Fin cfg1.N) (u : Fin 1) (q : Fin 128) :
    (Gen.iblk1 (F := Ideal) V c 5 t : S1x128.Idx → EReal) (ix2 u q)
      = (V c main_v29 : S1x128.Idx → EReal) (ix2 u q) := by
  unfold Gen.iblk1
  rw [View.read_apply]
  show (V c main_v29 : S1x128.Idx → EReal) _ = _
  congr 1
  funext a
  apply Fin.ext
  obtain ⟨-, -, -, -, -, ⟨h0, h1⟩, -⟩ := block_index t
  match a with
  | ⟨0, _⟩ => show win1_5.index t (0 : Fin 2) * 1 + 1 * u.val = u.val; rw [h0]; omega
  | ⟨1, _⟩ => show win1_5.index t (1 : Fin 2) * 128 + 1 * q.val = q.val; rw [h1]; omega

/-- The shift window's one block is the layer normalisation's shift row. -/
theorem shift_block (c : Dev nD) (t : Fin cfg1.N) (u : Fin 1) (q : Fin 128) :
    (Gen.iblk1 (F := Ideal) V c 6 t : S1x128.Idx → EReal) (ix2 u q)
      = (V c main_v30 : S1x128.Idx → EReal) (ix2 u q) := by
  unfold Gen.iblk1
  rw [View.read_apply]
  show (V c main_v30 : S1x128.Idx → EReal) _ = _
  congr 1
  funext a
  apply Fin.ext
  obtain ⟨-, -, -, -, -, -, ⟨h0, h1⟩, -⟩ := block_index t
  match a with
  | ⟨0, _⟩ => show win1_6.index t (0 : Fin 2) * 1 + 1 * u.val = u.val; rw [h0]; omega
  | ⟨1, _⟩ => show win1_6.index t (1 : Fin 2) * 128 + 1 * q.val = q.val; rw [h1]; omega

/-- The pre-activation of the blocks at point `t`, at (p, q), is the specification's pre-activation of the arrays at
    row 3200·t + p. -/
theorem pre_block (c : Dev nD) (t : Fin cfg1.N) (p : Fin 3200) (q : Fin 128) (r : Fin 320000)
    (hr : r.val = t.val * 3200 + p.val) :
    k1_pay2 (Gen.iblk1 (F := Ideal) V c 1 t) (Gen.iblk1 (F := Ideal) V c 3 t) (Gen.iblk1 (F := Ideal) V c 0 t)
        (Gen.iblk1 (F := Ideal) V c 4 t) (ix2 p q)
      = Spec.preAt (V c main_v20) (V c main_arg1) (V c main_arg11) (V c main_v28) r q := by
  refine (pre_at (Gen.iblk1 (F := Ideal) V c 1 t) (Gen.iblk1 (F := Ideal) V c 3 t) (Gen.iblk1 (F := Ideal) V c 0 t)
    (Gen.iblk1 (F := Ideal) V c 4 t) p q).trans ?_
  unfold Spec.preAt Spec.dotAt
  rw [gate_block V c t p q r hr, bias_block V c t 0 q]
  refine congrArg₂ (· + ·) (congrArg₂ (· + ·) rfl (Finset.sum_congr rfl fun k _ => ?_)) rfl
  rw [ef_block V c t p k r hr, weight_block V c t k q]

/-! ## Window 7: the logistic of the pre-activation -/

/-- What point `t` writes back through window 7 is block `t` of the logistic of the specification's pre-activation. -/
theorem logistic_flushed (c : Dev nD) (t : Fin cfg1.N) :
    (Gen.dat1 (F := Ideal) V c).flushed 7 t = ((cfg1.win 7).blk t).view.read (Elt Ideal)
      (Spec.ofAt (fun r q => Ideal.logistic (Spec.preAt (V c main_v20) (V c main_arg1) (V c main_arg11) (V c main_v28) r q))) := by
  show (cfg1.win 7).cut (grid1.coords t) ((Gen.dat1 (F := Ideal) V c).after 7 t) = _
  rw [Gen.after1_7]
  unfold Gen.out1_7
  rw [View.canon_unit_zero offsets_zero]
  simp only [View.ld_unit_zero (S := S3200x128) offsets_zero, View.ld_unit_zero (S := S128x128) offsets_zero,
    View.ld_unit_zero (S := S1x128) offsets_zero]
  refine funext fun (j : S3200x128.Idx) => ?_
  obtain ⟨p, q, rfl⟩ : ∃ (p : Fin 3200) (q : Fin 128), j = ix2 p q := ⟨j 0, j 1, eq_ix2 j⟩
  obtain ⟨-, -, -, -, -, -, -, ⟨h0, h1⟩, -⟩ := block_index t
  have ht : t.val < 100 := lt_of_lt_of_eq t.isLt Gen.N_1
  have hemb : ((cfg1.win 7).blk t).view.emb (ix2 p q) = (ix2 (⟨t.val * 3200 + p.val, by omega⟩ : Fin 320000) q : S320000x128.Idx) := by
    funext a
    apply Fin.ext
    match a with
    | ⟨0, _⟩ => show win1_7.index t (0 : Fin 2) * 3200 + 1 * p.val = t.val * 3200 + p.val; rw [h0]; omega
    | ⟨1, _⟩ => show win1_7.index t (1 : Fin 2) * 128 + 1 * q.val = q.val; rw [h1]; omega
  rw [View.read_apply, hemb, Spec.ofAt_ix2]
  refine (logistic_at (Gen.iblk1 (F := Ideal) V c 1 t) (Gen.iblk1 (F := Ideal) V c 3 t) (Gen.iblk1 (F := Ideal) V c 0 t)
    (Gen.iblk1 (F := Ideal) V c 4 t) p q).trans ?_
  exact congrArg Ideal.logistic (pre_block V c t p q _ rfl)

/-- An index of the array is in point `t`'s block of window 7 iff each coordinate is in the block's range on its axis. -/
theorem mem_logistic_block (t : Fin cfg1.N) (i : S320000x128.Idx) :
    i ∈ ((cfg1.win 7).blk t).view.set ↔ ∀ a : Fin 2, win1_7.index t a * S3200x128.size a ≤ (i a).val
      ∧ (i a).val < win1_7.index t a * S3200x128.size a + S3200x128.size a := by
  show i ∈ ((View.whole main_v31_0).slice (win1_7.rect t)).set ↔ _
  rw [View.set_slice_whole, Rect.mem_set_unit]
  exact Iff.rfl

/-- Row `r` of the array is written back by point `r / 3200`. -/
theorem logistic_cover (i : S320000x128.Idx) :
    ∃ t : Fin cfg1.N, (cfg1.win 7).flush t = true ∧ i ∈ ((cfg1.win 7).blk t).view.set := by
  have hi0 : (i 0).val < 320000 := (i 0).isLt
  have hi1 : (i 1).val < 128 := (i 1).isLt
  obtain ⟨t, ht⟩ : ∃ t : Fin cfg1.N, t.val = (i 0).val / 3200 :=
    ⟨⟨(i 0).val / 3200, lt_of_lt_of_eq (show (i 0).val / 3200 < 100 by omega) Gen.N_1.symm⟩, rfl⟩
  obtain ⟨-, -, -, -, -, -, -, ⟨h0, h1⟩, -⟩ := block_index t
  refine ⟨t, Gen.flush1_7 t, ?_⟩
  rw [mem_logistic_block]
  intro a
  match a with
  | ⟨0, _⟩ =>
    show win1_7.index t (0 : Fin 2) * 3200 ≤ (i 0).val ∧ (i 0).val < win1_7.index t (0 : Fin 2) * 3200 + 3200
    rw [h0, ht]; omega
  | ⟨1, _⟩ =>
    show win1_7.index t (1 : Fin 2) * 128 ≤ (i 1).val ∧ (i 1).val < win1_7.index t (1 : Fin 2) * 128 + 128
    rw [h1]; omega

/-- After the run window 7's array holds, at every (row, column), the logistic of the pre-activation. -/
theorem final7 (c : Dev nD) : (Gen.dat1 (F := Ideal) V c).arrAt 7 cfg1.N
    = Spec.ofAt (fun r q => Ideal.logistic (Spec.preAt (V c main_v20) (V c main_arg1) (V c main_arg11) (V c main_v28) r q)) :=
  (Gen.dat1 (F := Ideal) V c).arrAt_eq_of_cover 7 _ (fun t _ => logistic_flushed V c t) logistic_cover

/-! ## Window 8: the gated message -/

/-- What point `t` writes back through window 8 is block `t` of the gathered array times the logistic of the
    specification's pre-activation. -/
theorem message_flushed (c : Dev nD) (t : Fin cfg1.N) :
    (Gen.dat1 (F := Ideal) V c).flushed 8 t = ((cfg1.win 8).blk t).view.read (Elt Ideal)
      (Spec.ofAt (fun r q => HMul.hMul (α := EReal) (β := EReal) (γ := EReal) (V c main_v27 (ix2 r q))
        (Ideal.logistic (Spec.preAt (V c main_v20) (V c main_arg1) (V c main_arg11) (V c main_v28) r q)))) := by
  show (cfg1.win 8).cut (grid1.coords t) ((Gen.dat1 (F := Ideal) V c).after 8 t) = _
  rw [Gen.after1_8]
  unfold Gen.out1_8
  rw [View.canon_unit_zero offsets_zero]
  simp only [View.ld_unit_zero (S := S3200x128) offsets_zero, View.ld_unit_zero (S := S128x128) offsets_zero,
    View.ld_unit_zero (S := S1x128) offsets_zero]
  refine funext fun (j : S3200x128.Idx) => ?_
  obtain ⟨p, q, rfl⟩ : ∃ (p : Fin 3200) (q : Fin 128), j = ix2 p q := ⟨j 0, j 1, eq_ix2 j⟩
  obtain ⟨-, -, -, -, -, -, -, -, ⟨h0, h1⟩, -⟩ := block_index t
  have ht : t.val < 100 := lt_of_lt_of_eq t.isLt Gen.N_1
  have hemb : ((cfg1.win 8).blk t).view.emb (ix2 p q) = (ix2 (⟨t.val * 3200 + p.val, by omega⟩ : Fin 320000) q : S320000x128.Idx) := by
    funext a
    apply Fin.ext
    match a with
    | ⟨0, _⟩ => show win1_8.index t (0 : Fin 2) * 3200 + 1 * p.val = t.val * 3200 + p.val; rw [h0]; omega
    | ⟨1, _⟩ => show win1_8.index t (1 : Fin 2) * 128 + 1 * q.val = q.val; rw [h1]; omega
  rw [View.read_apply, hemb, Spec.ofAt_ix2]
  refine (message_at (Gen.iblk1 (F := Ideal) V c 1 t) (Gen.iblk1 (F := Ideal) V c 3 t) (Gen.iblk1 (F := Ideal) V c 0 t)
    (Gen.iblk1 (F := Ideal) V c 4 t) (Gen.iblk1 (F := Ideal) V c 2 t) p q).trans ?_
  exact congrArg₂ (· * ·) (bh_block V c t p q _ rfl) (congrArg Ideal.logistic (pre_block V c t p q _ rfl))

/-- An index of the array is in point `t`'s block of window 8 iff each coordinate is in the block's range on its axis. -/
theorem mem_message_block (t : Fin cfg1.N) (i : S320000x128.Idx) :
    i ∈ ((cfg1.win 8).blk t).view.set ↔ ∀ a : Fin 2, win1_8.index t a * S3200x128.size a ≤ (i a).val
      ∧ (i a).val < win1_8.index t a * S3200x128.size a + S3200x128.size a := by
  show i ∈ ((View.whole main_v31_1).slice (win1_8.rect t)).set ↔ _
  rw [View.set_slice_whole, Rect.mem_set_unit]
  exact Iff.rfl

/-- Row `r` of the array is written back by point `r / 3200`. -/
theorem message_cover (i : S320000x128.Idx) :
    ∃ t : Fin cfg1.N, (cfg1.win 8).flush t = true ∧ i ∈ ((cfg1.win 8).blk t).view.set := by
  have hi0 : (i 0).val < 320000 := (i 0).isLt
  have hi1 : (i 1).val < 128 := (i 1).isLt
  obtain ⟨t, ht⟩ : ∃ t : Fin cfg1.N, t.val = (i 0).val / 3200 :=
    ⟨⟨(i 0).val / 3200, lt_of_lt_of_eq (show (i 0).val / 3200 < 100 by omega) Gen.N_1.symm⟩, rfl⟩
  obtain ⟨-, -, -, -, -, -, -, -, ⟨h0, h1⟩, -⟩ := block_index t
  refine ⟨t, Gen.flush1_8 t, ?_⟩
  rw [mem_message_block]
  intro a
  match a with
  | ⟨0, _⟩ =>
    show win1_8.index t (0 : Fin 2) * 3200 ≤ (i 0).val ∧ (i 0).val < win1_8.index t (0 : Fin 2) * 3200 + 3200
    rw [h0, ht]; omega
  | ⟨1, _⟩ =>
    show win1_8.index t (1 : Fin 2) * 128 ≤ (i 1).val ∧ (i 1).val < win1_8.index t (1 : Fin 2) * 128 + 128
    rw [h1]; omega

/-- After the run window 8's array holds, at every (row, column), the gathered entry times the logistic of the
    pre-activation. -/
theorem final8 (c : Dev nD) : (Gen.dat1 (F := Ideal) V c).arrAt 8 cfg1.N
    = Spec.ofAt (fun r q => HMul.hMul (α := EReal) (β := EReal) (γ := EReal) (V c main_v27 (ix2 r q))
        (Ideal.logistic (Spec.preAt (V c main_v20) (V c main_arg1) (V c main_arg11) (V c main_v28) r q))) :=
  (Gen.dat1 (F := Ideal) V c).arrAt_eq_of_cover 8 _ (fun t _ => message_flushed V c t) message_cover

/-! ## Layer normalisation of a row of the block -/

/-- The block's column of row means, at row `p`: the mean of the pre-activation's row `p`. -/
theorem mean_at (ef : Vec Ideal S3200x128 .f32) (W : Vec Ideal S128x128 .f32) (gate : Vec Ideal S3200x128 .f32)
    (b : Vec Ideal S1x128 .f32) (p : Fin 3200) (u : Fin 1) :
    k1_pay8 ef W gate b (ix2 p u) = Spec.mean (fun k => k1_pay2 ef W gate b (ix2 p k)) := by
  unfold k1_pay8 Spec.mean
  refine (divf_apply _ _ _).trans (congrArg₂ Ideal.div ?_ rfl)
  exact (Cert.LibRows.shapeCast_a_a1_apply _ _ p u).trans (Cert.LibRows.rowSum_apply _ _ _ _ _ p)

/-- The block's column of sums of squared deviations, at row `p`: the sum over the row of the squared deviation of the
    pre-activation from the row's mean. -/
theorem sqdev_at (ef : Vec Ideal S3200x128 .f32) (W : Vec Ideal S128x128 .f32) (gate : Vec Ideal S3200x128 .f32)
    (b : Vec Ideal S1x128 .f32) (p : Fin 3200) (u : Fin 1) :
    k1_pay9 ef W gate b (ix2 p u)
      = ∑ k : Fin 128, (k1_pay2 ef W gate b (ix2 p k) - Spec.mean (fun k => k1_pay2 ef W gate b (ix2 p k)))
          * (k1_pay2 ef W gate b (ix2 p k) - Spec.mean (fun k => k1_pay2 ef W gate b (ix2 p k))) := by
  unfold k1_pay9
  refine (Cert.LibRows.shapeCast_a_a1_apply _ _ p u).trans ?_
  refine (Cert.LibRows.rowSum_apply _ _ _ _ _ p).trans ?_
  refine Finset.sum_congr rfl fun k _ => ?_
  have hm : broadcastTo S3200x128 (k1_pay8 ef W gate b) broadcasts_S3200x1_S3200x128 (ix2 p k)
      = Spec.mean (fun k => k1_pay2 ef W gate b (ix2 p k)) :=
    (Cert.LibRows.broadcastTo_a1_ab_apply _ _ p k).trans (mean_at ef W gate b p 0)
  exact congrArg₂ (· * ·) (congrArg₂ (· - ·) rfl hm) (congrArg₂ (· - ·) rfl hm)

/-- The stored edge output at (p, q), from the pre-activation block `m`, the gain and shift rows, and the columns of
    row means, sums of squared deviations and divisors: the edge feature plus `z · logistic z`, `z` the normalised,
    scaled and shifted entry. -/
theorem out_at (ef : Vec Ideal S3200x128 .f32) (m : FVec Ideal S3200x128 .f32) (g be : FVec Ideal S1x128 .f32)
    (mu ssq n : FVec Ideal S3200x1 .f32) (p : Fin 3200) (q : Fin 128) :
    k1_pay1 ef m g be mu ssq n (ix2 p q)
      = ef (ix2 p q) + Spec.siluAt (((m (ix2 p q) - mu (ix2 p (0 : Fin 1)))
          * Ideal.rsqrt (Ideal.div (ssq (ix2 p (0 : Fin 1))) (n (ix2 p (0 : Fin 1))) + Spec.cEps))
          * g (ix2 (0 : Fin 1) q) + be (ix2 (0 : Fin 1) q)) := by
  unfold k1_pay1 Spec.siluAt
  have hcol : ∀ v : FVec Ideal S3200x1 .f32,
      broadcastTo S3200x128 v broadcasts_S3200x1_S3200x128 (ix2 p q) = v (ix2 p (0 : Fin 1)) :=
    fun v => Cert.LibRows.broadcastTo_a1_ab_apply v _ p q
  have hrow : ∀ v : FVec Ideal S1x128 .f32,
      broadcastTo S3200x128 v broadcasts_S1x128_S3200x128 (ix2 p q) = v (ix2 (0 : Fin 1) q) :=
    fun v => broadcastTo_1b_ab_apply v _ p q
  have hz := congrArg₂ (· + ·) (congrArg₂ (· * ·) (congrArg₂ (· * ·) (congrArg₂ (· - ·) (rfl : m (ix2 p q) = m (ix2 p q)) (hcol mu))
    (hcol (rsqrt (addf (divf ssq n) (broadcast S3200x1 (Scalar.ofBits (F := Ideal) .f32 0x3727C5AC#32)))))) (hrow g)) (hrow be)
  exact congrArg₂ (· + ·) rfl (congrArg₂ (· * ·) hz (congrArg Ideal.logistic hz))

/-! ## Window 9: the edge output -/

/-- The stored edge output of the blocks at point `t`, at (p, q), is the specification's edge output of the arrays at
    row 3200·t + p. -/
theorem out_block (c : Dev nD) (t : Fin cfg1.N) (p : Fin 3200) (q : Fin 128) (r : Fin 320000)
    (hr : r.val = t.val * 3200 + p.val) :
    k1_pay1 (Gen.iblk1 (F := Ideal) V c 1 t)
        (k1_pay2 (Gen.iblk1 (F := Ideal) V c 1 t) (Gen.iblk1 (F := Ideal) V c 3 t) (Gen.iblk1 (F := Ideal) V c 0 t)
          (Gen.iblk1 (F := Ideal) V c 4 t))
        (k1_pay6 (Gen.iblk1 (F := Ideal) V c 5 t)) (k1_pay7 (Gen.iblk1 (F := Ideal) V c 6 t))
        (k1_pay8 (Gen.iblk1 (F := Ideal) V c 1 t) (Gen.iblk1 (F := Ideal) V c 3 t) (Gen.iblk1 (F := Ideal) V c 0 t)
          (Gen.iblk1 (F := Ideal) V c 4 t))
        (k1_pay9 (Gen.iblk1 (F := Ideal) V c 1 t) (Gen.iblk1 (F := Ideal) V c 3 t) (Gen.iblk1 (F := Ideal) V c 0 t)
          (Gen.iblk1 (F := Ideal) V c 4 t))
        (k1_pay10 (F := Ideal)) (ix2 p q)
      = Spec.edgeOutAt (V c main_v20) (V c main_arg1) (V c main_arg11) (V c main_v28) (V c main_v29) (V c main_v30) r q := by
  refine (out_at _ _ _ _ _ _ _ p q).trans ?_
  unfold Spec.edgeOutAt Spec.lnAt Spec.var
  have hx : (fun k => k1_pay2 (Gen.iblk1 (F := Ideal) V c 1 t) (Gen.iblk1 (F := Ideal) V c 3 t)
        (Gen.iblk1 (F := Ideal) V c 0 t) (Gen.iblk1 (F := Ideal) V c 4 t) (ix2 p k))
      = fun k => Spec.preAt (V c main_v20) (V c main_arg1) (V c main_arg11) (V c main_v28) r k :=
    funext fun k => pre_block V c t p k r hr
  have hmean := (mean_at (Gen.iblk1 (F := Ideal) V c 1 t) (Gen.iblk1 (F := Ideal) V c 3 t)
    (Gen.iblk1 (F := Ideal) V c 0 t) (Gen.iblk1 (F := Ideal) V c 4 t) p 0).trans (congrArg Spec.mean hx)
  have hss := (sqdev_at (Gen.iblk1 (F := Ideal) V c 1 t) (Gen.iblk1 (F := Ideal) V c 3 t)
    (Gen.iblk1 (F := Ideal) V c 0 t) (Gen.iblk1 (F := Ideal) V c 4 t) p 0).trans
      (congrArg (fun x : Fin 128 → EReal => ∑ k : Fin 128, (x k - Spec.mean x) * (x k - Spec.mean x)) hx)
  have hg : k1_pay6 (Gen.iblk1 (F := Ideal) V c 5 t) (ix2 (0 : Fin 1) q) = (V c main_v29 : S1x128.Idx → EReal) (ix2 (0 : Fin 1) q) :=
    (congrFun (shapeCast_self (Gen.iblk1 (F := Ideal) V c 5 t : S1x128.Idx → EReal) shapeCasts_S1x128_S1x128) (ix2 (0 : Fin 1) q)).trans
      (gain_block V c t 0 q)
  have hb : k1_pay7 (Gen.iblk1 (F := Ideal) V c 6 t) (ix2 (0 : Fin 1) q) = (V c main_v30 : S1x128.Idx → EReal) (ix2 (0 : Fin 1) q) :=
    (congrFun (shapeCast_self (Gen.iblk1 (F := Ideal) V c 6 t : S1x128.Idx → EReal) shapeCasts_S1x128_S1x128) (ix2 (0 : Fin 1) q)).trans
      (shift_block V c t 0 q)
  exact congrArg₂ (· + ·) (ef_block V c t p q r hr) (congrArg Spec.siluAt (congrArg₂ (· + ·) (congrArg₂ (· * ·)
    (congrArg₂ (· * ·) (congrArg₂ (· - ·) (pre_block V c t p q r hr) hmean)
      (congrArg Ideal.rsqrt (congrArg₂ (· + ·) (congrArg₂ Ideal.div hss rfl) rfl))) hg) hb))

/-- What point `t` writes back through window 9 is block `t` of the specification's edge output. -/
theorem out_flushed (c : Dev nD) (t : Fin cfg1.N) :
    (Gen.dat1 (F := Ideal) V c).flushed 9 t = ((cfg1.win 9).blk t).view.read (Elt Ideal)
      (Spec.ofAt (Spec.edgeOutAt (V c main_v20) (V c main_arg1) (V c main_arg11) (V c main_v28) (V c main_v29) (V c main_v30))) := by
  show (cfg1.win 9).cut (grid1.coords t) ((Gen.dat1 (F := Ideal) V c).after 9 t) = _
  rw [Gen.after1_9]
  unfold Gen.out1_9
  rw [View.canon_unit_zero offsets_zero]
  simp only [View.ld_unit_zero (S := S3200x128) offsets_zero, View.ld_unit_zero (S := S128x128) offsets_zero,
    View.ld_unit_zero (S := S1x128) offsets_zero]
  refine funext fun (j : S3200x128.Idx) => ?_
  obtain ⟨p, q, rfl⟩ : ∃ (p : Fin 3200) (q : Fin 128), j = ix2 p q := ⟨j 0, j 1, eq_ix2 j⟩
  obtain ⟨-, -, -, -, -, -, -, -, -, h0, h1⟩ := block_index t
  have ht : t.val < 100 := lt_of_lt_of_eq t.isLt Gen.N_1
  have hemb : ((cfg1.win 9).blk t).view.emb (ix2 p q) = (ix2 (⟨t.val * 3200 + p.val, by omega⟩ : Fin 320000) q : S320000x128.Idx) := by
    funext a
    apply Fin.ext
    match a with
    | ⟨0, _⟩ => show win1_9.index t (0 : Fin 2) * 3200 + 1 * p.val = t.val * 3200 + p.val; rw [h0]; omega
    | ⟨1, _⟩ => show win1_9.index t (1 : Fin 2) * 128 + 1 * q.val = q.val; rw [h1]; omega
  rw [View.read_apply, hemb, Spec.ofAt_ix2]
  exact out_block V c t p q _ rfl

/-- An index of the array is in point `t`'s block of window 9 iff each coordinate is in the block's range on its axis. -/
theorem mem_out_block (t : Fin cfg1.N) (i : S320000x128.Idx) :
    i ∈ ((cfg1.win 9).blk t).view.set ↔ ∀ a : Fin 2, win1_9.index t a * S3200x128.size a ≤ (i a).val
      ∧ (i a).val < win1_9.index t a * S3200x128.size a + S3200x128.size a := by
  show i ∈ ((View.whole main_v31_2).slice (win1_9.rect t)).set ↔ _
  rw [View.set_slice_whole, Rect.mem_set_unit]
  exact Iff.rfl

/-- Row `r` of the array is written back by point `r / 3200`. -/
theorem out_cover (i : S320000x128.Idx) :
    ∃ t : Fin cfg1.N, (cfg1.win 9).flush t = true ∧ i ∈ ((cfg1.win 9).blk t).view.set := by
  have hi0 : (i 0).val < 320000 := (i 0).isLt
  have hi1 : (i 1).val < 128 := (i 1).isLt
  obtain ⟨t, ht⟩ : ∃ t : Fin cfg1.N, t.val = (i 0).val / 3200 :=
    ⟨⟨(i 0).val / 3200, lt_of_lt_of_eq (show (i 0).val / 3200 < 100 by omega) Gen.N_1.symm⟩, rfl⟩
  obtain ⟨-, -, -, -, -, -, -, -, -, h0, h1⟩ := block_index t
  refine ⟨t, Gen.flush1_9 t, ?_⟩
  rw [mem_out_block]
  intro a
  match a with
  | ⟨0, _⟩ =>
    show win1_9.index t (0 : Fin 2) * 3200 ≤ (i 0).val ∧ (i 0).val < win1_9.index t (0 : Fin 2) * 3200 + 3200
    rw [h0, ht]; omega
  | ⟨1, _⟩ =>
    show win1_9.index t (1 : Fin 2) * 128 ≤ (i 1).val ∧ (i 1).val < win1_9.index t (1 : Fin 2) * 128 + 128
    rw [h1]; omega

/-- After the run window 9's array holds, at every (row, column), the specification's edge output. -/
theorem final9 (c : Dev nD) : (Gen.dat1 (F := Ideal) V c).arrAt 9 cfg1.N
    = Spec.ofAt (Spec.edgeOutAt (V c main_v20) (V c main_arg1) (V c main_arg11) (V c main_v28) (V c main_v29) (V c main_v30)) :=
  (Gen.dat1 (F := Ideal) V c).arrAt_eq_of_cover 9 _ (fun t _ => out_flushed V c t) out_cover

end Cert.KernelIdeal.Region1

end
-- ==== Proof.RefNorm.lean ====
/-
  The reference's two outputs as layer normalisation read row by row.

  Each output is the input entry plus z · logistic z, where z is the layer normalisation of the row's
  pre-normalisation values: the row's sum divided by the word of 128 is its mean, the sum of the squared deviations
  divided by the same word is its variance, and the entry is the deviation times the reciprocal square root of the
  variance plus epsilon, scaled by a gain row and shifted by a bias row.  The reference computes the logistic as
  1 / (1 + e^(-z)), which is the logistic of the extended reals by definition.
-/
import proofs.«130515_j52106543235177_2_alg».proof.Proof.Spec
import proofs.«130515_j52106543235177_2_alg».proof.Proof.Gen.ReferenceIdeal.Read
import Idealize.ShloMosaic.Lib.ValueIdx
import Idealize.ShloMosaic.Lib.IdealHost
import Idealize.ShloMosaic.PureOps.Ideal.Laws

set_option maxRecDepth 16384

noncomputable section

open scoped BigOperators

namespace Cert.ReferenceIdeal.RefNorm

open Idealize.ShloMosaic Idealize.ShloMosaic.TcCoe Idealize.ShloMosaic.ValueIdx
open Cert.ReferenceIdeal Cert.ReferenceIdeal.Gen Cert.ReferenceIdeal.Read

variable (x0 : (⟨S10000x128, .f32⟩ : BufTy).Contents (Elt Ideal)) (x1 : (⟨S320000x128, .f32⟩ : BufTy).Contents (Elt Ideal)) (x2 : (⟨S10000x128, .f32⟩ : BufTy).Contents (Elt Ideal)) (x3 : (⟨S320000, .i32⟩ : BufTy).Contents (Elt Ideal)) (x4 : (⟨S320000, .i32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S128, .f32⟩ : BufTy).Contents (Elt Ideal))

/-! ## The node output -/

/-- The sum of row r of the node pre-normalisation array. -/
theorem node_sum (r : Fin 10000) :
    val_main_v65 (F := Ideal) x0 x1 x2 x3 x4 x5 x6 x7 x8 x9 x10 x11 x12 x13 x14 x15 x16 (ix1 r) = ∑ k : Fin 128, val_main_v64 (F := Ideal) x0 x1 x2 x3 x4 x5 x6 x7 x8 x9 x10 x11 x12 x13 x14 x15 x16 (ix2 r k) := by
  rw [val_main_v65_apply, val_main_cst_9_apply, Ideal.ofBits_def, Ideal.ofBits_zero_f32, zero_add]
  exact Finset.sum_congr rfl fun k _ => congrArg _ (funext fun a => by match a with | ⟨0, _⟩ => rfl | ⟨1, _⟩ => rfl)

/-- Its mean. -/
theorem node_mean (r : Fin 10000) :
    val_main_v68 (F := Ideal) x0 x1 x2 x3 x4 x5 x6 x7 x8 x9 x10 x11 x12 x13 x14 x15 x16 (ix2 r (0 : Fin 1)) = Spec.mean (fun k => val_main_v64 (F := Ideal) x0 x1 x2 x3 x4 x5 x6 x7 x8 x9 x10 x11 x12 x13 x14 x15 x16 (ix2 r k)) := by
  rw [val_main_v68_apply, val_main_v66_apply, val_main_v67_apply, val_main_cst_10_apply,
    show idx_main_v66 (ix2 r (0 : Fin 1)) = ix1 r from funext fun a => by match a with | ⟨0, _⟩ => rfl,
    node_sum]
  rfl

/-- The deviation of an entry from its row's mean. -/
theorem node_dev (r : Fin 10000) (k : Fin 128) :
    val_main_v70 (F := Ideal) x0 x1 x2 x3 x4 x5 x6 x7 x8 x9 x10 x11 x12 x13 x14 x15 x16 (ix2 r k) = val_main_v64 (F := Ideal) x0 x1 x2 x3 x4 x5 x6 x7 x8 x9 x10 x11 x12 x13 x14 x15 x16 (ix2 r k) - Spec.mean (fun k => val_main_v64 (F := Ideal) x0 x1 x2 x3 x4 x5 x6 x7 x8 x9 x10 x11 x12 x13 x14 x15 x16 (ix2 r k)) := by
  rw [val_main_v70_apply, val_main_v69_apply,
    show idx_main_v69 (ix2 r k) = ix2 r (0 : Fin 1) from funext fun a => by match a with | ⟨0, _⟩ => rfl | ⟨1, _⟩ => rfl,
    node_mean]
  rfl

/-- The sum of the squared deviations of row r. -/
theorem node_sqsum (r : Fin 10000) :
    val_main_v72 (F := Ideal) x0 x1 x2 x3 x4 x5 x6 x7 x8 x9 x10 x11 x12 x13 x14 x15 x16 (ix1 r)
      = ∑ k : Fin 128, (val_main_v64 (F := Ideal) x0 x1 x2 x3 x4 x5 x6 x7 x8 x9 x10 x11 x12 x13 x14 x15 x16 (ix2 r k) - Spec.mean (fun k => val_main_v64 (F := Ideal) x0 x1 x2 x3 x4 x5 x6 x7 x8 x9 x10 x11 x12 x13 x14 x15 x16 (ix2 r k))) * (val_main_v64 (F := Ideal) x0 x1 x2 x3 x4 x5 x6 x7 x8 x9 x10 x11 x12 x13 x14 x15 x16 (ix2 r k) - Spec.mean (fun k => val_main_v64 (F := Ideal) x0 x1 x2 x3 x4 x5 x6 x7 x8 x9 x10 x11 x12 x13 x14 x15 x16 (ix2 r k))) := by
  rw [val_main_v72_apply, val_main_cst_11_apply, Ideal.ofBits_def, Ideal.ofBits_zero_f32, zero_add]
  refine Finset.sum_congr rfl fun k _ => ?_
  rw [show idx_main_v72 (ix1 r) k = ix2 r k from funext fun a => by match a with | ⟨0, _⟩ => rfl | ⟨1, _⟩ => rfl,
    val_main_v71_apply, node_dev]
  rfl

/-- Its variance. -/
theorem node_var (r : Fin 10000) :
    val_main_v75 (F := Ideal) x0 x1 x2 x3 x4 x5 x6 x7 x8 x9 x10 x11 x12 x13 x14 x15 x16 (ix2 r (0 : Fin 1)) = Spec.var (fun k => val_main_v64 (F := Ideal) x0 x1 x2 x3 x4 x5 x6 x7 x8 x9 x10 x11 x12 x13 x14 x15 x16 (ix2 r k)) := by
  rw [val_main_v75_apply, val_main_v73_apply, val_main_v74_apply, val_main_cst_12_apply,
    show idx_main_v73 (ix2 r (0 : Fin 1)) = ix1 r from funext fun a => by match a with | ⟨0, _⟩ => rfl,
    node_sqsum]
  rfl

/-- The normalised, scaled and shifted entry. -/
theorem node_ln (r : Fin 10000) (q : Fin 128) :
    val_main_v88 (F := Ideal) x0 x1 x2 x3 x4 x5 x6 x7 x8 x9 x10 x11 x12 x13 x14 x15 x16 x19 x20 (ix2 r q) = Spec.lnAt (fun k => val_main_v64 (F := Ideal) x0 x1 x2 x3 x4 x5 x6 x7 x8 x9 x10 x11 x12 x13 x14 x15 x16 (ix2 r k)) (Spec.rowOf x19) (Spec.rowOf x20) q := by
  rw [val_main_v88_apply, val_main_v85_apply, val_main_v82_apply, val_main_v77_apply, val_main_v76_apply,
    val_main_v81_apply, val_main_v80_apply, val_main_v79_apply, val_main_v78_apply, val_main_cst_13_apply,
    val_main_v84_apply, val_main_v83_apply, val_main_v87_apply, val_main_v86_apply,
    show idx_main_v76 (ix2 r q) = ix2 r (0 : Fin 1) from funext fun a => by match a with | ⟨0, _⟩ => rfl | ⟨1, _⟩ => rfl,
    show idx_main_v81 (ix2 r q) = ix2 r (0 : Fin 1) from funext fun a => by match a with | ⟨0, _⟩ => rfl | ⟨1, _⟩ => rfl,
    show idx_main_v83 (idx_main_v84 (ix2 r q)) = ix1 q from funext fun a => by match a with | ⟨0, _⟩ => rfl,
    show idx_main_v86 (idx_main_v87 (ix2 r q)) = ix1 q from funext fun a => by match a with | ⟨0, _⟩ => rfl,
    node_mean, node_var]
  unfold Spec.lnAt Spec.rowOf Spec.cEps
  rfl

/-- The node output: the input entry plus z · logistic z of the normalised entry. -/
theorem nodeOut : val_main_v115 (F := Ideal) x0 x1 x2 x3 x4 x5 x6 x7 x8 x9 x10 x11 x12 x13 x14 x15 x16 x19 x20
    = Spec.ofAt (fun r q => x0 (ix2 r q) + Spec.siluAt (Spec.lnAt (fun k => val_main_v64 (F := Ideal) x0 x1 x2 x3 x4 x5 x6 x7 x8 x9 x10 x11 x12 x13 x14 x15 x16 (ix2 r k)) (Spec.rowOf x19) (Spec.rowOf x20) q)) := by
  funext i
  obtain ⟨r, q, rfl⟩ : ∃ (r : Fin 10000) (q : Fin 128), i = ix2 r q := ⟨i 0, i 1, eq_ix2 i⟩
  rw [Spec.ofAt_ix2, val_main_v115_apply, val_main_v89_apply, val_main_call0_v5_apply, val_main_call0_v4_apply,
    val_main_call0_cst_0_apply, val_main_call0_v3_apply, val_main_call0_v2_apply, val_main_call0_cst_apply,
    val_main_call0_v1_apply, val_main_call0_v0_apply, node_ln, Ideal.ofBits_def, Ideal.ofBits_one_f32]
  unfold Spec.siluAt Ideal.logistic
  rfl

/-! ## The edge output -/

/-- The sum of row r of the edge pre-normalisation array. -/
theorem edge_sum (r : Fin 320000) :
    val_main_v90 (F := Ideal) x0 x1 x2 x3 x4 x5 x6 x7 x8 x9 x10 x11 x12 (ix1 r) = ∑ k : Fin 128, val_main_v32 (F := Ideal) x0 x1 x2 x3 x4 x5 x6 x7 x8 x9 x10 x11 x12 (ix2 r k) := by
  rw [val_main_v90_apply, val_main_cst_14_apply, Ideal.ofBits_def, Ideal.ofBits_zero_f32, zero_add]
  exact Finset.sum_congr rfl fun k _ => congrArg _ (funext fun a => by match a with | ⟨0, _⟩ => rfl | ⟨1, _⟩ => rfl)

/-- Its mean. -/
theorem edge_mean (r : Fin 320000) :
    val_main_v93 (F := Ideal) x0 x1 x2 x3 x4 x5 x6 x7 x8 x9 x10 x11 x12 (ix2 r (0 : Fin 1)) = Spec.mean (fun k => val_main_v32 (F := Ideal) x0 x1 x2 x3 x4 x5 x6 x7 x8 x9 x10 x11 x12 (ix2 r k)) := by
  rw [val_main_v93_apply, val_main_v91_apply, val_main_v92_apply, val_main_cst_15_apply,
    show idx_main_v91 (ix2 r (0 : Fin 1)) = ix1 r from funext fun a => by match a with | ⟨0, _⟩ => rfl,
    edge_sum]
  rfl

/-- The deviation of an entry from its row's mean. -/
theorem edge_dev (r : Fin 320000) (k : Fin 128) :
    val_main_v95 (F := Ideal) x0 x1 x2 x3 x4 x5 x6 x7 x8 x9 x10 x11 x12 (ix2 r k) = val_main_v32 (F := Ideal) x0 x1 x2 x3 x4 x5 x6 x7 x8 x9 x10 x11 x12 (ix2 r k) - Spec.mean (fun k => val_main_v32 (F := Ideal) x0 x1 x2 x3 x4 x5 x6 x7 x8 x9 x10 x11 x12 (ix2 r k)) := by
  rw [val_main_v95_apply, val_main_v94_apply,
    show idx_main_v94 (ix2 r k) = ix2 r (0 : Fin 1) from funext fun a => by match a with | ⟨0, _⟩ => rfl | ⟨1, _⟩ => rfl,
    edge_mean]
  rfl

/-- The sum of the squared deviations of row r. -/
theorem edge_sqsum (r : Fin 320000) :
    val_main_v97 (F := Ideal) x0 x1 x2 x3 x4 x5 x6 x7 x8 x9 x10 x11 x12 (ix1 r)
      = ∑ k : Fin 128, (val_main_v32 (F := Ideal) x0 x1 x2 x3 x4 x5 x6 x7 x8 x9 x10 x11 x12 (ix2 r k) - Spec.mean (fun k => val_main_v32 (F := Ideal) x0 x1 x2 x3 x4 x5 x6 x7 x8 x9 x10 x11 x12 (ix2 r k))) * (val_main_v32 (F := Ideal) x0 x1 x2 x3 x4 x5 x6 x7 x8 x9 x10 x11 x12 (ix2 r k) - Spec.mean (fun k => val_main_v32 (F := Ideal) x0 x1 x2 x3 x4 x5 x6 x7 x8 x9 x10 x11 x12 (ix2 r k))) := by
  rw [val_main_v97_apply, val_main_cst_16_apply, Ideal.ofBits_def, Ideal.ofBits_zero_f32, zero_add]
  refine Finset.sum_congr rfl fun k _ => ?_
  rw [show idx_main_v97 (ix1 r) k = ix2 r k from funext fun a => by match a with | ⟨0, _⟩ => rfl | ⟨1, _⟩ => rfl,
    val_main_v96_apply, edge_dev]
  rfl

/-- Its variance. -/
theorem edge_var (r : Fin 320000) :
    val_main_v100 (F := Ideal) x0 x1 x2 x3 x4 x5 x6 x7 x8 x9 x10 x11 x12 (ix2 r (0 : Fin 1)) = Spec.var (fun k => val_main_v32 (F := Ideal) x0 x1 x2 x3 x4 x5 x6 x7 x8 x9 x10 x11 x12 (ix2 r k)) := by
  rw [val_main_v100_apply, val_main_v98_apply, val_main_v99_apply, val_main_cst_17_apply,
    show idx_main_v98 (ix2 r (0 : Fin 1)) = ix1 r from funext fun a => by match a with | ⟨0, _⟩ => rfl,
    edge_sqsum]
  rfl

/-- The normalised, scaled and shifted entry. -/
theorem edge_ln (r : Fin 320000) (q : Fin 128) :
    val_main_v113 (F := Ideal) x0 x1 x2 x3 x4 x5 x6 x7 x8 x9 x10 x11 x12 x17 x18 (ix2 r q) = Spec.lnAt (fun k => val_main_v32 (F := Ideal) x0 x1 x2 x3 x4 x5 x6 x7 x8 x9 x10 x11 x12 (ix2 r k)) (Spec.rowOf x17) (Spec.rowOf x18) q := by
  rw [val_main_v113_apply, val_main_v110_apply, val_main_v107_apply, val_main_v102_apply, val_main_v101_apply,
    val_main_v106_apply, val_main_v105_apply, val_main_v104_apply, val_main_v103_apply, val_main_cst_18_apply,
    val_main_v109_apply, val_main_v108_apply, val_main_v112_apply, val_main_v111_apply,
    show idx_main_v101 (ix2 r q) = ix2 r (0 : Fin 1) from funext fun a => by match a with | ⟨0, _⟩ => rfl | ⟨1, _⟩ => rfl,
    show idx_main_v106 (ix2 r q) = ix2 r (0 : Fin 1) from funext fun a => by match a with | ⟨0, _⟩ => rfl | ⟨1, _⟩ => rfl,
    show idx_main_v108 (idx_main_v109 (ix2 r q)) = ix1 q from funext fun a => by match a with | ⟨0, _⟩ => rfl,
    show idx_main_v111 (idx_main_v112 (ix2 r q)) = ix1 q from funext fun a => by match a with | ⟨0, _⟩ => rfl,
    edge_mean, edge_var]
  unfold Spec.lnAt Spec.rowOf Spec.cEps
  rfl

/-- The edge output: the input entry plus z · logistic z of the normalised entry. -/
theorem edgeOut : val_main_v116 (F := Ideal) x0 x1 x2 x3 x4 x5 x6 x7 x8 x9 x10 x11 x12 x17 x18
    = Spec.ofAt (fun r q => x1 (ix2 r q) + Spec.siluAt (Spec.lnAt (fun k => val_main_v32 (F := Ideal) x0 x1 x2 x3 x4 x5 x6 x7 x8 x9 x10 x11 x12 (ix2 r k)) (Spec.rowOf x17) (Spec.rowOf x18) q)) := by
  funext i
  obtain ⟨r, q, rfl⟩ : ∃ (r : Fin 320000) (q : Fin 128), i = ix2 r q := ⟨i 0, i 1, eq_ix2 i⟩
  rw [Spec.ofAt_ix2, val_main_v116_apply, val_main_v114_apply, val_main_call1_v5_apply, val_main_call1_v4_apply,
    val_main_call1_cst_0_apply, val_main_call1_v3_apply, val_main_call1_v2_apply, val_main_call1_cst_apply,
    val_main_call1_v1_apply, val_main_call1_v0_apply, edge_ln, Ideal.ofBits_def, Ideal.ofBits_one_f32]
  unfold Spec.siluAt Ideal.logistic
  rfl

end Cert.ReferenceIdeal.RefNorm

end
-- ==== Proof.RunValues.lean ====
/-
  The kernel program's run with its two results named.

  Every weakly fair execution of the three-region program from a memory `m` terminates without a fault, the argument
  arrays unchanged, and each returned buffer holds what the fold of the program's segments leaves there: the node
  output is the third region's output array after its last write-back, the edge output the second region's third
  output array, which nothing later writes. The statement is the generated frame's, with the two result buffers read
  off the same final valuation.
-/
import proofs.«130515_j52106543235177_2_alg».proof.Proof.Gen.KernelIdeal.Frame

set_option maxRecDepth 16384

noncomputable section

namespace Cert.KernelIdeal.RunValues

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results at the final valuation `W6`, the arguments as launched. -/
theorem run : θ_run defs (onTc (τ := τ) (main (F := F))) ⟨m, fun _ => 0, ρ⟩ (fun r => ∀ c : Dev nD,
      r.2.mem ((c.tc : Thread nD τ).loc main_v42) = W6 m ρ c (Proc.devRef .tc main_v42)
      ∧ r.2.mem ((c.tc : Thread nD τ).loc main_v31_2) = W6 m ρ c (Proc.devRef .tc main_v31_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v42 (by decide)),
       h c _ (mem_uc main_v31_2 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c)⟩)

end Cert.KernelIdeal.RunValues

end
-- ==== Proof.Region2.lean ====
/-
  The third region: the node update.

  A block of 2000 node rows is updated row by row: the projected row plus the gated mean of the messages, layer
  normalisation of that row, `z · logistic z`, and the residual. The body's one stored value, read at row `p` and
  column `q`, is `Spec.nodeOutAt` of the blocks; block `t` holds rows `2000·t … 2000·t + 1999` of each row-indexed array
  and the two one-row windows hold their whole arrays; the five blocks tile the 10000 rows. So the output array is
  `Spec.nodeOutAt` of the arrays the region finds, at every index.
-/
import proofs.«130515_j52106543235177_2_alg».proof.Proof.Spec
import proofs.«130515_j52106543235177_2_alg».proof.Proof.LibRows
import proofs.«130515_j52106543235177_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Idealize.ShloMosaic Idealize.ShloMosaic.TcCoe Idealize.SL.Sem Idealize.ShloMosaic.ValueIdx
open Cert.KernelIdeal Cert.KernelIdeal.Gen

/-! ## The body's operations at an index -/

theorem rowSum_at (x : FVec Ideal S2000x128 .f32) (hφ : FKind.Formats .f32)
    (hacc : (0x00000000#32 : BitVec 32) = FKind.add.neutral .f32 hφ) (p : Fin 2000) :
    multiReduction .add [1] S2000 x 0x00000000#32 reduces_S2000x128_S2000 hφ hacc (ix1 p) = ∑ k : Fin 128, x (ix2 p k) :=
  Cert.LibRows.rowSum_apply x _ _ hφ hacc p

theorem column_at (u : FVec Ideal S2000 .f32) (p : Fin 2000) :
    shapeCast S2000x1 u shapeCasts_S2000_S2000x1 (ix2 p (0 : Fin 1)) = u (ix1 p) :=
  Cert.LibRows.shapeCast_a_a1_apply u _ p 0

theorem spread_at (w : FVec Ideal S2000x1 .f32) (p : Fin 2000) (q : Fin 128) :
    broadcastTo S2000x128 w broadcasts_S2000x1_S2000x128 (ix2 p q) = w (ix2 p (0 : Fin 1)) :=
  Cert.LibRows.broadcastTo_a1_ab_apply w _ p q

theorem rowOver_at (g : FVec Ideal S1x128 .f32) (p : Fin 2000) (q : Fin 128) :
    broadcastTo S2000x128 g broadcasts_S1x128_S2000x128 (ix2 p q) = g (ix2 (0 : Fin 1) q) :=
  broadcastTo_1b_ab_apply g _ p q

theorem rsqrt_at {s : Shape} (x : FVec Ideal s .f32) (i : s.Idx) : rsqrt x i = Ideal.rsqrt (x i) := rfl

theorem logistic_at {s : Shape} (x : FVec Ideal s .f32) (i : s.Idx) : logistic x i = Ideal.logistic (x i) := rfl

/-- Layer normalisation of a block, as the body computes it, at row `p` and column `q`: the row's mean and variance
    are lane sums made columns and divided by the word of 128. -/
theorem layerNorm_at (x : FVec Ideal S2000x128 .f32) (g b : FVec Ideal S1x128 .f32) (hφ : FKind.Formats .f32)
    (hacc : (0x00000000#32 : BitVec 32) = FKind.add.neutral .f32 hφ) (p : Fin 2000) (q : Fin 128) :
    let c128 : FVec Ideal S2000x1 .f32 := broadcast S2000x1 (Scalar.ofBits (F := Ideal) .f32 0x43000000#32)
    let mu : FVec Ideal S2000x1 .f32 := divf (shapeCast S2000x1 (multiReduction .add [1] S2000 x 0x00000000#32 reduces_S2000x128_S2000 hφ hacc) shapeCasts_S2000_S2000x1) c128
    let d : FVec Ideal S2000x128 .f32 := subf x (broadcastTo S2000x128 mu broadcasts_S2000x1_S2000x128)
    let v : FVec Ideal S2000x1 .f32 := divf (shapeCast S2000x1 (multiReduction .add [1] S2000 (mulf d d) 0x00000000#32 reduces_S2000x128_S2000 hφ hacc) shapeCasts_S2000_S2000x1) c128
    (addf (mulf (mulf d (broadcastTo S2000x128 (rsqrt (addf v (broadcast S2000x1 (Scalar.ofBits (F := Ideal) .f32 0x3727C5AC#32)))) broadcasts_S2000x1_S2000x128))
        (broadcastTo S2000x128 g broadcasts_S1x128_S2000x128)) (broadcastTo S2000x128 b broadcasts_S1x128_S2000x128)) (ix2 p q)
      = Spec.lnAt (fun k => x (ix2 p k)) g b q := by
  intro c128 mu d v
  have hmu : mu (ix2 p (0 : Fin 1)) = Spec.mean fun k => x (ix2 p k) :=
    (divf_apply _ _ _).trans (congrArg₂ Ideal.div ((column_at _ p).trans (rowSum_at x hφ hacc p)) rfl)
  have hd : ∀ k : Fin 128, d (ix2 p k) = x (ix2 p k) - Spec.mean fun k => x (ix2 p k) := fun k =>
    (subf_apply _ _ _).trans (congrArg (fun u : EReal => x (ix2 p k) - u) ((spread_at mu p k).trans hmu))
  have hv : v (ix2 p (0 : Fin 1)) = Spec.var fun k => x (ix2 p k) := by
    refine (divf_apply _ _ _).trans (congrArg₂ Ideal.div ((column_at _ p).trans ((rowSum_at (mulf d d) hφ hacc p).trans ?_)) rfl)
    exact Finset.sum_congr rfl fun k _ => (mulf_apply d d _).trans (by rw [hd k])
  refine (addf_apply _ _ _).trans ?_
  rw [rowOver_at b p q]
  refine congrArg (fun u : EReal => u + b (ix2 (0 : Fin 1) q)) ?_
  refine (mulf_apply _ _ _).trans ?_
  rw [rowOver_at g p q]
  refine congrArg (fun u : EReal => u * g (ix2 (0 : Fin 1) q)) ?_
  refine (mulf_apply _ _ _).trans ?_
  rw [hd q, spread_at _ p q]
  refine congrArg (fun u : EReal => (x (ix2 p q) - Spec.mean fun k => x (ix2 p k)) * u) ?_
  refine (rsqrt_at _ _).trans (congrArg Ideal.rsqrt ?_)
  refine (addf_apply _ _ _).trans ?_
  rw [hv]
  rfl

/-- The body's stored value at row `p`, column `q` of the block. -/
theorem payload_at (ssh ss xsu : Vec Ideal S2000x128 .f32) (g b : Vec Ideal S1x128 .f32) (node : Vec Ideal S2000x128 .f32)
    (p : Fin 2000) (q : Fin 128) :
    k2_pay1 ssh ss xsu g b node (ix2 p q) = Spec.nodeOutAt node xsu ssh ss g b p q := by
  unfold k2_pay1
  simp only [shapeCast_self]
  have hpre : ∀ k : Fin 128,
      (addf xsu (divf ssh (addf ss (broadcast S2000x128 (Scalar.ofBits (F := Ideal) .f32 0x358637BD#32))))) (ix2 p k)
        = Spec.nodePreAt xsu ssh ss p k := fun k => rfl
  generalize (addf xsu (divf ssh (addf ss (broadcast S2000x128 (Scalar.ofBits (F := Ideal) .f32 0x358637BD#32))))) = x at hpre ⊢
  refine (addf_apply _ _ _).trans ?_
  unfold Spec.nodeOutAt Spec.siluAt
  refine congrArg (fun u : EReal => node (ix2 p q) + u) ?_
  refine (mulf_apply _ _ _).trans ?_
  rw [show (fun k => Spec.nodePreAt xsu ssh ss p k) = fun k => x (ix2 p k) from funext fun k => (hpre k).symm]
  exact congrArg₂ (fun u w : EReal => u * Ideal.logistic w) (layerNorm_at x g b _ _ p q) (layerNorm_at x g b _ _ p q)

/-! ## From blocks to the array -/

variable (V : (c : Dev nD) → (b : Ref sig .tc) → Buf (Elt Ideal) ((c : Thread nD τ).loc b))

theorem zeroOffsets : (![0, 0] : Fin 2 → Nat) = fun _ => 0 := funext fun a => by fin_cases a <;> rfl

/-- The index maps over the grid: the four row-indexed inputs move with the output's row block and sit at column block
    0; the two one-row windows stay at block (0, 0); the output's row block is at most 4. -/
theorem blockIdx : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = win2_6.index t (0 : Fin 2) ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) ≤ 4 ∧ win2_6.index t (1 : Fin 2) = 0 :=
  (by decide +kernel : ∀ t : Fin grid2.N, _)

/-- Every row block is some point's. -/
theorem blockOnto : ∀ (q0 : Fin 5), ∃ t : Fin cfg2.N, win2_6.index t = ![q0.val, 0] :=
  (by decide +kernel : ∀ (q0 : Fin 5), ∃ t : Fin grid2.N, win2_6.index t = ![q0.val, 0])

/-! A row-indexed input's block at a point holds the array's rows 2000·(row block) onwards; a one-row window's block
    is its whole array. -/

theorem rowBlock0 (c : Dev nD) (t : Fin cfg2.N) (p : Fin 2000) (k : Fin 128) (r' : Fin 10000)
    (hr : r'.val = win2_6.index t (0 : Fin 2) * 2000 + p.val) :
    (iblk2 (F := Ideal) V c 0 t : Vec Ideal S2000x128 .f32) (ix2 p k) = (V c main_arg0 : Spec.Mat 10000) (ix2 r' k) := by
  obtain ⟨e00, e01, e10, e11, e20, e21, e30, e31, -, -, -, -, -, -⟩ := blockIdx t
  show (V c main_arg0 : Spec.Mat 10000) (((cfg2.win 0).blk t).view.emb (ix2 p k)) = _
  refine congrArg (V c main_arg0 : Spec.Mat 10000) (funext fun a => Fin.ext ?_)
  match a with
  | ⟨0, _⟩ => show win2_0.index t (0 : Fin 2) * 2000 + 1 * p.val = r'.val; omega
  | ⟨1, _⟩ => show win2_0.index t (1 : Fin 2) * 128 + 1 * k.val = k.val; omega

theorem rowBlock1 (c : Dev nD) (t : Fin cfg2.N) (p : Fin 2000) (k : Fin 128) (r' : Fin 10000)
    (hr : r'.val = win2_6.index t (0 : Fin 2) * 2000 + p.val) :
    (iblk2 (F := Ideal) V c 1 t : Vec Ideal S2000x128 .f32) (ix2 p k) = (V c main_v5_3 : Spec.Mat 10000) (ix2 r' k) := by
  obtain ⟨e00, e01, e10, e11, e20, e21, e30, e31, -, -, -, -, -, -⟩ := blockIdx t
  show (V c main_v5_3 : Spec.Mat 10000) (((cfg2.win 1).blk t).view.emb (ix2 p k)) = _
  refine congrArg (V c main_v5_3 : Spec.Mat 10000) (funext fun a => Fin.ext ?_)
  match a with
  | ⟨0, _⟩ => show win2_1.index t (0 : Fin 2) * 2000 + 1 * p.val = r'.val; omega
  | ⟨1, _⟩ => show win2_1.index t (1 : Fin 2) * 128 + 1 * k.val = k.val; omega

theorem rowBlock2 (c : Dev nD) (t : Fin cfg2.N) (p : Fin 2000) (k : Fin 128) (r' : Fin 10000)
    (hr : r'.val = win2_6.index t (0 : Fin 2) * 2000 + p.val) :
    (iblk2 (F := Ideal) V c 2 t : Vec Ideal S2000x128 .f32) (ix2 p k) = (V c main_v35 : Spec.Mat 10000) (ix2 r' k) := by
  obtain ⟨e00, e01, e10, e11, e20, e21, e30, e31, -, -, -, -, -, -⟩ := blockIdx t
  show (V c main_v35 : Spec.Mat 10000) (((cfg2.win 2).blk t).view.emb (ix2 p k)) = _
  refine congrArg (V c main_v35 : Spec.Mat 10000) (funext fun a => Fin.ext ?_)
  match a with
  | ⟨0, _⟩ => show win2_2.index t (0 : Fin 2) * 2000 + 1 * p.val = r'.val; omega
  | ⟨1, _⟩ => show win2_2.index t (1 : Fin 2) * 128 + 1 * k.val = k.val; omega

theorem rowBlock3 (c : Dev nD) (t : Fin cfg2.N) (p : Fin 2000) (k : Fin 128) (r' : Fin 10000)
    (hr : r'.val = win2_6.index t (0 : Fin 2) * 2000 + p.val) :
    (iblk2 (F := Ideal) V c 3 t : Vec Ideal S2000x128 .f32) (ix2 p k) = (V c main_v39 : Spec.Mat 10000) (ix2 r' k) := by
  obtain ⟨e00, e01, e10, e11, e20, e21, e30, e31, -, -, -, -, -, -⟩ := blockIdx t
  show (V c main_v39 : Spec.Mat 10000) (((cfg2.win 3).blk t).view.emb (ix2 p k)) = _
  refine congrArg (V c main_v39 : Spec.Mat 10000) (funext fun a => Fin.ext ?_)
  match a with
  | ⟨0, _⟩ => show win2_3.index t (0 : Fin 2) * 2000 + 1 * p.val = r'.val; omega
  | ⟨1, _⟩ => show win2_3.index t (1 : Fin 2) * 128 + 1 * k.val = k.val; omega

theorem wholeBlock4 (c : Dev nD) (t : Fin cfg2.N) :
    (iblk2 (F := Ideal) V c 4 t : Vec Ideal S1x128 .f32) = (V c main_v40 : Spec.Mat 1) := by
  obtain ⟨-, -, -, -, -, -, -, -, e40, e41, e50, e51, -, -⟩ := blockIdx t
  funext y
  show (V c main_v40 : Spec.Mat 1) (((cfg2.win 4).blk t).view.emb y) = _
  refine congrArg (V c main_v40 : Spec.Mat 1) (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

theorem wholeBlock5 (c : Dev nD) (t : Fin cfg2.N) :
    (iblk2 (F := Ideal) V c 5 t : Vec Ideal S1x128 .f32) = (V c main_v41 : Spec.Mat 1) := by
  obtain ⟨-, -, -, -, -, -, -, -, e40, e41, e50, e51, -, -⟩ := blockIdx t
  funext y
  show (V c main_v41 : Spec.Mat 1) (((cfg2.win 5).blk t).view.emb y) = _
  refine congrArg (V c main_v41 : Spec.Mat 1) (funext fun a => Fin.ext ?_)
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- What a point writes back is its block of the whole-array function. -/
theorem flushed_eq (c : Dev nD) (t : Fin cfg2.N) :
    (dat2 (F := Ideal) V c).flushed 6 t = ((cfg2.win 6).blk t).view.read (Elt Ideal)
      (Spec.ofAt (Spec.nodeOutAt (V c main_arg0) (V c main_v5_3) (V c main_v35) (V c main_v39) (V c main_v40) (V c main_v41))) := by
  show (cfg2.win 6).cut (grid2.coords t) ((dat2 V c).after 6 t) = _
  rw [after2_6]
  unfold out2_6
  rw [View.canon_unit_zero zeroOffsets]
  simp only [View.ld_unit_zero (S := S2000x128) zeroOffsets, View.ld_unit_zero (S := S1x128) zeroOffsets]
  funext j
  obtain ⟨p, q, rfl⟩ : ∃ (p : Fin 2000) (q : Fin 128), j = ix2 p q := ⟨j 0, j 1, eq_ix2 j⟩
  obtain ⟨-, -, -, -, -, -, -, -, -, -, -, -, hle, h61⟩ := blockIdx t
  have hp := p.isLt
  show k2_pay1 (F := Ideal) (iblk2 V c 2 t) (iblk2 V c 3 t) (iblk2 V c 1 t) (iblk2 V c 4 t) (iblk2 V c 5 t) (iblk2 V c 0 t) (ix2 p q)
    = Spec.ofAt (Spec.nodeOutAt (V c main_arg0) (V c main_v5_3) (V c main_v35) (V c main_v39) (V c main_v40) (V c main_v41))
        (((cfg2.win 6).blk t).view.emb (ix2 p q))
  refine (payload_at (iblk2 V c 2 t) (iblk2 V c 3 t) (iblk2 V c 1 t) (iblk2 V c 4 t) (iblk2 V c 5 t) (iblk2 V c 0 t) p q).trans ?_
  rw [wholeBlock4 V c t, wholeBlock5 V c t]
  have hemb : ((cfg2.win 6).blk t).view.emb (ix2 p q)
      = ix2 (⟨win2_6.index t (0 : Fin 2) * 2000 + p.val, by omega⟩ : Fin 10000) q := by
    funext a; apply Fin.ext
    match a with
    | ⟨0, _⟩ => show win2_6.index t (0 : Fin 2) * 2000 + 1 * p.val = win2_6.index t (0 : Fin 2) * 2000 + p.val; omega
    | ⟨1, _⟩ => show win2_6.index t (1 : Fin 2) * 128 + 1 * q.val = q.val; omega
  rw [hemb, Spec.ofAt_ix2]
  exact Spec.nodeOutAt_rows _ _ (fun k => rowBlock0 V c t p k _ rfl) (fun k => rowBlock1 V c t p k _ rfl)
    (fun k => rowBlock2 V c t p k _ rfl) (fun k => rowBlock3 V c t p k _ rfl) q

/-- An index of the output array is in point `t`'s block iff each coordinate is in the block's range on its axis. -/
theorem mem_block (t : Fin cfg2.N) (i : S10000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v42).slice (win2_6.rect t)).set ↔ _
  rw [View.set_slice_whole, Rect.mem_set_unit]
  exact Iff.rfl

/-- The five row blocks tile the 10000 rows. -/
theorem covered (i : S10000x128.Idx) : ∃ t : Fin cfg2.N, (cfg2.win 6).flush t = true ∧ i ∈ ((cfg2.win 6).blk t).view.set := by
  have hi0 : (i 0).val < 10000 := (i 0).isLt
  have hi1 : (i 1).val < 128 := (i 1).isLt
  obtain ⟨t, ht⟩ := blockOnto ⟨(i 0).val / 2000, by omega⟩
  have q0 : win2_6.index t (0 : Fin 2) = (i 0).val / 2000 := congrFun ht 0
  have q1 : win2_6.index t (1 : Fin 2) = 0 := congrFun ht 1
  refine ⟨t, flush2_6 t, ?_⟩
  rw [mem_block]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- The node output array after the region: `Spec.nodeOutAt` of the arrays the region finds, at every index. -/
theorem final6 (c : Dev nD) : (dat2 (F := Ideal) V c).arrAt 6 cfg2.N
    = Spec.ofAt (Spec.nodeOutAt (V c main_arg0) (V c main_v5_3) (V c main_v35) (V c main_v39) (V c main_v40) (V c main_v41)) :=
  (dat2 V c).arrAt_eq_of_cover 6 _ (fun t _ => flushed_eq V c t) covered

end Cert.KernelIdeal.Region2

end
-- ==== Proof.RefSpec.lean ====
/-
  The reference program's stages as the row-wise functions of the specification.

  Each stage of the reference is read at an index (row `r`, column `q`) through the generated read-at-an-index lemmas:
  a matrix product is the sum over the contracted column, a bias is broadcast along the rows, the logistic is
  `1 / (1 + exp (-x))`, the mean and the variance of a row are its sum and its squared deviations' sum divided by 128.
  Gathers and scatter-adds are not opened: a later stage is stated over the earlier stage's whole array.
-/
import proofs.«130515_j52106543235177_2_alg».proof.Proof.Spec
import proofs.«130515_j52106543235177_2_alg».proof.Proof.Gen.ReferenceIdeal.Read
import Idealize.ShloMosaic.Lib.ValueIdx
import Idealize.ShloMosaic.PureOps.Ideal.Laws
import Idealize.ShloMosaic.Lib.IdealHost

set_option maxRecDepth 16384

noncomputable section

open scoped BigOperators

namespace Cert.ReferenceIdeal.RefSpec

open Idealize.ShloMosaic Idealize.ShloMosaic.TcCoe Idealize.ShloMosaic.ValueIdx
open Cert.ReferenceIdeal Cert.ReferenceIdeal.Gen Cert.ReferenceIdeal.Read

/-! ## The building blocks at an index -/

/-- A 10000×128 array against a 128×128 matrix. -/
theorem dotNode_at (x : (⟨S10000x128, .f32⟩ : BufTy).Contents (Elt Ideal)) (W : (⟨S128x128, .f32⟩ : BufTy).Contents (Elt Ideal))
    (r : Fin 10000) (q : Fin 128) : val_main_v0 (F := Ideal) x W (ix2 r q) = Spec.dotAt x W r q := by
  rw [val_main_v0_apply]
  unfold Spec.dotAt
  refine Finset.sum_congr rfl fun k _ => ?_
  rw [show lidx_main_v0 (ix2 r q) k = ix2 r k from funext fun a => by match a with | ⟨0, _⟩ => rfl | ⟨1, _⟩ => rfl,
    show ridx_main_v0 (ix2 r q) k = ix2 k q from funext fun a => by match a with | ⟨0, _⟩ => rfl | ⟨1, _⟩ => rfl]

/-- A 320000×128 array against a 128×128 matrix. -/
theorem dotEdge_at (x : (⟨S320000x128, .f32⟩ : BufTy).Contents (Elt Ideal)) (W : (⟨S128x128, .f32⟩ : BufTy).Contents (Elt Ideal))
    (r : Fin 320000) (q : Fin 128) : val_main_v28 (F := Ideal) x W (ix2 r q) = Spec.dotAt x W r q := by
  rw [val_main_v28_apply]
  unfold Spec.dotAt
  refine Finset.sum_congr rfl fun k _ => ?_
  rw [show lidx_main_v28 (ix2 r q) k = ix2 r k from funext fun a => by match a with | ⟨0, _⟩ => rfl | ⟨1, _⟩ => rfl,
    show ridx_main_v28 (ix2 r q) k = ix2 k q from funext fun a => by match a with | ⟨0, _⟩ => rfl | ⟨1, _⟩ => rfl]

/-- A bias vector broadcast along 10000 rows. -/
theorem biasNode_at (b : (⟨S128, .f32⟩ : BufTy).Contents (Elt Ideal)) (r : Fin 10000) (q : Fin 128) :
    val_main_v2 (F := Ideal) b (ix2 r q) = Spec.rowOf b (ix2 (0 : Fin 1) q) := by
  rw [val_main_v2_apply, val_main_v1_apply]
  exact congrArg b (funext fun a => by match a with | ⟨0, _⟩ => rfl)

/-- A bias vector broadcast along 320000 rows. -/
theorem biasEdge_at (b : (⟨S128, .f32⟩ : BufTy).Contents (Elt Ideal)) (r : Fin 320000) (q : Fin 128) :
    val_main_v31 (F := Ideal) b (ix2 r q) = Spec.rowOf b (ix2 (0 : Fin 1) q) := by
  rw [val_main_v31_apply, val_main_v30_apply]
  exact congrArg b (funext fun a => by match a with | ⟨0, _⟩ => rfl)

section Stages

variable (x0 : (⟨S10000x128, .f32⟩ : BufTy).Contents (Elt Ideal)) (x1 : (⟨S320000x128, .f32⟩ : BufTy).Contents (Elt Ideal)) (x2 : (⟨S10000x128, .f32⟩ : BufTy).Contents (Elt Ideal)) (x3 : (⟨S320000, .i32⟩ : BufTy).Contents (Elt Ideal)) (x4 : (⟨S320000, .i32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S128, .f32⟩ : BufTy).Contents (Elt Ideal))

/-! ## The node projections -/

theorem srcGate : val_main_v8 (F := Ideal) x0 x2 x5 x6 x7 x8 = Spec.ofAt (Spec.srcGateAt x0 x2 x7 (Spec.rowOf x8) x5 (Spec.rowOf x6)) := by
  funext i
  obtain ⟨r, q, rfl⟩ : ∃ (r : Fin 10000) (q : Fin 128), i = ix2 r q := ⟨i 0, i 1, eq_ix2 i⟩
  show ((val_main_v0 (F := Ideal) x0 x7 (ix2 r q) + val_main_v2 (F := Ideal) x8 (ix2 r q)) + val_main_v0 (F := Ideal) x2 x5 (ix2 r q))
      + val_main_v2 (F := Ideal) x6 (ix2 r q) = _
  rw [dotNode_at, dotNode_at, biasNode_at, biasNode_at]
  rfl

theorem dstGate : val_main_v12 (F := Ideal) x0 x9 x10 = Spec.ofAt (Spec.linAt x0 x9 (Spec.rowOf x10)) := by
  funext i
  obtain ⟨r, q, rfl⟩ : ∃ (r : Fin 10000) (q : Fin 128), i = ix2 r q := ⟨i 0, i 1, eq_ix2 i⟩
  show val_main_v0 (F := Ideal) x0 x9 (ix2 r q) + val_main_v2 (F := Ideal) x10 (ix2 r q) = _
  rw [dotNode_at, biasNode_at]
  rfl

theorem message : val_main_v42 (F := Ideal) x0 x15 x16 = Spec.ofAt (Spec.linAt x0 x15 (Spec.rowOf x16)) := by
  funext i
  obtain ⟨r, q, rfl⟩ : ∃ (r : Fin 10000) (q : Fin 128), i = ix2 r q := ⟨i 0, i 1, eq_ix2 i⟩
  show val_main_v0 (F := Ideal) x0 x15 (ix2 r q) + val_main_v2 (F := Ideal) x16 (ix2 r q) = _
  rw [dotNode_at, biasNode_at]
  rfl

theorem selfUpdate : val_main_v63 (F := Ideal) x0 x13 x14 = Spec.ofAt (Spec.linAt x0 x13 (Spec.rowOf x14)) := by
  funext i
  obtain ⟨r, q, rfl⟩ : ∃ (r : Fin 10000) (q : Fin 128), i = ix2 r q := ⟨i 0, i 1, eq_ix2 i⟩
  show val_main_v0 (F := Ideal) x0 x13 (ix2 r q) + val_main_v2 (F := Ideal) x14 (ix2 r q) = _
  rw [dotNode_at, biasNode_at]
  rfl

/-! ## The edge gate -/

theorem preActivation : val_main_v32 (F := Ideal) x0 x1 x2 x3 x4 x5 x6 x7 x8 x9 x10 x11 x12
    = Spec.ofAt (Spec.preAt (val_main_v27 (F := Ideal) x0 x2 x3 x4 x5 x6 x7 x8 x9 x10) x1 x11 (Spec.rowOf x12)) := by
  funext i
  obtain ⟨r, q, rfl⟩ : ∃ (r : Fin 320000) (q : Fin 128), i = ix2 r q := ⟨i 0, i 1, eq_ix2 i⟩
  show (val_main_v27 (F := Ideal) x0 x2 x3 x4 x5 x6 x7 x8 x9 x10 (ix2 r q) + val_main_v28 (F := Ideal) x1 x11 (ix2 r q)) + val_main_v31 (F := Ideal) x12 (ix2 r q) = _
  rw [dotEdge_at, biasEdge_at]
  rfl

theorem gate : val_main_v38 (F := Ideal) x0 x1 x2 x3 x4 x5 x6 x7 x8 x9 x10 x11 x12
    = Spec.ofAt (fun r q => Ideal.logistic (val_main_v32 (F := Ideal) x0 x1 x2 x3 x4 x5 x6 x7 x8 x9 x10 x11 x12 (ix2 r q))) := by
  funext i
  obtain ⟨r, q, rfl⟩ : ∃ (r : Fin 320000) (q : Fin 128), i = ix2 r q := ⟨i 0, i 1, eq_ix2 i⟩
  show Ideal.div (Ideal.ofBits .f32 0x3F800000#32) (Ideal.ofBits .f32 0x3F800000#32 + Ideal.exp (-(val_main_v32 (F := Ideal) x0 x1 x2 x3 x4 x5 x6 x7 x8 x9 x10 x11 x12 (ix2 r q)))) = _
  rw [Ideal.ofBits_one_f32]
  rfl

theorem gatedMessage : val_main_v50 (F := Ideal) x0 x1 x2 x3 x4 x5 x6 x7 x8 x9 x10 x11 x12 x15 x16
    = Spec.ofAt (fun r q => val_main_v49 (F := Ideal) x0 x3 x15 x16 (ix2 r q) * val_main_v38 (F := Ideal) x0 x1 x2 x3 x4 x5 x6 x7 x8 x9 x10 x11 x12 (ix2 r q)) := by
  funext i
  obtain ⟨r, q, rfl⟩ : ∃ (r : Fin 320000) (q : Fin 128), i = ix2 r q := ⟨i 0, i 1, eq_ix2 i⟩
  rfl

/-! ## The node update before normalisation -/

theorem nodePre : val_main_v64 (F := Ideal) x0 x1 x2 x3 x4 x5 x6 x7 x8 x9 x10 x11 x12 x13 x14 x15 x16
    = Spec.ofAt (Spec.nodePreAt (val_main_v63 (F := Ideal) x0 x13 x14) (val_main_v53 (F := Ideal) x0 x1 x2 x3 x4 x5 x6 x7 x8 x9 x10 x11 x12 x15 x16) (val_main_v56 (F := Ideal) x0 x1 x2 x3 x4 x5 x6 x7 x8 x9 x10 x11 x12)) := by
  funext i
  obtain ⟨r, q, rfl⟩ : ∃ (r : Fin 10000) (q : Fin 128), i = ix2 r q := ⟨i 0, i 1, eq_ix2 i⟩
  rw [Spec.ofAt_ix2, val_main_v64_apply, val_main_v59_apply, val_main_v58_apply, val_main_v57_apply, val_main_cst_8_apply]
  unfold Spec.nodePreAt Spec.cTiny
  rfl

end Stages

end Cert.ReferenceIdeal.RefSpec

end
-- ==== Proof.Bridge.lean ====
/-
  The two programs compute one function.

  Walking the kernel program's segments from the launch memory: the first region's four output arrays are the
  reference's four node projections; the gathered and added arrays the second region reads are the reference's gathered
  arrays, since equal tables are gathered at the same wrapped indices; the second region's three outputs are the
  reference's gate, gated message and edge output; the scatter-added arrays the third region reads are the reference's
  two segment sums, since equal edge arrays are summed into rows at the same indices; and the third region's output is the
  reference's node output. Each step joins a region's whole-array value (as the row-wise specification) with the
  reference's stage (as the same specification).
-/
import proofs.«130515_j52106543235177_2_alg».proof.Proof.Spec
import proofs.«130515_j52106543235177_2_alg».proof.Proof.Glue
import proofs.«130515_j52106543235177_2_alg».proof.Proof.Region0
import proofs.«130515_j52106543235177_2_alg».proof.Proof.Region1
import proofs.«130515_j52106543235177_2_alg».proof.Proof.RefNorm
import proofs.«130515_j52106543235177_2_alg».proof.Proof.RunValues
import proofs.«130515_j52106543235177_2_alg».proof.Defs
import proofs.«130515_j52106543235177_2_alg».proof.Proof.Gen.Pre_finite_inputs
import proofs.«130515_j52106543235177_2_alg».proof.Proof.Region2
import proofs.«130515_j52106543235177_2_alg».proof.Proof.RefSpec
import Idealize.ShloMosaic.Lib.ValueLayout

set_option maxRecDepth 16384

noncomputable section

namespace Cert.Bridge

open Idealize.ShloMosaic Idealize.ShloMosaic.TcCoe Idealize.SL.Sem Idealize.ShloMosaic.ValueIdx
open Cert.KernelIdeal Cert.KernelIdeal.Gen

/-- A bias vector reshaped to one row is that row. -/
theorem asRow_eq (b : (⟨S128, .f32⟩ : BufTy).Contents (Elt Ideal)) : Glue.asRow (F := Ideal) b = Spec.rowOf b := by
  funext i
  obtain ⟨u, q, rfl⟩ : ∃ (u : Fin 1) (q : Fin 128), i = ix2 u q := ⟨i 0, i 1, eq_ix2 i⟩
  exact shapeCast_a_1a_apply b _ u q

variable (m : (ℓ : Loc nD τ sig) → Buf (Elt Ideal) ℓ) (ρ : Dev nD → PrngReg) (c : Dev nD)

/-! ## The first region's outputs are the reference's node projections -/

theorem srcGate_eq : (W2 m ρ c (Proc.devRef .tc main_v5_0) : Spec.Mat 10000) = Cert.ReferenceIdeal.Read.val_main_v8 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)) := by
  have h_main_arg0 : (V1 m ρ c main_arg0 : Spec.Mat 10000) = (m ((c : Thread nD τ).loc main_arg0)) := Glue.W1_arg0 m ρ c
  have h_main_arg2 : (V1 m ρ c main_arg2 : Spec.Mat 10000) = (m ((c : Thread nD τ).loc main_arg2)) := Glue.W1_arg2 m ρ c
  have h_main_arg7 : (V1 m ρ c main_arg7 : Spec.Mat 128) = (m ((c : Thread nD τ).loc main_arg7)) := Glue.W1_arg7 m ρ c
  have h_main_arg5 : (V1 m ρ c main_arg5 : Spec.Mat 128) = (m ((c : Thread nD τ).loc main_arg5)) := Glue.W1_arg5 m ρ c
  have h_main_v0 : (V1 m ρ c main_v0 : Spec.Mat 1) = Spec.rowOf (m ((c : Thread nD τ).loc main_arg8)) := (Glue.W1_v0 m ρ c).trans (asRow_eq _)
  have h_main_v2 : (V1 m ρ c main_v2 : Spec.Mat 1) = Spec.rowOf (m ((c : Thread nD τ).loc main_arg6)) := (Glue.W1_v2 m ρ c).trans (asRow_eq _)
  rw [Glue.W2_v5_0, Region0.final12 (V1 m ρ) c, h_main_arg0, h_main_arg2, h_main_arg7, h_main_arg5, h_main_v0, h_main_v2]
  exact (Cert.ReferenceIdeal.RefSpec.srcGate (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8))).symm

theorem dstGate_eq : (W2 m ρ c (Proc.devRef .tc main_v5_1) : Spec.Mat 10000) = Cert.ReferenceIdeal.Read.val_main_v12 (F := Ideal) (m ((c : Thread nD τ).loc main_arg0)) (m ((c : Thread nD τ).loc main_arg9)) (m ((c : Thread nD τ).loc main_arg10)) := by
  have h_main_arg0 : (V1 m ρ c main_arg0 : Spec.Mat 10000) = (m ((c : Thread nD τ).loc main_arg0)) := Glue.W1_arg0 m ρ c
  have h_main_arg9 : (V1 m ρ c main_arg9 : Spec.Mat 128) = (m ((c : Thread nD τ).loc main_arg9)) := Glue.W1_arg9 m ρ c
  have h_main_v1 : (V1 m ρ c main_v1 : Spec.Mat 1) = Spec.rowOf (m ((c : Thread nD τ).loc main_arg10)) := (Glue.W1_v1 m ρ c).trans (asRow_eq _)
  rw [Glue.W2_v5_1, Region0.final13 (V1 m ρ) c, h_main_arg0, h_main_arg9, h_main_v1]
  exact (Cert.ReferenceIdeal.RefSpec.dstGate (m ((c : Thread nD τ).loc main_arg0)) (m ((c : Thread nD τ).loc main_arg9)) (m ((c : Thread nD τ).loc main_arg10))).symm

theorem message_eq : (W2 m ρ c (Proc.devRef .tc main_v5_2) : Spec.Mat 10000) = Cert.ReferenceIdeal.Read.val_main_v42 (F := Ideal) (m ((c : Thread nD τ).loc main_arg0)) (m ((c : Thread nD τ).loc main_arg15)) (m ((c : Thread nD τ).loc main_arg16)) := by
  have h_main_arg0 : (V1 m ρ c main_arg0 : Spec.Mat 10000) = (m ((c : Thread nD τ).loc main_arg0)) := Glue.W1_arg0 m ρ c
  have h_main_arg15 : (V1 m ρ c main_arg15 : Spec.Mat 128) = (m ((c : Thread nD τ).loc main_arg15)) := Glue.W1_arg15 m ρ c
  have h_main_v3 : (V1 m ρ c main_v3 : Spec.Mat 1) = Spec.rowOf (m ((c : Thread nD τ).loc main_arg16)) := (Glue.W1_v3 m ρ c).trans (asRow_eq _)
  rw [Glue.W2_v5_2, Region0.final14 (V1 m ρ) c, h_main_arg0, h_main_arg15, h_main_v3]
  exact (Cert.ReferenceIdeal.RefSpec.message (m ((c : Thread nD τ).loc main_arg0)) (m ((c : Thread nD τ).loc main_arg15)) (m ((c : Thread nD τ).loc main_arg16))).symm

theorem selfUpdate_eq : (W2 m ρ c (Proc.devRef .tc main_v5_3) : Spec.Mat 10000) = Cert.ReferenceIdeal.Read.val_main_v63 (F := Ideal) (m ((c : Thread nD τ).loc main_arg0)) (m ((c : Thread nD τ).loc main_arg13)) (m ((c : Thread nD τ).loc main_arg14)) := by
  have h_main_arg0 : (V1 m ρ c main_arg0 : Spec.Mat 10000) = (m ((c : Thread nD τ).loc main_arg0)) := Glue.W1_arg0 m ρ c
  have h_main_arg13 : (V1 m ρ c main_arg13 : Spec.Mat 128) = (m ((c : Thread nD τ).loc main_arg13)) := Glue.W1_arg13 m ρ c
  have h_main_v4 : (V1 m ρ c main_v4 : Spec.Mat 1) = Spec.rowOf (m ((c : Thread nD τ).loc main_arg14)) := (Glue.W1_v4 m ρ c).trans (asRow_eq _)
  rw [Glue.W2_v5_3, Region0.final15 (V1 m ρ) c, h_main_arg0, h_main_arg13, h_main_v4]
  exact (Cert.ReferenceIdeal.RefSpec.selfUpdate (m ((c : Thread nD τ).loc main_arg0)) (m ((c : Thread nD τ).loc main_arg13)) (m ((c : Thread nD τ).loc main_arg14))).symm

/-! ## What the second region reads -/

/-- The wrapped gather index is the reference's. -/
theorem wrapIdx_eq (x : (⟨S320000, .i32⟩ : BufTy).Contents (Elt Ideal)) : Glue.wrapIdx (F := Ideal) x = Cert.ReferenceIdeal.Read.val_main_v18 (F := Ideal) x := rfl
theorem wrapIdx_eq' (x : (⟨S320000, .i32⟩ : BufTy).Contents (Elt Ideal)) : Glue.wrapIdx (F := Ideal) x = Cert.ReferenceIdeal.Read.val_main_v25 (F := Ideal) x := rfl
theorem wrapIdx_eq'' (x : (⟨S320000, .i32⟩ : BufTy).Contents (Elt Ideal)) : Glue.wrapIdx (F := Ideal) x = Cert.ReferenceIdeal.Read.val_main_v48 (F := Ideal) x := rfl

theorem gateIn_eq : (V3 m ρ c main_v20 : Spec.Mat 320000) = Cert.ReferenceIdeal.Read.val_main_v27 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [Glue.V3_v20, srcGate_eq, dstGate_eq, wrapIdx_eq, wrapIdx_eq']
  rfl

theorem messageIn_eq : (V3 m ρ c main_v27 : Spec.Mat 320000) = Cert.ReferenceIdeal.Read.val_main_v49 (F := Ideal) (m ((c : Thread nD τ).loc main_arg0)) (m ((c : Thread nD τ).loc main_arg3)) (m ((c : Thread nD τ).loc main_arg15)) (m ((c : Thread nD τ).loc main_arg16)) := by
  rw [Glue.V3_v27, message_eq, wrapIdx_eq'']
  rfl

/-! ## The second region's outputs are the reference's gate, gated message and edge output -/

/-- The pre-activation of the specification over the reference's gathered gate input is the reference's stage. -/
theorem pre_at (r : Fin 320000) (q : Fin 128) : Spec.preAt (Cert.ReferenceIdeal.Read.val_main_v27 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg1)) (m ((c : Thread nD τ).loc main_arg11)) (Spec.rowOf (m ((c : Thread nD τ).loc main_arg12))) r q = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 r q) := by
  rw [Cert.ReferenceIdeal.RefSpec.preActivation]
  rfl

theorem gate_at (r : Fin 320000) (q : Fin 128) : Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 r q) = Ideal.logistic (Spec.preAt (Cert.ReferenceIdeal.Read.val_main_v27 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg1)) (m ((c : Thread nD τ).loc main_arg11)) (Spec.rowOf (m ((c : Thread nD τ).loc main_arg12))) r q) := by
  rw [Cert.ReferenceIdeal.RefSpec.gate, pre_at]
  rfl

theorem gate_eq : (W4 m ρ c (Proc.devRef .tc main_v31_0) : Spec.Mat 320000) = Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have h_main_v20 : (V3 m ρ c main_v20 : Spec.Mat 320000) = Cert.ReferenceIdeal.Read.val_main_v27 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := gateIn_eq m ρ c
  have h_main_arg1 : (V3 m ρ c main_arg1 : Spec.Mat 320000) = (m ((c : Thread nD τ).loc main_arg1)) := Glue.V3_arg1 m ρ c
  have h_main_arg11 : (V3 m ρ c main_arg11 : Spec.Mat 128) = (m ((c : Thread nD τ).loc main_arg11)) := Glue.V3_arg11 m ρ c
  have h_main_v28 : (V3 m ρ c main_v28 : Spec.Mat 1) = Spec.rowOf (m ((c : Thread nD τ).loc main_arg12)) := (Glue.V3_v28 m ρ c).trans (asRow_eq _)
  rw [Glue.W4_v31_0, Region1.final7 (V3 m ρ) c, h_main_v20, h_main_arg1, h_main_arg11, h_main_v28]
  refine Eq.trans (congrArg Spec.ofAt (funext fun r => funext fun q => ?_)) (Cert.ReferenceIdeal.RefSpec.gate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))).symm
  rw [pre_at]

theorem gatedMessage_eq : (W4 m ρ c (Proc.devRef .tc main_v31_1) : Spec.Mat 320000) = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) := by
  have h_main_v20 : (V3 m ρ c main_v20 : Spec.Mat 320000) = Cert.ReferenceIdeal.Read.val_main_v27 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := gateIn_eq m ρ c
  have h_main_arg1 : (V3 m ρ c main_arg1 : Spec.Mat 320000) = (m ((c : Thread nD τ).loc main_arg1)) := Glue.V3_arg1 m ρ c
  have h_main_arg11 : (V3 m ρ c main_arg11 : Spec.Mat 128) = (m ((c : Thread nD τ).loc main_arg11)) := Glue.V3_arg11 m ρ c
  have h_main_v28 : (V3 m ρ c main_v28 : Spec.Mat 1) = Spec.rowOf (m ((c : Thread nD τ).loc main_arg12)) := (Glue.V3_v28 m ρ c).trans (asRow_eq _)
  have h_main_v27 : (V3 m ρ c main_v27 : Spec.Mat 320000) = Cert.ReferenceIdeal.Read.val_main_v49 (F := Ideal) (m ((c : Thread nD τ).loc main_arg0)) (m ((c : Thread nD τ).loc main_arg3)) (m ((c : Thread nD τ).loc main_arg15)) (m ((c : Thread nD τ).loc main_arg16)) := messageIn_eq m ρ c
  rw [Glue.W4_v31_1, Region1.final8 (V3 m ρ) c, h_main_v20, h_main_arg1, h_main_arg11, h_main_v28, h_main_v27]
  refine Eq.trans (congrArg Spec.ofAt (funext fun r => funext fun q => ?_)) (Cert.ReferenceIdeal.RefSpec.gatedMessage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16))).symm
  rw [gate_at]

theorem edgeOut_eq : (W4 m ρ c (Proc.devRef .tc main_v31_2) : Spec.Mat 320000) = Cert.ReferenceIdeal.Read.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg17)) (m ((c : Thread nD τ).loc main_arg18)) := by
  have h_main_v20 : (V3 m ρ c main_v20 : Spec.Mat 320000) = Cert.ReferenceIdeal.Read.val_main_v27 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := gateIn_eq m ρ c
  have h_main_arg1 : (V3 m ρ c main_arg1 : Spec.Mat 320000) = (m ((c : Thread nD τ).loc main_arg1)) := Glue.V3_arg1 m ρ c
  have h_main_arg11 : (V3 m ρ c main_arg11 : Spec.Mat 128) = (m ((c : Thread nD τ).loc main_arg11)) := Glue.V3_arg11 m ρ c
  have h_main_v28 : (V3 m ρ c main_v28 : Spec.Mat 1) = Spec.rowOf (m ((c : Thread nD τ).loc main_arg12)) := (Glue.V3_v28 m ρ c).trans (asRow_eq _)
  have h_main_v29 : (V3 m ρ c main_v29 : Spec.Mat 1) = Spec.rowOf (m ((c : Thread nD τ).loc main_arg17)) := (Glue.V3_v29 m ρ c).trans (asRow_eq _)
  have h_main_v30 : (V3 m ρ c main_v30 : Spec.Mat 1) = Spec.rowOf (m ((c : Thread nD τ).loc main_arg18)) := (Glue.V3_v30 m ρ c).trans (asRow_eq _)
  rw [Glue.W4_v31_2, Region1.final9 (V3 m ρ) c, h_main_v20, h_main_arg1, h_main_arg11, h_main_v28, h_main_v29, h_main_v30]
  refine Eq.trans (congrArg Spec.ofAt (funext fun r => funext fun q => ?_)) (Cert.ReferenceIdeal.RefNorm.edgeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg17)) (m ((c : Thread nD τ).loc main_arg18))).symm
  unfold Spec.edgeOutAt
  rw [show (fun k => Spec.preAt (Cert.ReferenceIdeal.Read.val_main_v27 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg1)) (m ((c : Thread nD τ).loc main_arg11)) (Spec.rowOf (m ((c : Thread nD τ).loc main_arg12))) r k) = fun k => Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 r k) from funext fun k => pre_at m c r k]

/-! ## What the third region reads: the two segment sums -/

theorem sumMessages_eq : (V5 m ρ c main_v35 : Spec.Mat 10000) = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) := by
  rw [Glue.V5_v35, gatedMessage_eq]
  rfl

theorem sumGates_eq : (V5 m ρ c main_v39 : Spec.Mat 10000) = Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [Glue.V5_v39, gate_eq]
  rfl

/-! ## The two results -/

theorem nodePre_at (r : Fin 10000) (k : Fin 128) : Spec.nodePreAt (Cert.ReferenceIdeal.Read.val_main_v63 (F := Ideal) (m ((c : Thread nD τ).loc main_arg0)) (m ((c : Thread nD τ).loc main_arg13)) (m ((c : Thread nD τ).loc main_arg14))) (Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16))) (Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) r k = Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 r k) := by
  rw [Cert.ReferenceIdeal.RefSpec.nodePre]
  rfl

theorem nodeResult_eq : (W6 m ρ c (Proc.devRef .tc main_v42) : Spec.Mat 10000) = Cert.ReferenceIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg19)) (m ((c : Thread nD τ).loc main_arg20)) := by
  have h_main_arg0 : (V5 m ρ c main_arg0 : Spec.Mat 10000) = (m ((c : Thread nD τ).loc main_arg0)) := Glue.V5_arg0 m ρ c
  have h_main_v5_3 : (V5 m ρ c main_v5_3 : Spec.Mat 10000) = Cert.ReferenceIdeal.Read.val_main_v63 (F := Ideal) (m ((c : Thread nD τ).loc main_arg0)) (m ((c : Thread nD τ).loc main_arg13)) (m ((c : Thread nD τ).loc main_arg14)) := (Glue.V5_v5_3 m ρ c).trans (selfUpdate_eq m ρ c)
  have h_main_v35 : (V5 m ρ c main_v35 : Spec.Mat 10000) = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) := sumMessages_eq m ρ c
  have h_main_v39 : (V5 m ρ c main_v39 : Spec.Mat 10000) = Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := sumGates_eq m ρ c
  have h_main_v40 : (V5 m ρ c main_v40 : Spec.Mat 1) = Spec.rowOf (m ((c : Thread nD τ).loc main_arg19)) := (Glue.V5_v40 m ρ c).trans (asRow_eq _)
  have h_main_v41 : (V5 m ρ c main_v41 : Spec.Mat 1) = Spec.rowOf (m ((c : Thread nD τ).loc main_arg20)) := (Glue.V5_v41 m ρ c).trans (asRow_eq _)
  rw [Glue.W6_v42, Region2.final6 (V5 m ρ) c, h_main_arg0, h_main_v5_3, h_main_v35, h_main_v39, h_main_v40, h_main_v41]
  refine Eq.trans (congrArg Spec.ofAt (funext fun r => funext fun q => ?_)) (Cert.ReferenceIdeal.RefNorm.nodeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg19)) (m ((c : Thread nD τ).loc main_arg20))).symm
  unfold Spec.nodeOutAt
  rw [show (fun k => Spec.nodePreAt (Cert.ReferenceIdeal.Read.val_main_v63 (F := Ideal) (m ((c : Thread nD τ).loc main_arg0)) (m ((c : Thread nD τ).loc main_arg13)) (m ((c : Thread nD τ).loc main_arg14))) (Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16))) (Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) r k) = fun k => Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 r k) from funext fun k => nodePre_at m c r k]

theorem edgeResult_eq : (W6 m ρ c (Proc.devRef .tc main_v31_2) : Spec.Mat 320000) = Cert.ReferenceIdeal.Read.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg17)) (m ((c : Thread nD τ).loc main_arg18)) :=
  (Glue.W6_v31_2 m ρ c).trans ((Glue.W4_v31_2 m ρ c).symm.trans (edgeOut_eq m ρ c))

/-! ## The claim -/

set_option maxHeartbeats 8000000 in
/-- From memories agreeing on the arguments both programs run, and end with the same two results: the kernel
    program's results are the reference's stages of the kernel memory's arguments, the reference's results those stages of
    its own arguments, which agree. -/
theorem algebraic : Cert.algebraic_KernelIdeal_ReferenceIdeal := by
  intro m ρ m' ρ' _ hagree
  refine ⟨fun c => Cert.ReferenceIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg19)) (m ((c : Thread nD τ).loc main_arg20)), fun c => Cert.ReferenceIdeal.Read.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg17)) (m ((c : Thread nD τ).loc main_arg18)), ?_, ?_⟩
  · exact (θ_run Cert.KernelIdeal.defs _ _).mono
      (fun r h c => ⟨(h c).1.trans (nodeResult_eq m ρ c), (h c).2.1.trans (edgeResult_eq m ρ c), (h c).2.2⟩)
      (Cert.KernelIdeal.RunValues.run (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10, e11, e12, e13, e14, e15, e16, e17, e18, e19, e20⟩ := hagree c
      rw [Cert.ReferenceIdeal.Read.val_main_v115_eq, e0, e1, e2, e3, e4, e5, e6, e7, e8, e9, e10, e11, e12, e13, e14, e15, e16, e19, e20]
    · obtain ⟨e0, e1, e2, e3, e4, e5, e6, e7, e8, e9, e10, e11, e12, e13, e14, e15, e16, e17, e18, e19, e20⟩ := hagree c
      rw [Cert.ReferenceIdeal.Read.val_main_v116_eq, e0, e1, e2, e3, e4, e5, e6, e7, e8, e9, e10, e11, e12, e17, e18]

end Cert.Bridge

end
-- ==== Proof.lean ====
/-
  The certificate of the edge-gated graph convolution: the three-region kernel program against its jnp reference.

  The three frames are the generated ones (the reference's is its generated run with the results dropped); the ideal
  pass rewrote nothing, so the kernel program's idealization is its own text read at the extended reals; and at the
  extended reals the two programs end with the same node and edge outputs: `Cert.Bridge.algebraic`, which walks the
  kernel program's segments and identifies each region's output arrays with the reference's stages, row by row.
-/
import proofs.«130515_j52106543235177_2_alg».proof.Defs
import proofs.«130515_j52106543235177_2_alg».proof.Proof.Gen.Kernel
import proofs.«130515_j52106543235177_2_alg».proof.Proof.Gen.Kernel.Skeleton
import proofs.«130515_j52106543235177_2_alg».proof.Proof.Gen.Kernel.Launch
import proofs.«130515_j52106543235177_2_alg».proof.Proof.Gen.Kernel.Points
import proofs.«130515_j52106543235177_2_alg».proof.Proof.Gen.Kernel.Frame
import proofs.«130515_j52106543235177_2_alg».proof.Proof.Gen.KernelIdeal
import proofs.«130515_j52106543235177_2_alg».proof.Proof.Gen.KernelIdeal.Skeleton
import proofs.«130515_j52106543235177_2_alg».proof.Proof.Gen.KernelIdeal.Launch
import proofs.«130515_j52106543235177_2_alg».proof.Proof.Gen.KernelIdeal.Points
import proofs.«130515_j52106543235177_2_alg».proof.Proof.Gen.KernelIdeal.Frame
import proofs.«130515_j52106543235177_2_alg».proof.Proof.Gen.ReferenceIdeal
import proofs.«130515_j52106543235177_2_alg».proof.Proof.Gen.Pre_finite_inputs
import proofs.«130515_j52106543235177_2_alg».proof.Proof.Gen.ReferenceIdeal.Run
import proofs.«130515_j52106543235177_2_alg».proof.Proof.Gen.ReferenceIdeal.Read
import proofs.«130515_j52106543235177_2_alg».proof.Proof.Bridge
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Bridge.algebraic⟩

end Cert.Proof

end
